-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1x2048 : Shape := ⟨3, ![8, 1, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x2048x1024 .f32) (main_arg1 : FVec F S8x1x2048 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1x2048 .f32 := Host.absf main_arg1
  let main_cst_0 : FVec F S_ .f32 := constant S_ .f32 0x7F800000#32
  let main_v5 : FVec F S8x1x2048 .f32 := broadcastInDim S8x1x2048 ![] bcast_S_S8x1x2048 main_cst_0
  let main_v6 : IVec S8x1x2048 1 := cmpf .olt main_v4 main_v5
  let main_c_1 : IVec S_ 1 := constantI S_ 1 1#1
  let main_v7 : IVec S_ 1 := (fun x v => Host.reduce IntOp.andi x v reducesTo_S8x1x2048_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x2048x1024 : Shape := ⟨3, ![8, 2048, 1024]⟩
abbrev S8x1x2048 : Shape := ⟨3, ![8, 1, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1x512 : Shape := ⟨3, ![1, 1, 512]⟩
abbrev S1024x1 : Shape := ⟨2, ![1024, 1]⟩
abbrev S512x1024 : Shape := ⟨2, ![512, 1024]⟩
abbrev S1024x512 : Shape := ⟨2, ![1024, 512]⟩
abbrev S512 : Shape := ⟨1, ![512]⟩
abbrev S1x512 : Shape := ⟨2, ![1, 512]⟩

abbrev nBuf : Space → Nat
  | .hbm => 25
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16384x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S8x2048x1024, .f32⟩
  | .hbm, ⟨22, _⟩ => ⟨S8x2048x1024, .f32⟩
  | .hbm, ⟨23, _⟩ => ⟨S8x2048x1024, .bf16⟩
  | .hbm, ⟨24, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1x512, .f32⟩
  | .local _ .vmem, ⟨21, _⟩ => ⟨S1x1x512, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x1, .f32⟩
  | .local _ .vmem, ⟨27, _⟩ => ⟨S1024x1, .f32⟩
  | .local _ .vmem, ⟨28, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_31 : BitVec 32 := 0#32
  let v51 : BitVec 1 := Scalar.cmpi .ne v50 c0_i32_31
  v51

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .bf16 = 32 ∨ (Rect.block (s := S16384x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .f32 = 32 ∨ (Rect.block (s := S8x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .f32 = 32 ∨ (Rect.block (s := S8x2048x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S8x1x2048.size a
  hwx1_3 : ∀ i : grid1.Coords, EltTy.bits .f32 = 32 ∨ (Rect.block (s := S8x1x2048) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x2048x1024.size a
  hwx1_4 : ∀ i : grid1.Coords, EltTy.bits .f32 = 32 ∨ (Rect.block (s := S8x2048x1024) S1x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S8x2048x1024.size a
  hwx1_5 : ∀ i : grid1.Coords, EltTy.bits .f32 = 32 ∨ (Rect.block (s := S8x2048x1024) S1x1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1x2048 : Shape := ⟨3, ![8, 1, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x2048x1024, .f32⟩
  | .hbm, ⟨9, _⟩ => ⟨S1x1x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S_, .f32⟩
  | .hbm, ⟨34, _⟩ => ⟨S8x1x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S8x2048x1024, .f32⟩
  | .hbm, ⟨53, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_cst : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  bcast_S_S8x1x2048 : S_.BroadcastsInDim S8x1x2048 (![] : Fin 0 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Run.lean ====
/-
  The run of @main from the launch to the return, as four segments in order: the ten host operations (one reshape of
  the activations, three transposes each followed by a change of format, three reshapes of the biases), region 0
  (the three projections q, k, v on a grid of 16 row blocks), the three host reshapes of its results, and region 1
  (the attention kernel on its grid of 8 · 2 · 4 points).

  Everything here is stated at any float instance F and over proof data of the two regions that are PARAMETERS:
  for each region a family of proof data indexed by the buffer contents the region is entered from, whose arrays
  are read off those contents, which holds every array at the full share, owes nothing, bounds the recorded waits
  by nothing, and meets the body obligation. Region 0's invariant is the class invariant (the scoped rest and the generator register) at every
  point. Region 1 carries its scratch buffers from point to point, so its invariant is only entailed by the class
  invariant before the first point and entails it after the last.

  The buffer contents at the five segment boundaries are a fold from the launch memory: a host stretch rewrites the
  buffers its operations write; a region leaves each of its arrays at what its write-backs fold to and every other
  buffer as entered. From the fold: the run (every unscoped buffer ends at the last boundary's contents), each of
  the eight arguments read back through the fold to its launch contents, the attention output's buffer, and the
  frame statement.
-/
import proofs.«152723_j25331717111812_2_alg».proof.Proof.Gen.Kernel.Launch
import proofs.«152723_j25331717111812_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The TensorCore's buffer contents on every core: what a region's proof data are indexed by. -/
abbrev Vt (F : FTy → Type) [FloatOps F] : Type :=
  (c : Dev nD) → (b : Ref sig .tc) → Buf (Elt F) ((c : Thread nD τ).loc b)

/-! ## The dues of proof data that owe nothing -/

/-- Proof data that owe nothing before a point and put no bound on the recorded waits there hold the core's dues,
    before that point, as soon as the core owes nothing. -/
theorem owesAt_of_owes {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- Conversely the dues held before a point where the proof data owe nothing are the core owing nothing. -/
theorem owes_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## Region 1's invariant at the two ends of its grid -/

/-- Region 1's invariant before its first point follows from the class invariant (the scoped rest and the generator
    register), whatever contents the region is entered from. -/
def InvIn1 (dat1 : Vt F → (c : Dev nD) → Dat τ (Elt F) Unit ℕ (UR sig nD τ) ℕ cfg1 c) : Prop :=
  ∀ V c, (Pipeline.ΦA spec1 c : sProp 𝕄) ⊢ (dat1 V c).Φ 0
/-- Region 1's invariant after its last point gives the class invariant back. -/
def InvOut1 (dat1 : Vt F → (c : Dev nD) → Dat τ (Elt F) Unit ℕ (UR sig nD τ) ℕ cfg1 c) : Prop :=
  ∀ V c, (dat1 V c).Φ (Fin.last cfg1.N) ⊢ (Pipeline.ΦA spec1 c : sProp 𝕄)

section Run

/-! ## The regions' proof data, as parameters -/

variable
  (dat0 : Vt F → (c : Dev nD) → Dat τ (Elt F) Unit ℕ (UR sig nD τ) ℕ cfg0 c)
  (hA0 : ∀ V c w, (dat0 V c).A w = V c (Pipeline.arrRef spec0 w))
  (hΦ0 : ∀ V c t, (dat0 V c).Φ t = Pipeline.ΦA spec0 c)
  (hq0 : ∀ V c w, (dat0 V c).q w = fullShare)
  (ho0 : ∀ V c t, (dat0 V c).owed t = 0)
  (hrec0 : ∀ V c t, (dat0 V c).recorded t = Set.univ)
  (hbody0 : ∀ V c, BodyObligation (dat0 V c) (defs₀ (F := F)) Variants.none () Set.univ)
  (dat1 : Vt F → (c : Dev nD) → Dat τ (Elt F) Unit ℕ (UR sig nD τ) ℕ cfg1 c)
  (hA1 : ∀ V c w, (dat1 V c).A w = V c (Pipeline.arrRef spec1 w))
  (hq1 : ∀ V c w, (dat1 V c).q w = fullShare)
  (ho1 : ∀ V c t, (dat1 V c).owed t = 0)
  (hrec1 : ∀ V c t, (dat1 V c).recorded t = Set.univ)
  (hbody1 : ∀ V c, BodyObligation (dat1 V c) (defs₀ (F := F)) Variants.none () Set.univ)
  (hin1 : InvIn1 dat1)
  (hout1 : InvOut1 dat1)

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : Vt F := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
/-- The same read at the TensorCore's references (region 0's exit contents). -/
abbrev V2 : Vt F := fun c b => W2 dat0 m ρ c b
/-- At region 0's exit each of its arrays holds what the pipeline leaves and every other buffer what it held at
    entry. -/
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

/-- After the second host stretch (region 1's entry). -/
abbrev W3 : Dev nD → Valuation τ sig (Elt F) := fun c => StableHlo.after hostOps1 (W2 dat0 m ρ c)
/-- The same read at the TensorCore's references (what region 1's proof data take). -/
abbrev V3 : Vt F := fun c b => W3 dat0 m ρ c b
/-- At region 1's exit: its arrays at what the pipeline leaves, every other buffer as entered. -/
def W4 (c : Dev nD) : Valuation τ sig (Elt F) :=
  Pipeline.withArrays spec1 c (W3 dat0 m ρ c) fun w => (dat1 (V3 dat0 m ρ) c).arrAt w cfg1.N
theorem W4_arr (c : Dev nD) (w : Fin cfg1.W) :
    W4 dat0 dat1 m ρ c (Proc.devRef .tc (Pipeline.arrRef spec1 w)) = (dat1 (V3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
/-- The same read at the TensorCore's references (region 1's exit contents). -/
abbrev V4 : Vt F := fun c b => W4 dat0 dat1 m ρ c b
theorem hF1 (c : Dev nD) (w : Fin cfg1.W) : (dat1 (V3 dat0 m ρ) c).arrAt w cfg1.N = V4 dat0 dat1 m ρ c (Pipeline.arrRef spec1 w) :=
  (W4_arr dat0 dat1 m ρ c w).symm
theorem hrest1 (c : Dev nD) : ∀ b, b ∉ Finset.univ.image (Pipeline.arrRef spec1) → V4 dat0 dat1 m ρ c b = V3 dat0 m ρ c b :=
  fun b hb => W4_of_ne dat0 dat1 m ρ c b fun w e => hb (Finset.mem_image.mpr ⟨w, Finset.mem_univ _, e⟩)

/-! ### What each host stretch leaves alone -/

/-- A reference the first host stretch does not write keeps its launch contents. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h
/-- A reference the second host stretch does not write keeps what region 0 left. -/
theorem W3_of (c : Dev nD) (r : Ref sig .tc) (h : r ∉ hostOps1_W) :
    W3 dat0 m ρ c (Proc.devRef .tc r) = W2 dat0 m ρ c (Proc.devRef .tc r) :=
  StableHlo.after_of_writes_sub hostOps1 _ hostOps1_writes h

/-! ### The arguments end as launched, and the attention output's buffer

No host operation writes an argument. Region 0 stages none. Region 1 reads the residual input (argument 0) through
its window 4 and the mask (argument 1) through its window 3, both inputs, whose arrays the write-backs never
touch; it stages no other argument. So the fold at an argument's buffer walks back to the launch memory. -/

include hA1 in
theorem W4_main_arg0 (c : Dev nD) : W4 dat0 dat1 m ρ c (Proc.devRef .tc main_arg0) = m ((c : Thread nD τ).loc main_arg0) :=
  calc W4 dat0 dat1 m ρ c (Proc.devRef .tc main_arg0)
    _ = W3 dat0 m ρ c (Proc.devRef .tc main_arg0) :=
        (W4_arr dat0 dat1 m ρ c 4).trans (((dat1 (V3 dat0 m ρ) c).arrAt_in 4 rfl _).trans (hA1 (V3 dat0 m ρ) c 4))
    _ = W2 dat0 m ρ c (Proc.devRef .tc main_arg0) := W3_of dat0 m ρ c main_arg0 (by decide)
    _ = W1 m ρ c (Proc.devRef .tc main_arg0) := W2_of_ne dat0 m ρ c main_arg0 (by decide)
    _ = m ((c : Thread nD τ).loc main_arg0) := W1_of m ρ c main_arg0 (by decide)

include hA1 in
theorem W4_main_arg1 (c : Dev nD) : W4 dat0 dat1 m ρ c (Proc.devRef .tc main_arg1) = m ((c : Thread nD τ).loc main_arg1) :=
  calc W4 dat0 dat1 m ρ c (Proc.devRef .tc main_arg1)
    _ = W3 dat0 m ρ c (Proc.devRef .tc main_arg1) :=
        (W4_arr dat0 dat1 m ρ c 3).trans (((dat1 (V3 dat0 m ρ) c).arrAt_in 3 rfl _).trans (hA1 (V3 dat0 m ρ) c 3))
    _ = W2 dat0 m ρ c (Proc.devRef .tc main_arg1) := W3_of dat0 m ρ c main_arg1 (by decide)
    _ = W1 m ρ c (Proc.devRef .tc main_arg1) := W2_of_ne dat0 m ρ c main_arg1 (by decide)
    _ = m ((c : Thread nD τ).loc main_arg1) := W1_of m ρ c main_arg1 (by decide)

/-- A reference that is no array of either region and that no host operation writes ends as launched. -/
theorem W4_of_untouched (c : Dev nD) (r : Ref sig .tc) (h1 : ∀ w, Pipeline.arrRef spec1 w ≠ r) (h3 : r ∉ hostOps1_W)
    (h0 : ∀ w, Pipeline.arrRef spec0 w ≠ r) (h2 : r ∉ hostOps0_W) :
    W4 dat0 dat1 m ρ c (Proc.devRef .tc r) = m ((c : Thread nD τ).loc r) :=
  (W4_of_ne dat0 dat1 m ρ c r h1).trans <| (W3_of dat0 m ρ c r h3).trans <| (W2_of_ne dat0 m ρ c r h0).trans (W1_of m ρ c r h2)

theorem W4_main_arg2 (c : Dev nD) : W4 dat0 dat1 m ρ c (Proc.devRef .tc main_arg2) = m ((c : Thread nD τ).loc main_arg2) :=
  W4_of_untouched dat0 dat1 m ρ c main_arg2 (by decide) (by decide) (by decide) (by decide)
theorem W4_main_arg3 (c : Dev nD) : W4 dat0 dat1 m ρ c (Proc.devRef .tc main_arg3) = m ((c : Thread nD τ).loc main_arg3) :=
  W4_of_untouched dat0 dat1 m ρ c main_arg3 (by decide) (by decide) (by decide) (by decide)
theorem W4_main_arg4 (c : Dev nD) : W4 dat0 dat1 m ρ c (Proc.devRef .tc main_arg4) = m ((c : Thread nD τ).loc main_arg4) :=
  W4_of_untouched dat0 dat1 m ρ c main_arg4 (by decide) (by decide) (by decide) (by decide)
theorem W4_main_arg5 (c : Dev nD) : W4 dat0 dat1 m ρ c (Proc.devRef .tc main_arg5) = m ((c : Thread nD τ).loc main_arg5) :=
  W4_of_untouched dat0 dat1 m ρ c main_arg5 (by decide) (by decide) (by decide) (by decide)
theorem W4_main_arg6 (c : Dev nD) : W4 dat0 dat1 m ρ c (Proc.devRef .tc main_arg6) = m ((c : Thread nD τ).loc main_arg6) :=
  W4_of_untouched dat0 dat1 m ρ c main_arg6 (by decide) (by decide) (by decide) (by decide)
theorem W4_main_arg7 (c : Dev nD) : W4 dat0 dat1 m ρ c (Proc.devRef .tc main_arg7) = m ((c : Thread nD τ).loc main_arg7) :=
  W4_of_untouched dat0 dat1 m ρ c main_arg7 (by decide) (by decide) (by decide) (by decide)

/-- The attention output's buffer ends at what region 1's write-backs of its window 5 fold to. -/
theorem W4_main_v14 (c : Dev nD) :
    W4 dat0 dat1 m ρ c (Proc.devRef .tc main_v14) = (dat1 (V3 dat0 m ρ) c).arrAt 5 cfg1.N :=
  W4_arr dat0 dat1 m ρ c 5

/-! ## The proof data family and the thread state -/

/-- Both pipelines' proof data, each at its region's entry contents: a literal match on the pipeline's index, so
    that the pinned configuration at a numeral reduces to the printed one. -/
def pdats : (p : Fin 2) → (c : Dev nD) → Dat τ (Elt F) Unit ℕ (UR sig nD τ) ℕ (Pipeline.pin (pcfgs (F := F)) Gen.adm p) c
  | ⟨0, _⟩ => fun c => dat0 (V1 m ρ) c
  | ⟨1, _⟩ => fun c => dat1 (V3 dat0 m ρ) c

/-- No core owes another anything: no level is assigned. -/
abbrev runL : GSem nD τ sig → Finset Unit := fun _ => ∅
abbrev runLv : GSem nD τ sig → Unit → ℕ := fun _ _ => 0
/-- What rides beside the buffers through every segment: the core's generator register at some state and its
    dues, at nothing. -/
abbrev runR (c : Dev nD) : sProp 𝕄 := iprop((∃ r, prngReg c r) ∗ ∃ W, owes (c : Thread nD τ) (0 : CellTallies nD τ sig Unit) W)
/-- A host stretch as a segment over the unscoped references from the contents W, the rest riding along; it leaves
    those references at the contents after the operations. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev runTn (c : Dev nD) : sProp 𝕄 :=
  iprop(StableHlo.held (c : Thread nD τ) (Pipeline.ucRefs τ sig) (W4 dat0 dat1 m ρ c) ∗ ∃ r, prngReg c r)

/-! ## The regions as segments -/

set_option backward.isDefEq.respectTransparency.types false in
/-- Region 0 over the thread state: entered from every unscoped buffer at W1, left at W2. Its arrays are split out
    of the unscoped buffers and put back at the exit contents; the generator register goes into the class invariant
    and comes back; nothing is owed; the kernel has no semaphore of its own. -/
def runReg0 : Pipeline.RegionSeg (pcfgs (F := F)) Gen.adm (pdats dat0 dat1 m ρ) () defs₀ Variants.none runL runLv 0 where
  win := launch0.win.to₀
  block_pos := launch0.block_pos
  stage_whole := launch0.stage_whole
  K := PEmpty
  osem k := k.elim
  ho := Pipeline.OwnSemFacts.none _
  hbody c := (hbody0 (V1 m ρ) c).loose
  hwaits := Pipeline.hwaits_of_owed_zero _ _ _ _ runL runLv 0 fun c t => ho0 (V1 m ρ) c t
  pre c := iprop(StableHlo.held (c : Thread nD τ) (Pipeline.ucRefs τ sig) (W1 m ρ c) ∗ runR c)
  post c := iprop(StableHlo.held (c : Thread nD τ) (Pipeline.ucRefs τ sig) (W2 dat0 m ρ c) ∗ runR c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) Gen.adm (pdats dat0 dat1 m ρ) launch0.win launch0.arr_whole c
      ((pdats dat0 dat1 m ρ 0 c).share_full fun w => hq0 (V1 m ρ) c w) (V1 m ρ c) fun w => hA0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats dat0 dat1 m ρ 0 c) 0 (ho0 (V1 m ρ) c 0) (hrec0 (V1 m ρ) c 0))
      iexact HO
    isplitl [Hp]; · iexact Hp
    iexact Hrest
  hin c := by
    rw [show (pdats dat0 dat1 m ρ 0 c).Φ 0 = Pipeline.ΦA spec0 c from hΦ0 (V1 m ρ) c 0]; unfold Pipeline.ΦA
    iintro ⟨Hp, -, Hr⟩
    isplitl [Hr]; · iexact Hr
    iexact Hp
  hout c := by
    rw [Pipeline.ownSems0_none, show (pdats dat0 dat1 m ρ 0 c).Φ (Fin.last _) = Pipeline.ΦA spec0 c from hΦ0 (V1 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats dat0 dat1 m ρ) ((pdats dat0 dat1 m ρ 0 c).share_full fun w => hq0 (V1 m ρ) c w)
      (V1 m ρ c) (V2 dat0 m ρ c) ((pdats dat0 dat1 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats dat0 dat1 m ρ 0 c) (Fin.last cfg0.N) (ho0 (V1 m ρ) c (Fin.last cfg0.N)))
    iexact HO

set_option backward.isDefEq.respectTransparency.types false in
/-- Region 1 over the thread state: entered from every unscoped buffer at W3, left at W4, which the launch reads at
    the end. Its invariant takes the class invariant before the first point and gives it back after the last. -/
def runReg1 : Pipeline.RegionSeg (pcfgs (F := F)) Gen.adm (pdats dat0 dat1 m ρ) () defs₀ Variants.none runL runLv 1 where
  win := launch1.win.to₀
  block_pos := launch1.block_pos
  stage_whole := launch1.stage_whole
  K := PEmpty
  osem k := k.elim
  ho := Pipeline.OwnSemFacts.none _
  hbody c := (hbody1 (V3 dat0 m ρ) c).loose
  hwaits := Pipeline.hwaits_of_owed_zero _ _ _ _ runL runLv 1 fun c t => ho1 (V3 dat0 m ρ) c t
  pre c := iprop(StableHlo.held (c : Thread nD τ) (Pipeline.ucRefs τ sig) (W3 dat0 m ρ c) ∗ runR c)
  post c := iprop(runTn dat0 dat1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 dat0 m ρ c)
  hentry c := by
    rw [Pipeline.ownSems0_none]
    have hsplit := Pipeline.arrays_of_unscopedBufs (p := 1) (pcfgs (F := F)) Gen.adm (pdats dat0 dat1 m ρ) launch1.win launch1.arr_whole c
      ((pdats dat0 dat1 m ρ 1 c).share_full fun w => hq1 (V3 dat0 m ρ) c w) (V3 dat0 m ρ c) fun w => hA1 (V3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats dat0 dat1 m ρ 1 c) 0 (ho1 (V3 dat0 m ρ) c 0) (hrec1 (V3 dat0 m ρ) c 0))
      iexact HO
    isplitl [Hp]; · iexact Hp
    iexact Hrest
  hin c := by
    refine BIBase.Entails.trans ?_ (hin1 (V3 dat0 m ρ) c)
    unfold Pipeline.ΦA
    iintro ⟨Hp, -, Hr⟩
    isplitl [Hr]; · iexact Hr
    iexact Hp
  hout c := by
    refine BIBase.Entails.trans (hout1 (V3 dat0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats dat0 dat1 m ρ) ((pdats dat0 dat1 m ρ 1 c).share_full fun w => hq1 (V3 dat0 m ρ) c w)
      (V3 dat0 m ρ c) (V4 dat0 dat1 m ρ c) ((pdats dat0 dat1 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_of_owesAt (pdats dat0 dat1 m ρ 1 c) (Fin.last cfg1.N) (ho1 (V3 dat0 m ρ) c (Fin.last cfg1.N)))
    iexact HO

/-! ## @main as segments, and the launch -/

/-- @main's four segments in order: a host segment per stretch from its boundary's contents, a region per kernel
    call. -/
abbrev runSegs : List (Pipeline.Seg (pcfgs (F := F)) Gen.adm (pdats dat0 dat1 m ρ) () defs₀ Variants.none runL runLv) :=
  [ .host (runHseg hostOps0 hostOps0_sub Gen.hostOps0_fresh (W0 m ρ)),
    .region (runReg0 dat0 hA0 hΦ0 hq0 ho0 hrec0 hbody0 dat1 m ρ),
    .host (runHseg hostOps1 hostOps1_sub Gen.hostOps1_fresh (W2 dat0 m ρ)),
    .region (runReg1 dat0 dat1 hA1 hq1 ho1 hrec1 hbody1 hin1 hout1 m ρ) ]

/-- @main is the run of the segments: it is the chain of its items, and the segments' run is the same chain. -/
theorem main_run (c : Dev nD) :
    main (F := F) c = Pipeline.Seg.run (runSegs dat0 hA0 hΦ0 hq0 ho0 hrec0 hbody0 dat1 hA1 hq1 ho1 hrec1 hbody1 hin1 hout1 m ρ) :=
  (main_chain c).trans (by chain_rfl)

include hA0 hΦ0 hq0 ho0 hrec0 hbody0 hA1 hq1 ho1 hrec1 hbody1 hin1 hout1 in
set_option backward.isDefEq.respectTransparency.types false in
/-- The run, at any post that follows from the last boundary's contents: from any memory with zero counters every
    weakly fair execution of @main on the TensorCores terminates, nothing faulting, and in every final state each
    core's unscoped buffers hold the last boundary's contents W4. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 dat0 dat1 m ρ c b) → Q (⟨⟩, s)) :
    θ_run defs (onTc (τ := τ) (main (F := F))) ⟨m, fun _ => 0, ρ⟩ Q :=
  Pipeline.θ_run_regions_kit (pcfgs (F := F)) Gen.adm (pdats dat0 dat1 m ρ) () cellOf_inj emb₁ defs₀ Variants.none runL runLv m ρ main
    (runSegs dat0 hA0 hΦ0 hq0 ho0 hrec0 hbody0 dat1 hA1 hq1 ho1 hrec1 hbody1 hin1 hout1 m ρ)
    (fun c Q => by rw [main_run dat0 hA0 hΦ0 hq0 ho0 hrec0 hbody0 dat1 hA1 hq1 ho1 hrec1 hbody1 hin1 hout1 m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn dat0 dat1 m ρ)
    (hch := ⟨fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 dat0 dat1 m ρ c) s')
      isplitl [Hh] <;> iassumption)
    (hQ := hQ)

include hA0 hΦ0 hq0 ho0 hrec0 hbody0 hA1 hq1 ho1 hrec1 hbody1 hin1 hout1 in
/-- THE RUN: every final state has each core's unscoped buffers at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 dat0 dat1 m ρ c b) :=
  run_post dat0 hA0 hΦ0 hq0 ho0 hrec0 hbody0 dat1 hA1 hq1 ho1 hrec1 hbody1 hin1 hout1 m ρ fun _ h => h

include hA0 hΦ0 hq0 ho0 hrec0 hbody0 hA1 hq1 ho1 hrec1 hbody1 hin1 hout1 in
/-- THE FRAME, at any float instance: @main runs (terminates, nothing faulting) and the eight argument arrays end
    holding their launch contents: each is read off the last boundary's contents, which walk back to the launch
    memory. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post dat0 hA0 hΦ0 hq0 ho0 hrec0 hbody0 dat1 hA1 hq1 ho1 hrec1 hbody1 hin1 hout1 m ρ fun s h c =>
    ⟨(h c _ (mem_uc main_arg0 (by decide))).trans (W4_main_arg0 dat0 dat1 hA1 m ρ c),
     (h c _ (mem_uc main_arg1 (by decide))).trans (W4_main_arg1 dat0 dat1 hA1 m ρ c),
     (h c _ (mem_uc main_arg2 (by decide))).trans (W4_main_arg2 dat0 dat1 m ρ c),
     (h c _ (mem_uc main_arg3 (by decide))).trans (W4_main_arg3 dat0 dat1 m ρ c),
     (h c _ (mem_uc main_arg4 (by decide))).trans (W4_main_arg4 dat0 dat1 m ρ c),
     (h c _ (mem_uc main_arg5 (by decide))).trans (W4_main_arg5 dat0 dat1 m ρ c),
     (h c _ (mem_uc main_arg6 (by decide))).trans (W4_main_arg6 dat0 dat1 m ρ c),
     (h c _ (mem_uc main_arg7 (by decide))).trans (W4_main_arg7 dat0 dat1 m ρ c)⟩

end Run

end Cert.Kernel.Hand

end
-- ==== Proof.K.R0Frame.lean ====
/-
  The projection kernel (the first region of the program), its frame half, at any float instance.

  At each of its 16 grid points the kernel is handed a 1024-row block x of the activations (window 0), the
  three whole weight matrices (windows 1-3), the three bias rows (windows 4-6), and three output blocks
  (windows 7-9). It reads every input whole, and stores into each output block, whole, one value computed from
  the inputs alone: relu (x · W + b) for W, b the matching weight and bias. (It also reads each output block
  before overwriting it; the value read is dropped.) So what the body leaves in an output block is a function
  of the input blocks at the point, and what it finds in an input block is that window's block of its array
  as the region found it, whether or not the block was brought in at this very point: the weights and biases
  are brought in once, at the first point, and their block index never moves.

  Stated at a parameter `V`, the buffer contents when the region is entered.
-/
import proofs.«152723_j25331717111812_2_alg».proof.Proof.Gen.Kernel.Launch
import proofs.«152723_j25331717111812_2_alg».proof.Proof.Gen.Kernel.Skeleton
import proofs.«152723_j25331717111812_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 1024 coordinates recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the block already there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, so the block already there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is not
    fetched its block index has not moved, so the block already there is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is not
    fetched its block index has not moved, so the block already there is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): where the window is not
    fetched its block index has not moved, so the block already there is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in each output window's buffer -/

/-- The query block after the body: one whole store of relu (x · Wq + bq). -/
def out0_7 (x0 : Vec F S1024x1024 .f32) (x1 : Vec F S1024x1024 .bf16) (x4 : Vec F S1x1024 .f32) : Vec F S1024x1024 .f32 :=
  View.canon [⟨rSq, k0_pay2 (View.ld x0 rSq) (View.ld x1 rSq) (View.ld x4 rRow)⟩]

/-- The key block after the body: one whole store of relu (x · Wk + bk). -/
def out0_8 (x0 : Vec F S1024x1024 .f32) (x2 : Vec F S1024x1024 .bf16) (x5 : Vec F S1x1024 .f32) : Vec F S1024x1024 .f32 :=
  View.canon [⟨rSq, k0_pay3 (View.ld x0 rSq) (View.ld x2 rSq) (View.ld x5 rRow)⟩]

/-- The value block after the body: one whole store of relu (x · Wv + bv). -/
def out0_9 (x0 : Vec F S1024x1024 .f32) (x3 : Vec F S1024x1024 .bf16) (x6 : Vec F S1x1024 .f32) : Vec F S1024x1024 .bf16 :=
  View.canon [⟨rSq, k0_pay4 (View.ld x0 rSq) (View.ld x3 rSq) (View.ld x6 rRow)⟩]

/-- One whole store covers the buffer. -/
theorem cover0_7 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y
theorem cover0_8 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y
theorem cover0_9 (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y

/-! ## The body's triple -/

set_option maxHeartbeats 1000000 in
/-- The kernel body on whole staging buffers, the inputs' at read contents `xW` and the outputs' at anything, runs to
    the continuation holding the inputs' as they were and each output's at `out0_W` of the inputs'. The grid
    coordinate `i` is not read. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .bf16) (harg10 : arg10.IsWhole)
    (x0 : Vec F S1024x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of this pipeline on core `c`: the arrays as the region finds them (`V`); after the body at
    point `t` each input's buffer at its block and each output's at `out0_W` of the input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  Region 1 (the attention kernel on its grid of 8 · 2 · 4 points, the key tile innermost): what its body's runs are
  stated over. A point's position t has key tile t mod 4; the body resets its three scratch buffers (running maximum,
  normaliser, accumulator) when the key tile is 0 and stores the output block when it is 3. Here: each window's block
  at a point, the two branch conditions decided over the grid, where the output window is idle, and the names of the
  staging and scratch memrefs.
-/
import proofs.«152723_j25331717111812_2_alg».proof.Proof.Gen.Kernel.Launch
import proofs.«152723_j25331717111812_2_alg».proof.Proof.Gen.Kernel.Skeleton
import proofs.«152723_j25331717111812_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "The key tile is the first": the reset of the scratch buffers is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the key tile is not the last the output window is idle, and its block is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1x1024x1024 .f32 := (Memref.whole cc1_stg5_0 : Memref sig .tc .vmem S1x1024x1024 .f32).view
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch buffers: the running maximum, the normaliser, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other region's staging buffers, each whole at some contents: they pass through this region untouched. -/
def rest14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's own resources, the scoped buffers enumerated: the other region's staging buffers, then the three
    scratch buffers as memrefs owned at some contents; beside them the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched buffers gathered, the scratch buffers at propositions P0, P1, P2. -/
theorem scoped_to (c : Dev nD) (P0 P1 P2 G : sProp 𝕄) :
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P0 ∗ P1 ∗ P2) ∗ G) ⊢ iprop(rest14 (F := F) c ∗ P0 ∗ P1 ∗ P2 ∗ G) := by
  unfold rest14
  iintro ⟨⟨H1, H2, H3, H4, H5, H6, H7, H8, H9, H10, H11, H12, H13, H14, HP0, HP1, HP2⟩, HG⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HP0]; · iexact HP0
  isplitl [HP1]; · iexact HP1
  isplitl [HP2]; · iexact HP2
  iexact HG

theorem scoped_from (c : Dev nD) (P0 P1 P2 G : sProp 𝕄) :
    iprop(rest14 (F := F) c ∗ P0 ∗ P1 ∗ P2 ∗ G) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P0 ∗ P1 ∗ P2) ∗ G) := by
  unfold rest14
  iintro ⟨⟨H1, H2, H3, H4, H5, H6, H7, H8, H9, H10, H11, H12, H13, H14⟩, HP0, HP1, HP2, HG⟩
  isplitr [HG]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HP0]; · iexact HP0
    isplitl [HP1]; · iexact HP1
    iexact HP2
  iexact HG

theorem PhiA1_to (c : Dev nD) :
    (Pipeline.ΦA spec1 c : sProp 𝕄) ⊢ iprop(rest14 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; exact scoped_to c _ _ _ _

theorem PhiA1_from (c : Dev nD) :
    iprop(rest14 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; exact scoped_from c _ _ _ _

end Cert.Kernel.Hand

end
-- ==== Proof.K.R1RunA.lean ====
/-
  Region 1's body run once, whole, at a point whose key tile is the first (and not the last): the scratch buffers are reset, so they may hold anything before; the output buffer is not touched.
-/
import proofs.«152723_j25331717111812_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is the first (and not the last): the scratch buffers are reset, so they may hold anything before; the output buffer is not touched. What each stored buffer ends with is given as the list of its stores
    (last first), found by running the body. -/
noncomputable def kernelRun1_A (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1x512x1024 .f32) (x2 : Vec F S1x512x1024 .bf16) (x3 : Vec F S1x1x512 .f32) (x4 : Vec F S1x1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunB.lean ====
/-
  Region 1's body run once, whole, at a point whose key tile is neither the first nor the last: the scratch buffers hold what the point before left (xs0, xs1, xs2); the output buffer is not touched.
-/
import proofs.«152723_j25331717111812_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is neither the first nor the last: the scratch buffers hold what the point before left (xs0, xs1, xs2); the output buffer is not touched. What each stored buffer ends with is given as the list of its stores
    (last first), found by running the body. -/
noncomputable def kernelRun1_B (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .f32) (x1 : Vec F S1x512x1024 .f32) (x2 : Vec F S1x512x1024 .bf16) (x3 : Vec F S1x1x512 .f32) (x4 : Vec F S1x1024x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunC.lean ====
/-
  Region 1's body run once, whole, at a point whose key tile is the last (and not the first): the scratch buffers hold what the point before left (xs0, xs1, xs2); the output buffer, at anything before, is stored whole.
-/
import proofs.«152723_j25331717111812_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is the last (and not the first): the scratch buffers hold what the point before left (xs0, xs1, xs2); the output buffer, at anything before, is stored whole. What each stored buffer ends with is given as the list of its stores
    (last first), found by running the body. -/
noncomputable def kernelRun1_C (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1x512x1024 .f32) (x2 : Vec F S1x512x1024 .bf16) (x3 : Vec F S1x1x512 .f32) (x4 : Vec F S1x1024x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.K.R1Frame.lean ====
/-
  Region 1, point by point. What the three scratch buffers (running maximum, normaliser, accumulator) and the output
  window's buffer hold after each grid point, by recursion on the point's position: at a position with key tile 0 the
  body starts from reset scratch whatever was there, elsewhere from what the point before left; the output buffer is
  stored only at key tile 3. Then the region's invariant between points (the scratch buffers at those contents), the
  proof data of the region's pipeline, and the body's obligation at every point.
-/
import proofs.«152723_j25331717111812_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's runs at a grid point -/

/-- The run at a point whose key tile is the first. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The run at a point whose key tile is neither first nor last, the scratch found at xs. -/
abbrev runB (c : Dev nD) (t : Fin cfg1.N) (h0 : ¬t.val % 4 = 0) (h1 : ¬t.val % 4 = 3) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1 xs2
/-- The run at a point whose key tile is the last, the scratch found at xs. -/
abbrev runC (c : Dev nD) (t : Fin cfg1.N) (h0 : ¬t.val % 4 = 0) (h1 : t.val % 4 = 3) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1 xs2

/-! ## What each run leaves: its stores read back -/

def soutA_0 (c : Dev nD) (t : Fin cfg1.N) (h0 : t.val % 4 = 0) (h1 : ¬t.val % 4 = 3) : Vec F S1024x1 .f32 :=
  VS1_0.read (Elt F) (VS1_0.writes (Elt F) VS1_0.junk (runA V c t h0 h1).1)
def soutA_1 (c : Dev nD) (t : Fin cfg1.N) (h0 : t.val % 4 = 0) (h1 : ¬t.val % 4 = 3) : Vec F S1024x1 .f32 :=
  VS1_1.read (Elt F) (VS1_1.writes (Elt F) VS1_1.junk (runA V c t h0 h1).2.1)
def soutA_2 (c : Dev nD) (t : Fin cfg1.N) (h0 : t.val % 4 = 0) (h1 : ¬t.val % 4 = 3) : Vec F S1024x1024 .f32 :=
  VS1_2.read (Elt F) (VS1_2.writes (Elt F) VS1_2.junk (runA V c t h0 h1).2.2.1)
theorem scoverA_0 (c : Dev nD) (t : Fin cfg1.N) (h0 : t.val % 4 = 0) (h1 : ¬t.val % 4 = 3) (y : S1024x1.Idx) :
    ∃ pc ∈ (runA V c t h0 h1).1, y ∈ pc.1.set :=
  View.cover_of_tiledL (runA V c t h0 h1).1 S1024x1.size (by unfold runA; sl_kernel_rfl) y
theorem scoverA_1 (c : Dev nD) (t : Fin cfg1.N) (h0 : t.val % 4 = 0) (h1 : ¬t.val % 4 = 3) (y : S1024x1.Idx) :
    ∃ pc ∈ (runA V c t h0 h1).2.1, y ∈ pc.1.set :=
  View.cover_of_tiledL (runA V c t h0 h1).2.1 S1024x1.size (by unfold runA; sl_kernel_rfl) y
theorem scoverA_2 (c : Dev nD) (t : Fin cfg1.N) (h0 : t.val % 4 = 0) (h1 : ¬t.val % 4 = 3) (y : S1024x1024.Idx) :
    ∃ pc ∈ (runA V c t h0 h1).2.2.1, y ∈ pc.1.set :=
  View.cover_of_tiledL (runA V c t h0 h1).2.2.1 S1024x1024.size (by unfold runA; sl_kernel_rfl) y

def soutB_0 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1 .f32 :=
  VS1_0.read (Elt F) (VS1_0.writes (Elt F) VS1_0.junk (runB V c t h0 h1 xs0 xs1 xs2).1)
def soutB_1 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1 .f32 :=
  VS1_1.read (Elt F) (VS1_1.writes (Elt F) VS1_1.junk (runB V c t h0 h1 xs0 xs1 xs2).2.1)
def soutB_2 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1024 .f32 :=
  VS1_2.read (Elt F) (VS1_2.writes (Elt F) VS1_2.junk (runB V c t h0 h1 xs0 xs1 xs2).2.2.1)
theorem scoverB_0 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1.Idx) :
    ∃ pc ∈ (runB V c t h0 h1 xs0 xs1 xs2).1, y ∈ pc.1.set :=
  View.cover_of_tiledL (runB V c t h0 h1 xs0 xs1 xs2).1 S1024x1.size (by unfold runB; sl_kernel_rfl) y
theorem scoverB_1 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1.Idx) :
    ∃ pc ∈ (runB V c t h0 h1 xs0 xs1 xs2).2.1, y ∈ pc.1.set :=
  View.cover_of_tiledL (runB V c t h0 h1 xs0 xs1 xs2).2.1 S1024x1.size (by unfold runB; sl_kernel_rfl) y
theorem scoverB_2 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1024.Idx) :
    ∃ pc ∈ (runB V c t h0 h1 xs0 xs1 xs2).2.2.1, y ∈ pc.1.set :=
  View.cover_of_tiledL (runB V c t h0 h1 xs0 xs1 xs2).2.2.1 S1024x1024.size (by unfold runB; sl_kernel_rfl) y

def outC_5 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1x1024x1024 .f32 :=
  VO1_5.read (Elt F) (VO1_5.writes (Elt F) VO1_5.junk (runC V c t h0 h1 xs0 xs1 xs2).1)
def soutC_0 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1 .f32 :=
  VS1_0.read (Elt F) (VS1_0.writes (Elt F) VS1_0.junk (runC V c t h0 h1 xs0 xs1 xs2).2.1)
def soutC_1 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1 .f32 :=
  VS1_1.read (Elt F) (VS1_1.writes (Elt F) VS1_1.junk (runC V c t h0 h1 xs0 xs1 xs2).2.2.1)
def soutC_2 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1024 .f32 :=
  VS1_2.read (Elt F) (VS1_2.writes (Elt F) VS1_2.junk (runC V c t h0 h1 xs0 xs1 xs2).2.2.2.1)
theorem coverC_5 (c : Dev nD) (t : Fin cfg1.N) (h0 : ¬t.val % 4 = 0) (h1 : t.val % 4 = 3) (xs0 : Vec F S1024x1 .f32) (xs1 : Vec F S1024x1 .f32) (xs2 : Vec F S1024x1024 .f32) (y : S1x1024x1024.Idx) :
    ∃ pc ∈ (runC V c t h0 h1 xs0 xs1 xs2).1, y ∈ pc.1.set :=
  View.cover_of_tiledL (runC V c t h0 h1 xs0 xs1 xs2).1 S1x1024x1024.size (by unfold runC; sl_kernel_rfl) y
theorem scoverC_0 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1.Idx) :
    ∃ pc ∈ (runC V c t h0 h1 xs0 xs1 xs2).2.1, y ∈ pc.1.set :=
  View.cover_of_tiledL (runC V c t h0 h1 xs0 xs1 xs2).2.1 S1024x1.size (by unfold runC; sl_kernel_rfl) y
theorem scoverC_1 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1.Idx) :
    ∃ pc ∈ (runC V c t h0 h1 xs0 xs1 xs2).2.2.1, y ∈ pc.1.set :=
  View.cover_of_tiledL (runC V c t h0 h1 xs0 xs1 xs2).2.2.1 S1024x1.size (by unfold runC; sl_kernel_rfl) y
theorem scoverC_2 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1024.Idx) :
    ∃ pc ∈ (runC V c t h0 h1 xs0 xs1 xs2).2.2.2.1, y ∈ pc.1.set :=
  View.cover_of_tiledL (runC V c t h0 h1 xs0 xs1 xs2).2.2.2.1 S1024x1024.size (by unfold runC; sl_kernel_rfl) y

/-- The output buffer where nothing is stored into it: contents nothing consults. -/
def idleO : Vec F S1x1024x1024 .f32 := VO1_5.read (Elt F) VO1_5.junk

/-! ## What the buffers hold after each point -/

/-- After the point at position n: the output window's buffer, then the three scratch buffers. Key tile 0 starts from
    reset scratch; the others continue from what position n − 1 left. -/
def outsAt1 (c : Dev nD) : (n : ℕ) → n < cfg1.N → Vec F S1x1024x1024 .f32 × Vec F S1024x1 .f32 × Vec F S1024x1 .f32 × Vec F S1024x1024 .f32
  | 0, hn => (idleO, soutA_0 V c ⟨0, hn⟩ (Nat.zero_mod _) (fun h => absurd (show (0 : ℕ) % 4 = 3 from h) (by decide)), soutA_1 V c ⟨0, hn⟩ (Nat.zero_mod _) (fun h => absurd (show (0 : ℕ) % 4 = 3 from h) (by decide)), soutA_2 V c ⟨0, hn⟩ (Nat.zero_mod _) (fun h => absurd (show (0 : ℕ) % 4 = 3 from h) (by decide)))
  | n + 1, hn =>
    if h0 : (n + 1) % 4 = 0 then
      if h1 : (n + 1) % 4 = 3 then False.elim (by omega)
      else (idleO, soutA_0 V c ⟨n + 1, hn⟩ h0 h1, soutA_1 V c ⟨n + 1, hn⟩ h0 h1, soutA_2 V c ⟨n + 1, hn⟩ h0 h1)
    else
      if h1 : (n + 1) % 4 = 3 then
        (outC_5 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_0 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_1 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_2 V c ⟨n + 1, hn⟩ h0 h1 (outsAt1 c n (Nat.lt_of_succ_lt hn)).2.1 (outsAt1 c n (Nat.lt_of_succ_lt hn)).2.2.1 (outsAt1 c n (Nat.lt_of_succ_lt hn)).2.2.2)
      else
        (idleO,
         soutB_0 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutB_1 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutB_2 V c ⟨n + 1, hn⟩ h0 h1 (outsAt1 c n (Nat.lt_of_succ_lt hn)).2.1 (outsAt1 c n (Nat.lt_of_succ_lt hn)).2.2.1 (outsAt1 c n (Nat.lt_of_succ_lt hn)).2.2.2)

/-- The position before t, for t past the first. -/
abbrev prevLt (t : Fin cfg1.N) : t.val - 1 < cfg1.N := Nat.lt_of_le_of_lt (Nat.sub_le _ _) t.isLt

theorem outsAt1_A (c : Dev nD) (t : Fin cfg1.N) (h0 : t.val % 4 = 0) (h1 : ¬t.val % 4 = 3) :
    outsAt1 V c t.val t.isLt = (idleO, soutA_0 V c t h0 h1, soutA_1 V c t h0 h1, soutA_2 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleO,
      soutB_0 V c t h0 h1 (outsAt1 V c (t.val - 1) (prevLt t)).2.1 (outsAt1 V c (t.val - 1) (prevLt t)).2.2.1 (outsAt1 V c (t.val - 1) (prevLt t)).2.2.2,
      soutB_1 V c t h0 h1 (outsAt1 V c (t.val - 1) (prevLt t)).2.1 (outsAt1 V c (t.val - 1) (prevLt t)).2.2.1 (outsAt1 V c (t.val - 1) (prevLt t)).2.2.2,
      soutB_2 V c t h0 h1 (outsAt1 V c (t.val - 1) (prevLt t)).2.1 (outsAt1 V c (t.val - 1) (prevLt t)).2.2.1 (outsAt1 V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC_5 V c t h0 h1 (outsAt1 V c (t.val - 1) (prevLt t)).2.1 (outsAt1 V c (t.val - 1) (prevLt t)).2.2.1 (outsAt1 V c (t.val - 1) (prevLt t)).2.2.2,
      soutC_0 V c t h0 h1 (outsAt1 V c (t.val - 1) (prevLt t)).2.1 (outsAt1 V c (t.val - 1) (prevLt t)).2.2.1 (outsAt1 V c (t.val - 1) (prevLt t)).2.2.2,
      soutC_1 V c t h0 h1 (outsAt1 V c (t.val - 1) (prevLt t)).2.1 (outsAt1 V c (t.val - 1) (prevLt t)).2.2.1 (outsAt1 V c (t.val - 1) (prevLt t)).2.2.2,
      soutC_2 V c t h0 h1 (outsAt1 V c (t.val - 1) (prevLt t)).2.1 (outsAt1 V c (t.val - 1) (prevLt t)).2.2.1 (outsAt1 V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant between points -/

/-- Before position n: at the start what the region is handed (every scoped buffer at anything, the generator
    register); later the three scratch buffers at what the point before left. -/
def PhiS (c : Dev nD) : (n : ℕ) → n ≤ cfg1.N → sProp 𝕄
  | 0, _ => Pipeline.ΦA spec1 c
  | n + 1, hn => iprop(rest14 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest14 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(rest14 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the key tile says which run applies; the invariant
    hands the body the scratch buffers at what the point before left (at anything before the first point) and takes
    them back at this point's contents; where the key tile is not the last the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold soutA_0 soutA_1 soutA_2; (try dsimp only)
    by_cases hz : t.val = 0
    ·
      rw [PhiS_castSucc V c t, PhiS_zero V c _ _ hz]
      iintro ⟨HP, Ho, ⟨%d0, H0⟩, ⟨%d1, H1⟩, ⟨%d2, H2⟩, ⟨%d3, H3⟩, ⟨%d4, H4⟩, ⟨%d5, H5⟩⟩
      ihave HP' := (PhiA1_to (F := F) c) $$ HP
      icases HP' with ⟨Hr, HS0, HS1, HS2, Hg⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC_5 soutC_0 soutC_1 soutC_2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runC V c t h0 h1 _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverC_0 V c t h0 h1 _ _ _)
        isplitl [HS1]
        · unfold owns; iexists _; isplitr
          swap; · iexact HS1
          ipureintro; exact View.read_writes_of_cover _ _ _ _ _ (scoverC_1 V c t h0 h1 _ _ _)
        isplitl [HS2]
        · unfold owns; iexists _; isplitr
          swap; · iexact HS2
          ipureintro; exact View.read_writes_of_cover _ _ _ _ _ (scoverC_2 V c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold soutB_0 soutB_1 soutB_2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runB V c t h0 h1 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverB_0 V c t h0 h1 _ _ _)
        isplitl [HS1]
        · unfold owns; iexists _; isplitr
          swap; · iexact HS1
          ipureintro; exact View.read_writes_of_cover _ _ _ _ _ (scoverB_1 V c t h0 h1 _ _ _)
        isplitl [HS2]
        · unfold owns; iexists _; isplitr
          swap; · iexact HS2
          ipureintro; exact View.read_writes_of_cover _ _ _ _ _ (scoverB_2 V c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the region was handed: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine .trans ?_ (PhiA1_from (F := F) c)
  iintro ⟨Hr, HS0, HS1, HS2, Hg⟩
  isplitl [Hr]; · iexact Hr
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Frame.lean ====
/-
  The frame of the word-level program: @main runs to its end and the eight argument arrays end
  holding their launch contents. The run of @main over any proof data of the two regions that read their arrays
  off the entry contents, hold full shares, owe nothing and meet the body obligation, instantiated at the two
  regions' proof data: the projection region's (the class invariant at every point) and the attention region's
  (its scratch carried from point to point, the class invariant before the first point and after the last).
-/
import proofs.«152723_j25331717111812_2_alg».proof.Defs
import proofs.«152723_j25331717111812_2_alg».proof.Proof.Gen.Kernel
import proofs.«152723_j25331717111812_2_alg».proof.Proof.Gen.Pre_finite_inputs
import proofs.«152723_j25331717111812_2_alg».proof.Proof.K.Run
import proofs.«152723_j25331717111812_2_alg».proof.Proof.K.R0Frame
import proofs.«152723_j25331717111812_2_alg».proof.Proof.K.R1Frame

noncomputable section

namespace Cert.Kernel.Hand

open Idealize.ShloMosaic Idealize.ShloMosaic.TcCoe
open Idealize.SL Idealize.SL.Sem
open Cert.Kernel Cert.Kernel.Gen

theorem frame_K : Cert.frame_Kernel := fun m ρ _ =>
  frame_of_run (F := Bits) (fun V c => dat0 V c) (fun V c w => A_eq0 V c w) (fun _ _ _ => rfl) (fun _ _ _ => rfl) (fun _ _ _ => rfl) (fun _ _ _ => rfl)
    (fun V c => body_obligation0 V c)
    (fun V c => dat1 V c) (fun V c w => A_eq1 V c w) (fun V c w => q_eq1 V c w) (fun V c t => owed_eq1 V c t) (fun _ _ _ => rfl)
    (fun V c => body_obligation1 V c) (fun V c => hin1 V c) (fun V c => hout1 V c) m ρ

end Cert.Kernel.Hand

end
-- ==== Proof.KI.Run.lean ====
/-
  The run of @main from the launch to the return, as four segments in order: the ten host operations (one reshape of
  the activations, three transposes each followed by a change of format, three reshapes of the biases), region 0
  (the three projections q, k, v on a grid of 16 row blocks), the three host reshapes of its results, and region 1
  (the attention kernel on its grid of 8 · 2 · 4 points).

  Everything here is stated at any float instance F and over proof data of the two regions that are PARAMETERS:
  for each region a family of proof data indexed by the buffer contents the region is entered from, whose arrays
  are read off those contents, which holds every array at the full share, owes nothing, bounds the recorded waits
  by nothing, and meets the body obligation. Region 0's invariant is the class invariant (the scoped rest and the generator register) at every
  point. Region 1 carries its scratch buffers from point to point, so its invariant is only entailed by the class
  invariant before the first point and entails it after the last.

  The buffer contents at the five segment boundaries are a fold from the launch memory: a host stretch rewrites the
  buffers its operations write; a region leaves each of its arrays at what its write-backs fold to and every other
  buffer as entered. From the fold: the run (every unscoped buffer ends at the last boundary's contents), each of
  the eight arguments read back through the fold to its launch contents, the attention output's buffer, and the
  frame statement.
-/
import proofs.«152723_j25331717111812_2_alg».proof.Proof.Gen.KernelIdeal.Launch
import proofs.«152723_j25331717111812_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The TensorCore's buffer contents on every core: what a region's proof data are indexed by. -/
abbrev Vt (F : FTy → Type) [FloatOps F] : Type :=
  (c : Dev nD) → (b : Ref sig .tc) → Buf (Elt F) ((c : Thread nD τ).loc b)

/-! ## The dues of proof data that owe nothing -/

/-- Proof data that owe nothing before a point and put no bound on the recorded waits there hold the core's dues,
    before that point, as soon as the core owes nothing. -/
theorem owesAt_of_owes {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩; iexists W; isplitr; · ipureintro; exact fun _ _ => Or.inl trivial
  iexact HO

/-- Conversely the dues held before a point where the proof data owe nothing are the core owing nothing. -/
theorem owes_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## Region 1's invariant at the two ends of its grid -/

/-- Region 1's invariant before its first point follows from the class invariant (the scoped rest and the generator
    register), whatever contents the region is entered from. -/
def InvIn1 (dat1 : Vt F → (c : Dev nD) → Dat τ (Elt F) Unit ℕ (UR sig nD τ) ℕ cfg1 c) : Prop :=
  ∀ V c, (Pipeline.ΦA spec1 c : sProp 𝕄) ⊢ (dat1 V c).Φ 0
/-- Region 1's invariant after its last point gives the class invariant back. -/
def InvOut1 (dat1 : Vt F → (c : Dev nD) → Dat τ (Elt F) Unit ℕ (UR sig nD τ) ℕ cfg1 c) : Prop :=
  ∀ V c, (dat1 V c).Φ (Fin.last cfg1.N) ⊢ (Pipeline.ΦA spec1 c : sProp 𝕄)

section Run

/-! ## The regions' proof data, as parameters -/

variable
  (dat0 : Vt F → (c : Dev nD) → Dat τ (Elt F) Unit ℕ (UR sig nD τ) ℕ cfg0 c)
  (hA0 : ∀ V c w, (dat0 V c).A w = V c (Pipeline.arrRef spec0 w))
  (hΦ0 : ∀ V c t, (dat0 V c).Φ t = Pipeline.ΦA spec0 c)
  (hq0 : ∀ V c w, (dat0 V c).q w = fullShare)
  (ho0 : ∀ V c t, (dat0 V c).owed t = 0)
  (hrec0 : ∀ V c t, (dat0 V c).recorded t = Set.univ)
  (hbody0 : ∀ V c, BodyObligation (dat0 V c) (defs₀ (F := F)) Variants.none () Set.univ)
  (dat1 : Vt F → (c : Dev nD) → Dat τ (Elt F) Unit ℕ (UR sig nD τ) ℕ cfg1 c)
  (hA1 : ∀ V c w, (dat1 V c).A w = V c (Pipeline.arrRef spec1 w))
  (hq1 : ∀ V c w, (dat1 V c).q w = fullShare)
  (ho1 : ∀ V c t, (dat1 V c).owed t = 0)
  (hrec1 : ∀ V c t, (dat1 V c).recorded t = Set.univ)
  (hbody1 : ∀ V c, BodyObligation (dat1 V c) (defs₀ (F := F)) Variants.none () Set.univ)
  (hin1 : InvIn1 dat1)
  (hout1 : InvOut1 dat1)

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : Vt F := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
/-- The same read at the TensorCore's references (region 0's exit contents). -/
abbrev V2 : Vt F := fun c b => W2 dat0 m ρ c b
/-- At region 0's exit each of its arrays holds what the pipeline leaves and every other buffer what it held at
    entry. -/
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

/-- After the second host stretch (region 1's entry). -/
abbrev W3 : Dev nD → Valuation τ sig (Elt F) := fun c => StableHlo.after hostOps1 (W2 dat0 m ρ c)
/-- The same read at the TensorCore's references (what region 1's proof data take). -/
abbrev V3 : Vt F := fun c b => W3 dat0 m ρ c b
/-- At region 1's exit: its arrays at what the pipeline leaves, every other buffer as entered. -/
def W4 (c : Dev nD) : Valuation τ sig (Elt F) :=
  Pipeline.withArrays spec1 c (W3 dat0 m ρ c) fun w => (dat1 (V3 dat0 m ρ) c).arrAt w cfg1.N
theorem W4_arr (c : Dev nD) (w : Fin cfg1.W) :
    W4 dat0 dat1 m ρ c (Proc.devRef .tc (Pipeline.arrRef spec1 w)) = (dat1 (V3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
/-- The same read at the TensorCore's references (region 1's exit contents). -/
abbrev V4 : Vt F := fun c b => W4 dat0 dat1 m ρ c b
theorem hF1 (c : Dev nD) (w : Fin cfg1.W) : (dat1 (V3 dat0 m ρ) c).arrAt w cfg1.N = V4 dat0 dat1 m ρ c (Pipeline.arrRef spec1 w) :=
  (W4_arr dat0 dat1 m ρ c w).symm
theorem hrest1 (c : Dev nD) : ∀ b, b ∉ Finset.univ.image (Pipeline.arrRef spec1) → V4 dat0 dat1 m ρ c b = V3 dat0 m ρ c b :=
  fun b hb => W4_of_ne dat0 dat1 m ρ c b fun w e => hb (Finset.mem_image.mpr ⟨w, Finset.mem_univ _, e⟩)

/-! ### What each host stretch leaves alone -/

/-- A reference the first host stretch does not write keeps its launch contents. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h
/-- A reference the second host stretch does not write keeps what region 0 left. -/
theorem W3_of (c : Dev nD) (r : Ref sig .tc) (h : r ∉ hostOps1_W) :
    W3 dat0 m ρ c (Proc.devRef .tc r) = W2 dat0 m ρ c (Proc.devRef .tc r) :=
  StableHlo.after_of_writes_sub hostOps1 _ hostOps1_writes h

/-! ### The arguments end as launched, and the attention output's buffer

No host operation writes an argument. Region 0 stages none. Region 1 reads the residual input (argument 0) through
its window 4 and the mask (argument 1) through its window 3, both inputs, whose arrays the write-backs never
touch; it stages no other argument. So the fold at an argument's buffer walks back to the launch memory. -/

include hA1 in
theorem W4_main_arg0 (c : Dev nD) : W4 dat0 dat1 m ρ c (Proc.devRef .tc main_arg0) = m ((c : Thread nD τ).loc main_arg0) :=
  calc W4 dat0 dat1 m ρ c (Proc.devRef .tc main_arg0)
    _ = W3 dat0 m ρ c (Proc.devRef .tc main_arg0) :=
        (W4_arr dat0 dat1 m ρ c 4).trans (((dat1 (V3 dat0 m ρ) c).arrAt_in 4 rfl _).trans (hA1 (V3 dat0 m ρ) c 4))
    _ = W2 dat0 m ρ c (Proc.devRef .tc main_arg0) := W3_of dat0 m ρ c main_arg0 (by decide)
    _ = W1 m ρ c (Proc.devRef .tc main_arg0) := W2_of_ne dat0 m ρ c main_arg0 (by decide)
    _ = m ((c : Thread nD τ).loc main_arg0) := W1_of m ρ c main_arg0 (by decide)

include hA1 in
theorem W4_main_arg1 (c : Dev nD) : W4 dat0 dat1 m ρ c (Proc.devRef .tc main_arg1) = m ((c : Thread nD τ).loc main_arg1) :=
  calc W4 dat0 dat1 m ρ c (Proc.devRef .tc main_arg1)
    _ = W3 dat0 m ρ c (Proc.devRef .tc main_arg1) :=
        (W4_arr dat0 dat1 m ρ c 3).trans (((dat1 (V3 dat0 m ρ) c).arrAt_in 3 rfl _).trans (hA1 (V3 dat0 m ρ) c 3))
    _ = W2 dat0 m ρ c (Proc.devRef .tc main_arg1) := W3_of dat0 m ρ c main_arg1 (by decide)
    _ = W1 m ρ c (Proc.devRef .tc main_arg1) := W2_of_ne dat0 m ρ c main_arg1 (by decide)
    _ = m ((c : Thread nD τ).loc main_arg1) := W1_of m ρ c main_arg1 (by decide)

/-- A reference that is no array of either region and that no host operation writes ends as launched. -/
theorem W4_of_untouched (c : Dev nD) (r : Ref sig .tc) (h1 : ∀ w, Pipeline.arrRef spec1 w ≠ r) (h3 : r ∉ hostOps1_W)
    (h0 : ∀ w, Pipeline.arrRef spec0 w ≠ r) (h2 : r ∉ hostOps0_W) :
    W4 dat0 dat1 m ρ c (Proc.devRef .tc r) = m ((c : Thread nD τ).loc r) :=
  (W4_of_ne dat0 dat1 m ρ c r h1).trans <| (W3_of dat0 m ρ c r h3).trans <| (W2_of_ne dat0 m ρ c r h0).trans (W1_of m ρ c r h2)

theorem W4_main_arg2 (c : Dev nD) : W4 dat0 dat1 m ρ c (Proc.devRef .tc main_arg2) = m ((c : Thread nD τ).loc main_arg2) :=
  W4_of_untouched dat0 dat1 m ρ c main_arg2 (by decide) (by decide) (by decide) (by decide)
theorem W4_main_arg3 (c : Dev nD) : W4 dat0 dat1 m ρ c (Proc.devRef .tc main_arg3) = m ((c : Thread nD τ).loc main_arg3) :=
  W4_of_untouched dat0 dat1 m ρ c main_arg3 (by decide) (by decide) (by decide) (by decide)
theorem W4_main_arg4 (c : Dev nD) : W4 dat0 dat1 m ρ c (Proc.devRef .tc main_arg4) = m ((c : Thread nD τ).loc main_arg4) :=
  W4_of_untouched dat0 dat1 m ρ c main_arg4 (by decide) (by decide) (by decide) (by decide)
theorem W4_main_arg5 (c : Dev nD) : W4 dat0 dat1 m ρ c (Proc.devRef .tc main_arg5) = m ((c : Thread nD τ).loc main_arg5) :=
  W4_of_untouched dat0 dat1 m ρ c main_arg5 (by decide) (by decide) (by decide) (by decide)
theorem W4_main_arg6 (c : Dev nD) : W4 dat0 dat1 m ρ c (Proc.devRef .tc main_arg6) = m ((c : Thread nD τ).loc main_arg6) :=
  W4_of_untouched dat0 dat1 m ρ c main_arg6 (by decide) (by decide) (by decide) (by decide)
theorem W4_main_arg7 (c : Dev nD) : W4 dat0 dat1 m ρ c (Proc.devRef .tc main_arg7) = m ((c : Thread nD τ).loc main_arg7) :=
  W4_of_untouched dat0 dat1 m ρ c main_arg7 (by decide) (by decide) (by decide) (by decide)

/-- The attention output's buffer ends at what region 1's write-backs of its window 5 fold to. -/
theorem W4_main_v14 (c : Dev nD) :
    W4 dat0 dat1 m ρ c (Proc.devRef .tc main_v14) = (dat1 (V3 dat0 m ρ) c).arrAt 5 cfg1.N :=
  W4_arr dat0 dat1 m ρ c 5

/-! ## The proof data family and the thread state -/

/-- Both pipelines' proof data, each at its region's entry contents: a literal match on the pipeline's index, so
    that the pinned configuration at a numeral reduces to the printed one. -/
def pdats : (p : Fin 2) → (c : Dev nD) → Dat τ (Elt F) Unit ℕ (UR sig nD τ) ℕ (Pipeline.pin (pcfgs (F := F)) Gen.adm p) c
  | ⟨0, _⟩ => fun c => dat0 (V1 m ρ) c
  | ⟨1, _⟩ => fun c => dat1 (V3 dat0 m ρ) c

/-- No core owes another anything: no level is assigned. -/
abbrev runL : GSem nD τ sig → Finset Unit := fun _ => ∅
abbrev runLv : GSem nD τ sig → Unit → ℕ := fun _ _ => 0
/-- What rides beside the buffers through every segment: the core's generator register at some state and its
    dues, at nothing. -/
abbrev runR (c : Dev nD) : sProp 𝕄 := iprop((∃ r, prngReg c r) ∗ ∃ W, owes (c : Thread nD τ) (0 : CellTallies nD τ sig Unit) W)
/-- A host stretch as a segment over the unscoped references from the contents W, the rest riding along; it leaves
    those references at the contents after the operations. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev runTn (c : Dev nD) : sProp 𝕄 :=
  iprop(StableHlo.held (c : Thread nD τ) (Pipeline.ucRefs τ sig) (W4 dat0 dat1 m ρ c) ∗ ∃ r, prngReg c r)

/-! ## The regions as segments -/

set_option backward.isDefEq.respectTransparency.types false in
/-- Region 0 over the thread state: entered from every unscoped buffer at W1, left at W2. Its arrays are split out
    of the unscoped buffers and put back at the exit contents; the generator register goes into the class invariant
    and comes back; nothing is owed; the kernel has no semaphore of its own. -/
def runReg0 : Pipeline.RegionSeg (pcfgs (F := F)) Gen.adm (pdats dat0 dat1 m ρ) () defs₀ Variants.none runL runLv 0 where
  win := launch0.win.to₀
  block_pos := launch0.block_pos
  stage_whole := launch0.stage_whole
  K := PEmpty
  osem k := k.elim
  ho := Pipeline.OwnSemFacts.none _
  hbody c := (hbody0 (V1 m ρ) c).loose
  hwaits := Pipeline.hwaits_of_owed_zero _ _ _ _ runL runLv 0 fun c t => ho0 (V1 m ρ) c t
  pre c := iprop(StableHlo.held (c : Thread nD τ) (Pipeline.ucRefs τ sig) (W1 m ρ c) ∗ runR c)
  post c := iprop(StableHlo.held (c : Thread nD τ) (Pipeline.ucRefs τ sig) (W2 dat0 m ρ c) ∗ runR c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) Gen.adm (pdats dat0 dat1 m ρ) launch0.win launch0.arr_whole c
      ((pdats dat0 dat1 m ρ 0 c).share_full fun w => hq0 (V1 m ρ) c w) (V1 m ρ c) fun w => hA0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats dat0 dat1 m ρ 0 c) 0 (ho0 (V1 m ρ) c 0) (hrec0 (V1 m ρ) c 0))
      iexact HO
    isplitl [Hp]; · iexact Hp
    iexact Hrest
  hin c := by
    rw [show (pdats dat0 dat1 m ρ 0 c).Φ 0 = Pipeline.ΦA spec0 c from hΦ0 (V1 m ρ) c 0]; unfold Pipeline.ΦA
    iintro ⟨Hp, -, Hr⟩
    isplitl [Hr]; · iexact Hr
    iexact Hp
  hout c := by
    rw [Pipeline.ownSems0_none, show (pdats dat0 dat1 m ρ 0 c).Φ (Fin.last _) = Pipeline.ΦA spec0 c from hΦ0 (V1 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats dat0 dat1 m ρ) ((pdats dat0 dat1 m ρ 0 c).share_full fun w => hq0 (V1 m ρ) c w)
      (V1 m ρ c) (V2 dat0 m ρ c) ((pdats dat0 dat1 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats dat0 dat1 m ρ 0 c) (Fin.last cfg0.N) (ho0 (V1 m ρ) c (Fin.last cfg0.N)))
    iexact HO

set_option backward.isDefEq.respectTransparency.types false in
/-- Region 1 over the thread state: entered from every unscoped buffer at W3, left at W4, which the launch reads at
    the end. Its invariant takes the class invariant before the first point and gives it back after the last. -/
def runReg1 : Pipeline.RegionSeg (pcfgs (F := F)) Gen.adm (pdats dat0 dat1 m ρ) () defs₀ Variants.none runL runLv 1 where
  win := launch1.win.to₀
  block_pos := launch1.block_pos
  stage_whole := launch1.stage_whole
  K := PEmpty
  osem k := k.elim
  ho := Pipeline.OwnSemFacts.none _
  hbody c := (hbody1 (V3 dat0 m ρ) c).loose
  hwaits := Pipeline.hwaits_of_owed_zero _ _ _ _ runL runLv 1 fun c t => ho1 (V3 dat0 m ρ) c t
  pre c := iprop(StableHlo.held (c : Thread nD τ) (Pipeline.ucRefs τ sig) (W3 dat0 m ρ c) ∗ runR c)
  post c := iprop(runTn dat0 dat1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 dat0 m ρ c)
  hentry c := by
    rw [Pipeline.ownSems0_none]
    have hsplit := Pipeline.arrays_of_unscopedBufs (p := 1) (pcfgs (F := F)) Gen.adm (pdats dat0 dat1 m ρ) launch1.win launch1.arr_whole c
      ((pdats dat0 dat1 m ρ 1 c).share_full fun w => hq1 (V3 dat0 m ρ) c w) (V3 dat0 m ρ c) fun w => hA1 (V3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats dat0 dat1 m ρ 1 c) 0 (ho1 (V3 dat0 m ρ) c 0) (hrec1 (V3 dat0 m ρ) c 0))
      iexact HO
    isplitl [Hp]; · iexact Hp
    iexact Hrest
  hin c := by
    refine BIBase.Entails.trans ?_ (hin1 (V3 dat0 m ρ) c)
    unfold Pipeline.ΦA
    iintro ⟨Hp, -, Hr⟩
    isplitl [Hr]; · iexact Hr
    iexact Hp
  hout c := by
    refine BIBase.Entails.trans (hout1 (V3 dat0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats dat0 dat1 m ρ) ((pdats dat0 dat1 m ρ 1 c).share_full fun w => hq1 (V3 dat0 m ρ) c w)
      (V3 dat0 m ρ c) (V4 dat0 dat1 m ρ c) ((pdats dat0 dat1 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_of_owesAt (pdats dat0 dat1 m ρ 1 c) (Fin.last cfg1.N) (ho1 (V3 dat0 m ρ) c (Fin.last cfg1.N)))
    iexact HO

/-! ## @main as segments, and the launch -/

/-- @main's four segments in order: a host segment per stretch from its boundary's contents, a region per kernel
    call. -/
abbrev runSegs : List (Pipeline.Seg (pcfgs (F := F)) Gen.adm (pdats dat0 dat1 m ρ) () defs₀ Variants.none runL runLv) :=
  [ .host (runHseg hostOps0 hostOps0_sub Gen.hostOps0_fresh (W0 m ρ)),
    .region (runReg0 dat0 hA0 hΦ0 hq0 ho0 hrec0 hbody0 dat1 m ρ),
    .host (runHseg hostOps1 hostOps1_sub Gen.hostOps1_fresh (W2 dat0 m ρ)),
    .region (runReg1 dat0 dat1 hA1 hq1 ho1 hrec1 hbody1 hin1 hout1 m ρ) ]

/-- @main is the run of the segments: it is the chain of its items, and the segments' run is the same chain. -/
theorem main_run (c : Dev nD) :
    main (F := F) c = Pipeline.Seg.run (runSegs dat0 hA0 hΦ0 hq0 ho0 hrec0 hbody0 dat1 hA1 hq1 ho1 hrec1 hbody1 hin1 hout1 m ρ) :=
  (main_chain c).trans (by chain_rfl)

include hA0 hΦ0 hq0 ho0 hrec0 hbody0 hA1 hq1 ho1 hrec1 hbody1 hin1 hout1 in
set_option backward.isDefEq.respectTransparency.types false in
/-- The run, at any post that follows from the last boundary's contents: from any memory with zero counters every
    weakly fair execution of @main on the TensorCores terminates, nothing faulting, and in every final state each
    core's unscoped buffers hold the last boundary's contents W4. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 dat0 dat1 m ρ c b) → Q (⟨⟩, s)) :
    θ_run defs (onTc (τ := τ) (main (F := F))) ⟨m, fun _ => 0, ρ⟩ Q :=
  Pipeline.θ_run_regions_kit (pcfgs (F := F)) Gen.adm (pdats dat0 dat1 m ρ) () cellOf_inj emb₁ defs₀ Variants.none runL runLv m ρ main
    (runSegs dat0 hA0 hΦ0 hq0 ho0 hrec0 hbody0 dat1 hA1 hq1 ho1 hrec1 hbody1 hin1 hout1 m ρ)
    (fun c Q => by rw [main_run dat0 hA0 hΦ0 hq0 ho0 hrec0 hbody0 dat1 hA1 hq1 ho1 hrec1 hbody1 hin1 hout1 m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ runR c)) (Tₙ := runTn dat0 dat1 m ρ)
    (hch := ⟨fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 dat0 dat1 m ρ c) s')
      isplitl [Hh] <;> iassumption)
    (hQ := hQ)

include hA0 hΦ0 hq0 ho0 hrec0 hbody0 hA1 hq1 ho1 hrec1 hbody1 hin1 hout1 in
/-- THE RUN: every final state has each core's unscoped buffers at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 dat0 dat1 m ρ c b) :=
  run_post dat0 hA0 hΦ0 hq0 ho0 hrec0 hbody0 dat1 hA1 hq1 ho1 hrec1 hbody1 hin1 hout1 m ρ fun _ h => h

include hA0 hΦ0 hq0 ho0 hrec0 hbody0 hA1 hq1 ho1 hrec1 hbody1 hin1 hout1 in
/-- THE FRAME, at any float instance: @main runs (terminates, nothing faulting) and the eight argument arrays end
    holding their launch contents: each is read off the last boundary's contents, which walk back to the launch
    memory. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post dat0 hA0 hΦ0 hq0 ho0 hrec0 hbody0 dat1 hA1 hq1 ho1 hrec1 hbody1 hin1 hout1 m ρ fun s h c =>
    ⟨(h c _ (mem_uc main_arg0 (by decide))).trans (W4_main_arg0 dat0 dat1 hA1 m ρ c),
     (h c _ (mem_uc main_arg1 (by decide))).trans (W4_main_arg1 dat0 dat1 hA1 m ρ c),
     (h c _ (mem_uc main_arg2 (by decide))).trans (W4_main_arg2 dat0 dat1 m ρ c),
     (h c _ (mem_uc main_arg3 (by decide))).trans (W4_main_arg3 dat0 dat1 m ρ c),
     (h c _ (mem_uc main_arg4 (by decide))).trans (W4_main_arg4 dat0 dat1 m ρ c),
     (h c _ (mem_uc main_arg5 (by decide))).trans (W4_main_arg5 dat0 dat1 m ρ c),
     (h c _ (mem_uc main_arg6 (by decide))).trans (W4_main_arg6 dat0 dat1 m ρ c),
     (h c _ (mem_uc main_arg7 (by decide))).trans (W4_main_arg7 dat0 dat1 m ρ c)⟩

end Run

end Cert.KernelIdeal.Hand

end
-- ==== Proof.KI.R0Frame.lean ====
/-
  The projection kernel (the first region of the program), its frame half, at any float instance.

  At each of its 16 grid points the kernel is handed a 1024-row block x of the activations (window 0), the
  three whole weight matrices (windows 1-3), the three bias rows (windows 4-6), and three output blocks
  (windows 7-9). It reads every input whole, and stores into each output block, whole, one value computed from
  the inputs alone: relu (x · W + b) for W, b the matching weight and bias. (It also reads each output block
  before overwriting it; the value read is dropped.) So what the body leaves in an output block is a function
  of the input blocks at the point, and what it finds in an input block is that window's block of its array
  as the region found it, whether or not the block was brought in at this very point: the weights and biases
  are brought in once, at the first point, and their block index never moves.

  Stated at a parameter `V`, the buffer contents when the region is entered.
-/
import proofs.«152723_j25331717111812_2_alg».proof.Proof.Gen.KernelIdeal.Launch
import proofs.«152723_j25331717111812_2_alg».proof.Proof.Gen.KernelIdeal.Skeleton
import proofs.«152723_j25331717111812_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 1024 coordinates recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the block already there is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the block already there is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, so the block already there is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is not
    fetched its block index has not moved, so the block already there is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is not
    fetched its block index has not moved, so the block already there is this point's. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): where the window is not
    fetched its block index has not moved, so the block already there is this point's. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-! ## What the body leaves in each output window's buffer -/

/-- The query block after the body: one whole store of relu (x · Wq + bq). -/
def out0_7 (x0 : Vec F S1024x1024 .f32) (x1 : Vec F S1024x1024 .bf16) (x4 : Vec F S1x1024 .f32) : Vec F S1024x1024 .f32 :=
  View.canon [⟨rSq, k0_pay2 (View.ld x0 rSq) (View.ld x1 rSq) (View.ld x4 rRow)⟩]

/-- The key block after the body: one whole store of relu (x · Wk + bk). -/
def out0_8 (x0 : Vec F S1024x1024 .f32) (x2 : Vec F S1024x1024 .bf16) (x5 : Vec F S1x1024 .f32) : Vec F S1024x1024 .f32 :=
  View.canon [⟨rSq, k0_pay3 (View.ld x0 rSq) (View.ld x2 rSq) (View.ld x5 rRow)⟩]

/-- The value block after the body: one whole store of relu (x · Wv + bv). -/
def out0_9 (x0 : Vec F S1024x1024 .f32) (x3 : Vec F S1024x1024 .bf16) (x6 : Vec F S1x1024 .f32) : Vec F S1024x1024 .bf16 :=
  View.canon [⟨rSq, k0_pay4 (View.ld x0 rSq) (View.ld x3 rSq) (View.ld x6 rRow)⟩]

/-- One whole store covers the buffer. -/
theorem cover0_7 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y
theorem cover0_8 (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y
theorem cover0_9 (p0 : Vec F S1024x1024 .bf16) (y : S1024x1024.Idx) :
    ∃ pc ∈ ([⟨rSq, p0⟩] : List (View.Piece (Elt F) S1024x1024 .bf16)), y ∈ pc.1.set :=
  View.cover_of_tiled [⟨rSq, p0⟩] S1024x1024.size (by rfl) y

/-! ## The body's triple -/

set_option maxHeartbeats 1000000 in
/-- The kernel body on whole staging buffers, the inputs' at read contents `xW` and the outputs' at anything, runs to
    the continuation holding the inputs' as they were and each output's at `out0_W` of the inputs'. The grid
    coordinate `i` is not read. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .bf16) (harg10 : arg10.IsWhole)
    (x0 : Vec F S1024x1024 .f32) (x1 : Vec F S1024x1024 .bf16) (x2 : Vec F S1024x1024 .bf16) (x3 : Vec F S1024x1024 .bf16) (x4 : Vec F S1x1024 .f32) (x5 : Vec F S1x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of this pipeline on core `c`: the arrays as the region finds them (`V`); after the body at
    point `t` each input's buffer at its block and each output's at `out0_W` of the input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Region 1 (the attention kernel on its grid of 8 · 2 · 4 points, the key tile innermost): what its body's runs are
  stated over. A point's position t has key tile t mod 4; the body resets its three scratch buffers (running maximum,
  normaliser, accumulator) when the key tile is 0 and stores the output block when it is 3. Here: each window's block
  at a point, the two branch conditions decided over the grid, where the output window is idle, and the names of the
  staging and scratch memrefs.
-/
import proofs.«152723_j25331717111812_2_alg».proof.Proof.Gen.KernelIdeal.Launch
import proofs.«152723_j25331717111812_2_alg».proof.Proof.Gen.KernelIdeal.Skeleton
import proofs.«152723_j25331717111812_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- "The key tile is the first": the reset of the scratch buffers is taken. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key tile is the last": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the key tile is not the last the output window is idle, and its block is not written back there. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1x1024x1024 .f32 := (Memref.whole cc1_stg5_0 : Memref sig .tc .vmem S1x1024x1024 .f32).view
abbrev ms1_0 (t : Fin cfg1.N) : Memref sig .tc .vmem S1x1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch buffers: the running maximum, the normaliser, the accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other region's staging buffers, each whole at some contents: they pass through this region untouched. -/
def rest14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The region's own resources, the scoped buffers enumerated: the other region's staging buffers, then the three
    scratch buffers as memrefs owned at some contents; beside them the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched buffers gathered, the scratch buffers at propositions P0, P1, P2. -/
theorem scoped_to (c : Dev nD) (P0 P1 P2 G : sProp 𝕄) :
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P0 ∗ P1 ∗ P2) ∗ G) ⊢ iprop(rest14 (F := F) c ∗ P0 ∗ P1 ∗ P2 ∗ G) := by
  unfold rest14
  iintro ⟨⟨H1, H2, H3, H4, H5, H6, H7, H8, H9, H10, H11, H12, H13, H14, HP0, HP1, HP2⟩, HG⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HP0]; · iexact HP0
  isplitl [HP1]; · iexact HP1
  isplitl [HP2]; · iexact HP2
  iexact HG

theorem scoped_from (c : Dev nD) (P0 P1 P2 G : sProp 𝕄) :
    iprop(rest14 (F := F) c ∗ P0 ∗ P1 ∗ P2 ∗ G) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ P0 ∗ P1 ∗ P2) ∗ G) := by
  unfold rest14
  iintro ⟨⟨H1, H2, H3, H4, H5, H6, H7, H8, H9, H10, H11, H12, H13, H14⟩, HP0, HP1, HP2, HG⟩
  isplitr [HG]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HP0]; · iexact HP0
    isplitl [HP1]; · iexact HP1
    iexact HP2
  iexact HG

theorem PhiA1_to (c : Dev nD) :
    (Pipeline.ΦA spec1 c : sProp 𝕄) ⊢ iprop(rest14 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; exact scoped_to c _ _ _ _

theorem PhiA1_from (c : Dev nD) :
    iprop(rest14 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; exact scoped_from c _ _ _ _

end Cert.KernelIdeal.Hand

end
-- ==== Proof.KI.R1RunA.lean ====
/-
  Region 1's body run once, whole, at a point whose key tile is the first (and not the last): the scratch buffers are reset, so they may hold anything before; the output buffer is not touched.
-/
import proofs.«152723_j25331717111812_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is the first (and not the last): the scratch buffers are reset, so they may hold anything before; the output buffer is not touched. What each stored buffer ends with is given as the list of its stores
    (last first), found by running the body. -/
noncomputable def kernelRun1_A (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i)
    (x0 : Vec F S1x1024x1024 .f32) (x1 : Vec F S1x512x1024 .f32) (x2 : Vec F S1x512x1024 .bf16) (x3 : Vec F S1x1x512 .f32) (x4 : Vec F S1x1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunB.lean ====
/-
  Region 1's body run once, whole, at a point whose key tile is neither the first nor the last: the scratch buffers hold what the point before left (xs0, xs1, xs2); the output buffer is not touched.
-/
import proofs.«152723_j25331717111812_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is neither the first nor the last: the scratch buffers hold what the point before left (xs0, xs1, xs2); the output buffer is not touched. What each stored buffer ends with is given as the list of its stores
    (last first), found by running the body. -/
noncomputable def kernelRun1_B (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : ¬cond1_1 i)
    (x0 : Vec F S1x1024x1024 .f32) (x1 : Vec F S1x512x1024 .f32) (x2 : Vec F S1x512x1024 .bf16) (x3 : Vec F S1x1x512 .f32) (x4 : Vec F S1x1024x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunC.lean ====
/-
  Region 1's body run once, whole, at a point whose key tile is the last (and not the first): the scratch buffers hold what the point before left (xs0, xs1, xs2); the output buffer, at anything before, is stored whole.
-/
import proofs.«152723_j25331717111812_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body on whole memrefs at a point whose key tile is the last (and not the first): the scratch buffers hold what the point before left (xs0, xs1, xs2); the output buffer, at anything before, is stored whole. What each stored buffer ends with is given as the list of its stores
    (last first), found by running the body. -/
noncomputable def kernelRun1_C (c : Dev nD) (i : grid1.Coords) (arg3 : Memref sig .tc .vmem S1x1024x1024 .f32) (harg3 : arg3.IsWhole) (arg4 : Memref sig .tc .vmem S1x512x1024 .f32) (harg4 : arg4.IsWhole) (arg5 : Memref sig .tc .vmem S1x512x1024 .bf16) (harg5 : arg5.IsWhole) (arg6 : Memref sig .tc .vmem S1x1x512 .f32) (harg6 : arg6.IsWhole) (arg7 : Memref sig .tc .vmem S1x1024x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i)
    (x0 : Vec F S1x1024x1024 .f32) (x1 : Vec F S1x512x1024 .f32) (x2 : Vec F S1x512x1024 .bf16) (x3 : Vec F S1x1x512 .f32) (x4 : Vec F S1x1024x1024 .f32) (xs0 : Vec F S1024x1 .f32) (xs1 : Vec F S1024x1 .f32) (xs2 : Vec F S1024x1024 .f32) :
    Σ' (L5 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.R1Frame.lean ====
/-
  Region 1, point by point. What the three scratch buffers (running maximum, normaliser, accumulator) and the output
  window's buffer hold after each grid point, by recursion on the point's position: at a position with key tile 0 the
  body starts from reset scratch whatever was there, elsewhere from what the point before left; the output buffer is
  stored only at key tile 3. Then the region's invariant between points (the scratch buffers at those contents), the
  proof data of the region's pipeline, and the body's obligation at every point.
-/
import proofs.«152723_j25331717111812_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's runs at a grid point -/

/-- The run at a point whose key tile is the first. -/
abbrev runA (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
/-- The run at a point whose key tile is neither first nor last, the scratch found at xs. -/
abbrev runB (c : Dev nD) (t : Fin cfg1.N) (h0 : ¬t.val % 4 = 0) (h1 : ¬t.val % 4 = 3) (xs0 : Vec F S1024x1 .f32) (xs1 : Vec F S1024x1 .f32) (xs2 : Vec F S1024x1024 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1 xs2
/-- The run at a point whose key tile is the last, the scratch found at xs. -/
abbrev runC (c : Dev nD) (t : Fin cfg1.N) (h0 : ¬t.val % 4 = 0) (h1 : t.val % 4 = 3) (xs0 : Vec F S1024x1 .f32) (xs1 : Vec F S1024x1 .f32) (xs2 : Vec F S1024x1024 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1 xs2

/-! ## What each run leaves: its stores read back -/

def soutA_0 (c : Dev nD) (t : Fin cfg1.N) (h0 : t.val % 4 = 0) (h1 : ¬t.val % 4 = 3) : Vec F S1024x1 .f32 :=
  VS1_0.read (Elt F) (VS1_0.writes (Elt F) VS1_0.junk (runA V c t h0 h1).1)
def soutA_1 (c : Dev nD) (t : Fin cfg1.N) (h0 : t.val % 4 = 0) (h1 : ¬t.val % 4 = 3) : Vec F S1024x1 .f32 :=
  VS1_1.read (Elt F) (VS1_1.writes (Elt F) VS1_1.junk (runA V c t h0 h1).2.1)
def soutA_2 (c : Dev nD) (t : Fin cfg1.N) (h0 : t.val % 4 = 0) (h1 : ¬t.val % 4 = 3) : Vec F S1024x1024 .f32 :=
  VS1_2.read (Elt F) (VS1_2.writes (Elt F) VS1_2.junk (runA V c t h0 h1).2.2.1)
theorem scoverA_0 (c : Dev nD) (t : Fin cfg1.N) (h0 : t.val % 4 = 0) (h1 : ¬t.val % 4 = 3) (y : S1024x1.Idx) :
    ∃ pc ∈ (runA V c t h0 h1).1, y ∈ pc.1.set :=
  View.cover_of_tiledL (runA V c t h0 h1).1 S1024x1.size (by unfold runA; sl_kernel_rfl) y
theorem scoverA_1 (c : Dev nD) (t : Fin cfg1.N) (h0 : t.val % 4 = 0) (h1 : ¬t.val % 4 = 3) (y : S1024x1.Idx) :
    ∃ pc ∈ (runA V c t h0 h1).2.1, y ∈ pc.1.set :=
  View.cover_of_tiledL (runA V c t h0 h1).2.1 S1024x1.size (by unfold runA; sl_kernel_rfl) y
theorem scoverA_2 (c : Dev nD) (t : Fin cfg1.N) (h0 : t.val % 4 = 0) (h1 : ¬t.val % 4 = 3) (y : S1024x1024.Idx) :
    ∃ pc ∈ (runA V c t h0 h1).2.2.1, y ∈ pc.1.set :=
  View.cover_of_tiledL (runA V c t h0 h1).2.2.1 S1024x1024.size (by unfold runA; sl_kernel_rfl) y

def soutB_0 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1 .f32 :=
  VS1_0.read (Elt F) (VS1_0.writes (Elt F) VS1_0.junk (runB V c t h0 h1 xs0 xs1 xs2).1)
def soutB_1 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1 .f32 :=
  VS1_1.read (Elt F) (VS1_1.writes (Elt F) VS1_1.junk (runB V c t h0 h1 xs0 xs1 xs2).2.1)
def soutB_2 (c : Dev nD) (t : Fin cfg1.N) (h0 : ¬t.val % 4 = 0) (h1 : ¬t.val % 4 = 3) (xs0 : Vec F S1024x1 .f32) (xs1 : Vec F S1024x1 .f32) (xs2 : Vec F S1024x1024 .f32) : Vec F S1024x1024 .f32 :=
  VS1_2.read (Elt F) (VS1_2.writes (Elt F) VS1_2.junk (runB V c t h0 h1 xs0 xs1 xs2).2.2.1)
theorem scoverB_0 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1.Idx) :
    ∃ pc ∈ (runB V c t h0 h1 xs0 xs1 xs2).1, y ∈ pc.1.set :=
  View.cover_of_tiledL (runB V c t h0 h1 xs0 xs1 xs2).1 S1024x1.size (by unfold runB; sl_kernel_rfl) y
theorem scoverB_1 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1.Idx) :
    ∃ pc ∈ (runB V c t h0 h1 xs0 xs1 xs2).2.1, y ∈ pc.1.set :=
  View.cover_of_tiledL (runB V c t h0 h1 xs0 xs1 xs2).2.1 S1024x1.size (by unfold runB; sl_kernel_rfl) y
theorem scoverB_2 (c : Dev nD) (t : Fin cfg1.N) (h0 : ¬t.val % 4 = 0) (h1 : ¬t.val % 4 = 3) (xs0 : Vec F S1024x1 .f32) (xs1 : Vec F S1024x1 .f32) (xs2 : Vec F S1024x1024 .f32) (y : S1024x1024.Idx) :
    ∃ pc ∈ (runB V c t h0 h1 xs0 xs1 xs2).2.2.1, y ∈ pc.1.set :=
  View.cover_of_tiledL (runB V c t h0 h1 xs0 xs1 xs2).2.2.1 S1024x1024.size (by unfold runB; sl_kernel_rfl) y

def outC_5 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1x1024x1024 .f32 :=
  VO1_5.read (Elt F) (VO1_5.writes (Elt F) VO1_5.junk (runC V c t h0 h1 xs0 xs1 xs2).1)
def soutC_0 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1 .f32 :=
  VS1_0.read (Elt F) (VS1_0.writes (Elt F) VS1_0.junk (runC V c t h0 h1 xs0 xs1 xs2).2.1)
def soutC_1 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1 .f32 :=
  VS1_1.read (Elt F) (VS1_1.writes (Elt F) VS1_1.junk (runC V c t h0 h1 xs0 xs1 xs2).2.2.1)
def soutC_2 (c : Dev nD) (t : Fin cfg1.N) (h0 : ¬t.val % 4 = 0) (h1 : t.val % 4 = 3) (xs0 : Vec F S1024x1 .f32) (xs1 : Vec F S1024x1 .f32) (xs2 : Vec F S1024x1024 .f32) : Vec F S1024x1024 .f32 :=
  VS1_2.read (Elt F) (VS1_2.writes (Elt F) VS1_2.junk (runC V c t h0 h1 xs0 xs1 xs2).2.2.2.1)
theorem coverC_5 (c : Dev nD) (t : Fin cfg1.N) (h0 : ¬t.val % 4 = 0) (h1 : t.val % 4 = 3) (xs0 : Vec F S1024x1 .f32) (xs1 : Vec F S1024x1 .f32) (xs2 : Vec F S1024x1024 .f32) (y : S1x1024x1024.Idx) :
    ∃ pc ∈ (runC V c t h0 h1 xs0 xs1 xs2).1, y ∈ pc.1.set :=
  View.cover_of_tiledL (runC V c t h0 h1 xs0 xs1 xs2).1 S1x1024x1024.size (by unfold runC; sl_kernel_rfl) y
theorem scoverC_0 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1.Idx) :
    ∃ pc ∈ (runC V c t h0 h1 xs0 xs1 xs2).2.1, y ∈ pc.1.set :=
  View.cover_of_tiledL (runC V c t h0 h1 xs0 xs1 xs2).2.1 S1024x1.size (by unfold runC; sl_kernel_rfl) y
theorem scoverC_1 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1.Idx) :
    ∃ pc ∈ (runC V c t h0 h1 xs0 xs1 xs2).2.2.1, y ∈ pc.1.set :=
  View.cover_of_tiledL (runC V c t h0 h1 xs0 xs1 xs2).2.2.1 S1024x1.size (by unfold runC; sl_kernel_rfl) y
theorem scoverC_2 (c : Dev nD) (t : Fin cfg1.N) (h0 : ¬t.val % 4 = 0) (h1 : t.val % 4 = 3) (xs0 : Vec F S1024x1 .f32) (xs1 : Vec F S1024x1 .f32) (xs2 : Vec F S1024x1024 .f32) (y : S1024x1024.Idx) :
    ∃ pc ∈ (runC V c t h0 h1 xs0 xs1 xs2).2.2.2.1, y ∈ pc.1.set :=
  View.cover_of_tiledL (runC V c t h0 h1 xs0 xs1 xs2).2.2.2.1 S1024x1024.size (by unfold runC; sl_kernel_rfl) y

/-- The output buffer where nothing is stored into it: contents nothing consults. -/
def idleO : Vec F S1x1024x1024 .f32 := VO1_5.read (Elt F) VO1_5.junk

/-! ## What the buffers hold after each point -/

/-- After the point at position n: the output window's buffer, then the three scratch buffers. Key tile 0 starts from
    reset scratch; the others continue from what position n − 1 left. -/
def outsAt1 (c : Dev nD) : (n : ℕ) → n < cfg1.N → Vec F S1x1024x1024 .f32 × Vec F S1024x1 .f32 × Vec F S1024x1 .f32 × Vec F S1024x1024 .f32
  | 0, hn => (idleO, soutA_0 V c ⟨0, hn⟩ (Nat.zero_mod _) (fun h => absurd (show (0 : ℕ) % 4 = 3 from h) (by decide)), soutA_1 V c ⟨0, hn⟩ (Nat.zero_mod _) (fun h => absurd (show (0 : ℕ) % 4 = 3 from h) (by decide)), soutA_2 V c ⟨0, hn⟩ (Nat.zero_mod _) (fun h => absurd (show (0 : ℕ) % 4 = 3 from h) (by decide)))
  | n + 1, hn =>
    if h0 : (n + 1) % 4 = 0 then
      if h1 : (n + 1) % 4 = 3 then False.elim (by omega)
      else (idleO, soutA_0 V c ⟨n + 1, hn⟩ h0 h1, soutA_1 V c ⟨n + 1, hn⟩ h0 h1, soutA_2 V c ⟨n + 1, hn⟩ h0 h1)
    else
      if h1 : (n + 1) % 4 = 3 then
        (outC_5 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_0 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_1 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutC_2 V c ⟨n + 1, hn⟩ h0 h1 (outsAt1 c n (Nat.lt_of_succ_lt hn)).2.1 (outsAt1 c n (Nat.lt_of_succ_lt hn)).2.2.1 (outsAt1 c n (Nat.lt_of_succ_lt hn)).2.2.2)
      else
        (idleO,
         soutB_0 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutB_1 V c ⟨n + 1, hn⟩ h0 h1 (outsAt1 c n (Nat.lt_of_succ_lt hn)).2.1 (outsAt1 c n (Nat.lt_of_succ_lt hn)).2.2.1 (outsAt1 c n (Nat.lt_of_succ_lt hn)).2.2.2,
         soutB_2 V c ⟨n + 1, hn⟩ h0 h1 (outsAt1 c n (Nat.lt_of_succ_lt hn)).2.1 (outsAt1 c n (Nat.lt_of_succ_lt hn)).2.2.1 (outsAt1 c n (Nat.lt_of_succ_lt hn)).2.2.2)

/-- The position before t, for t past the first. -/
abbrev prevLt (t : Fin cfg1.N) : t.val - 1 < cfg1.N := Nat.lt_of_le_of_lt (Nat.sub_le _ _) t.isLt

theorem outsAt1_A (c : Dev nD) (t : Fin cfg1.N) (h0 : t.val % 4 = 0) (h1 : ¬t.val % 4 = 3) :
    outsAt1 V c t.val t.isLt = (idleO, soutA_0 V c t h0 h1, soutA_1 V c t h0 h1, soutA_2 V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleO,
      soutB_0 V c t h0 h1 (outsAt1 V c (t.val - 1) (prevLt t)).2.1 (outsAt1 V c (t.val - 1) (prevLt t)).2.2.1 (outsAt1 V c (t.val - 1) (prevLt t)).2.2.2,
      soutB_1 V c t h0 h1 (outsAt1 V c (t.val - 1) (prevLt t)).2.1 (outsAt1 V c (t.val - 1) (prevLt t)).2.2.1 (outsAt1 V c (t.val - 1) (prevLt t)).2.2.2,
      soutB_2 V c t h0 h1 (outsAt1 V c (t.val - 1) (prevLt t)).2.1 (outsAt1 V c (t.val - 1) (prevLt t)).2.2.1 (outsAt1 V c (t.val - 1) (prevLt t)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC_5 V c t h0 h1 (outsAt1 V c (t.val - 1) (prevLt t)).2.1 (outsAt1 V c (t.val - 1) (prevLt t)).2.2.1 (outsAt1 V c (t.val - 1) (prevLt t)).2.2.2,
      soutC_0 V c t h0 h1 (outsAt1 V c (t.val - 1) (prevLt t)).2.1 (outsAt1 V c (t.val - 1) (prevLt t)).2.2.1 (outsAt1 V c (t.val - 1) (prevLt t)).2.2.2,
      soutC_1 V c t h0 h1 (outsAt1 V c (t.val - 1) (prevLt t)).2.1 (outsAt1 V c (t.val - 1) (prevLt t)).2.2.1 (outsAt1 V c (t.val - 1) (prevLt t)).2.2.2,
      soutC_2 V c t h0 h1 (outsAt1 V c (t.val - 1) (prevLt t)).2.1 (outsAt1 V c (t.val - 1) (prevLt t)).2.2.1 (outsAt1 V c (t.val - 1) (prevLt t)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant between points -/

/-- Before position n: at the start what the region is handed (every scoped buffer at anything, the generator
    register); later the three scratch buffers at what the point before left. -/
def PhiS (c : Dev nD) : (n : ℕ) → n ≤ cfg1.N → sProp 𝕄
  | 0, _ => Pipeline.ΦA spec1 c
  | n + 1, hn => iprop(rest14 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest14 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(rest14 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the key tile says which run applies; the invariant
    hands the body the scratch buffers at what the point before left (at anything before the first point) and takes
    them back at this point's contents; where the key tile is not the last the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold soutA_0 soutA_1 soutA_2; (try dsimp only)
    by_cases hz : t.val = 0
    ·
      rw [PhiS_castSucc V c t, PhiS_zero V c _ _ hz]
      iintro ⟨HP, Ho, ⟨%d0, H0⟩, ⟨%d1, H1⟩, ⟨%d2, H2⟩, ⟨%d3, H3⟩, ⟨%d4, H4⟩, ⟨%d5, H5⟩⟩
      ihave HP' := (PhiA1_to (F := F) c) $$ HP
      icases HP' with ⟨Hr, HS0, HS1, HS2, Hg⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runA V c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold outC_5 soutC_0 soutC_1 soutC_2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runC V c t h0 h1 _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverC_0 V c t h0 h1 _ _ _)
        isplitl [HS1]
        · unfold owns; iexists _; isplitr
          swap; · iexact HS1
          ipureintro; exact View.read_writes_of_cover _ _ _ _ _ (scoverC_1 V c t h0 h1 _ _ _)
        isplitl [HS2]
        · unfold owns; iexists _; isplitr
          swap; · iexact HS2
          ipureintro; exact View.read_writes_of_cover _ _ _ _ _ (scoverC_2 V c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold soutB_0 soutB_1 soutB_2; (try dsimp only)
      rw [PhiS_castSucc V c t, PhiS_pos V c _ _ hz]
      iintro ⟨⟨Hr, HS0, HS1, HS2, Hg⟩, Ho, ⟨%d0, H0⟩, ⟨%d1, H1⟩, ⟨%d2, H2⟩, ⟨%d3, H3⟩, ⟨%d4, H4⟩, ⟨%d5, H5⟩⟩
      iapply ((runB V c t h0 h1 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hr HS0 HS1 HS2 Hg]
      · isplitl [Hr]; · iexact Hr
        isplitl [HS0]
        · unfold owns; iexists _; isplitr
          swap; · iexact HS0
          ipureintro; exact View.read_writes_of_cover _ _ _ _ _ (scoverB_0 V c t h0 h1 _ _ _)
        isplitl [HS1]
        · unfold owns; iexists _; isplitr
          swap; · iexact HS1
          ipureintro; exact View.read_writes_of_cover _ _ _ _ _ (scoverB_1 V c t h0 h1 _ _ _)
        isplitl [HS2]
        · unfold owns; iexists _; isplitr
          swap; · iexact HS2
          ipureintro; exact View.read_writes_of_cover _ _ _ _ _ (scoverB_2 V c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back what the region was handed: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine .trans ?_ (PhiA1_from (F := F) c)
  iintro ⟨Hr, HS0, HS1, HS2, Hg⟩
  isplitl [Hr]; · iexact Hr
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Frame.lean ====
/-
  The frame of the idealized program: @main runs to its end and the eight argument arrays end
  holding their launch contents. The run of @main over any proof data of the two regions that read their arrays
  off the entry contents, hold full shares, owe nothing and meet the body obligation, instantiated at the two
  regions' proof data: the projection region's (the class invariant at every point) and the attention region's
  (its scratch carried from point to point, the class invariant before the first point and after the last).
-/
import proofs.«152723_j25331717111812_2_alg».proof.Defs
import proofs.«152723_j25331717111812_2_alg».proof.Proof.Gen.KernelIdeal
import proofs.«152723_j25331717111812_2_alg».proof.Proof.Gen.Pre_finite_inputs
import proofs.«152723_j25331717111812_2_alg».proof.Proof.KI.Run
import proofs.«152723_j25331717111812_2_alg».proof.Proof.KI.R0Frame
import proofs.«152723_j25331717111812_2_alg».proof.Proof.KI.R1Frame

noncomputable section

namespace Cert.KernelIdeal.Hand

open Idealize.ShloMosaic Idealize.ShloMosaic.TcCoe
open Idealize.SL Idealize.SL.Sem
open Cert.KernelIdeal Cert.KernelIdeal.Gen

theorem frame_KI : Cert.frame_KernelIdeal := fun m ρ _ =>
  frame_of_run (F := Ideal) (fun V c => dat0 V c) (fun V c w => A_eq0 V c w) (fun _ _ _ => rfl) (fun _ _ _ => rfl) (fun _ _ _ => rfl) (fun _ _ _ => rfl)
    (fun V c => body_obligation0 V c)
    (fun V c => dat1 V c) (fun V c w => A_eq1 V c w) (fun V c w => q_eq1 V c w) (fun V c t => owed_eq1 V c t) (fun _ _ _ => rfl)
    (fun V c => body_obligation1 V c) (fun V c => hin1 V c) (fun V c => hout1 V c) m ρ

end Cert.KernelIdeal.Hand

end
-- ==== Proof.KI.HostVals.lean ====
/-
  What the two host stretches compute, read at an index.

  The first stretch (before region 0) reshapes the activations [8, 2048, 1024] to [16384, 1024] rows, transposes each
  of the three weight matrices and changes its format, and reshapes each bias [1024] to [1, 1024]. The second stretch
  (between the regions) reshapes each of region 0's three results [16384, 1024] back to [8, 2048, 1024]. Neither
  writes an argument. Each result is first identified with its operation applied to what the stretch started from
  (at any float instance), then read at an index: a reshape reads the operand at the index with the same row-major
  position, a transpose swaps the two coordinates, and at the ideal instance the change of format is the identity.
-/
import proofs.«152723_j25331717111812_2_alg».proof.Proof.KI.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-! ## The windows' arrays by name -/

theorem arrRef_spec0_0 : Pipeline.arrRef spec0 0 = main_v0 := rfl
theorem arrRef_spec0_1 : Pipeline.arrRef spec0 1 = main_v2 := rfl
theorem arrRef_spec0_2 : Pipeline.arrRef spec0 2 = main_v4 := rfl
theorem arrRef_spec0_3 : Pipeline.arrRef spec0 3 = main_v6 := rfl
theorem arrRef_spec0_4 : Pipeline.arrRef spec0 4 = main_v7 := rfl
theorem arrRef_spec0_5 : Pipeline.arrRef spec0 5 = main_v8 := rfl
theorem arrRef_spec0_6 : Pipeline.arrRef spec0 6 = main_v9 := rfl
theorem arrRef_spec0_7 : Pipeline.arrRef spec0 7 = main_v10_0 := rfl
theorem arrRef_spec0_8 : Pipeline.arrRef spec0 8 = main_v10_1 := rfl
theorem arrRef_spec0_9 : Pipeline.arrRef spec0 9 = main_v10_2 := rfl
theorem arrRef_spec1_0 : Pipeline.arrRef spec1 0 = main_v11 := rfl
theorem arrRef_spec1_1 : Pipeline.arrRef spec1 1 = main_v12 := rfl
theorem arrRef_spec1_2 : Pipeline.arrRef spec1 2 = main_v13 := rfl
theorem arrRef_spec1_3 : Pipeline.arrRef spec1 3 = main_arg1 := rfl
theorem arrRef_spec1_4 : Pipeline.arrRef spec1 4 = main_arg0 := rfl
theorem arrRef_spec1_5 : Pipeline.arrRef spec1 5 = main_v14 := rfl

/-! ## Two reshapes read at an index -/

section Casts

variable {α : Type}

/-- Rows [16384, 1024] of a [8, 2048, 1024] array: row r is batch r / 2048, position r % 2048. -/
theorem cast_rows_apply (x : S8x2048x1024.Idx → α) (hc : S8x2048x1024.ShapeCasts S16384x1024) (r : Fin 16384) (h : Fin 1024) :
    shapeCast S16384x1024 x hc (ix2 r h)
      = x (ix3 (⟨r.val / 2048, by have := r.isLt; omega⟩ : Fin 8) (⟨r.val % 2048, Nat.mod_lt _ (by decide)⟩ : Fin 2048) h) :=
  shapeCast_apply x hc _ _ (by
    rw [Shape.rowMajor_val_three, Shape.rowMajor_val_two]
    show (r.val / 2048 * 2048 + r.val % 2048) * 1024 + h.val = r.val * 1024 + h.val
    have := Nat.div_add_mod' r.val 2048
    omega)

/-- And back: batch p, position s of the [8, 2048, 1024] array is row p · 2048 + s. -/
theorem cast_batches_apply (x : S16384x1024.Idx → α) (hc : S16384x1024.ShapeCasts S8x2048x1024) (p : Fin 8) (s : Fin 2048) (d : Fin 1024) :
    shapeCast S8x2048x1024 x hc (ix3 p s d)
      = x (ix2 (⟨p.val * 2048 + s.val, by have := p.isLt; have := s.isLt; omega⟩ : Fin 16384) d) :=
  shapeCast_apply x hc _ _ (by
    rw [Shape.rowMajor_val_three, Shape.rowMajor_val_two]
    rfl)

end Casts

section HostVals

variable {F : FTy → Type} [FloatOps F]

variable (dat0 : Vt F → (c : Dev nD) → Dat τ (Elt F) Unit ℕ (UR sig nD τ) ℕ cfg0 c)
variable (m : (ℓ : Loc nD τ sig) → Buf (Elt F) ℓ) (ρ : Dev nD → PrngReg)

/-! ## The first stretch: each result as its operation applied to the launch memory -/

theorem V1_main_v0_eq (c : Dev nD) : (V1 m ρ c main_v0 : S16384x1024.Idx → Elt F .f32)
    = shapeCast S16384x1024 (m ((c : Thread nD τ).loc main_arg0)) shapeCasts_S8x2048x1024_S16384x1024 := by
  dsimp only [V1, W1, hostOps0]; after_results; rfl
theorem V1_main_v2_eq (c : Dev nD) : (V1 m ρ c main_v2 : S1024x1024.Idx → Elt F .bf16)
    = truncf .bf16 (transpose S1024x1024 [1, 0] (m ((c : Thread nD τ).loc main_arg2)) transposes_S1024x1024_S1024x1024_1_0) bitsLt_bf16_f32 := by
  dsimp only [V1, W1, hostOps0]; after_results
theorem V1_main_v4_eq (c : Dev nD) : (V1 m ρ c main_v4 : S1024x1024.Idx → Elt F .bf16)
    = truncf .bf16 (transpose S1024x1024 [1, 0] (m ((c : Thread nD τ).loc main_arg4)) transposes_S1024x1024_S1024x1024_1_0) bitsLt_bf16_f32 := by
  dsimp only [V1, W1, hostOps0]; after_results
theorem V1_main_v6_eq (c : Dev nD) : (V1 m ρ c main_v6 : S1024x1024.Idx → Elt F .bf16)
    = truncf .bf16 (transpose S1024x1024 [1, 0] (m ((c : Thread nD τ).loc main_arg6)) transposes_S1024x1024_S1024x1024_1_0) bitsLt_bf16_f32 := by
  dsimp only [V1, W1, hostOps0]; after_results
theorem V1_main_v7_eq (c : Dev nD) : (V1 m ρ c main_v7 : S1x1024.Idx → Elt F .f32)
    = shapeCast S1x1024 (m ((c : Thread nD τ).loc main_arg3)) shapeCasts_S1024_S1x1024 := by
  dsimp only [V1, W1, hostOps0]; after_results; rfl
theorem V1_main_v8_eq (c : Dev nD) : (V1 m ρ c main_v8 : S1x1024.Idx → Elt F .f32)
    = shapeCast S1x1024 (m ((c : Thread nD τ).loc main_arg5)) shapeCasts_S1024_S1x1024 := by
  dsimp only [V1, W1, hostOps0]; after_results; rfl
theorem V1_main_v9_eq (c : Dev nD) : (V1 m ρ c main_v9 : S1x1024.Idx → Elt F .f32)
    = shapeCast S1x1024 (m ((c : Thread nD τ).loc main_arg7)) shapeCasts_S1024_S1x1024 := by
  dsimp only [V1, W1, hostOps0]; after_results; rfl

/-! ## The second stretch: each result as the reshape of what region 0 left -/

theorem V3_main_v11_eq (c : Dev nD) : (V3 dat0 m ρ c main_v11 : S8x2048x1024.Idx → Elt F .f32)
    = shapeCast S8x2048x1024 (W2 dat0 m ρ c (Proc.devRef .tc main_v10_0)) shapeCasts_S16384x1024_S8x2048x1024 := by
  dsimp only [V3, W3, hostOps1]; after_results; rfl
theorem V3_main_v12_eq (c : Dev nD) : (V3 dat0 m ρ c main_v12 : S8x2048x1024.Idx → Elt F .f32)
    = shapeCast S8x2048x1024 (W2 dat0 m ρ c (Proc.devRef .tc main_v10_1)) shapeCasts_S16384x1024_S8x2048x1024 := by
  dsimp only [V3, W3, hostOps1]; after_results; rfl
theorem V3_main_v13_eq (c : Dev nD) : (V3 dat0 m ρ c main_v13 : S8x2048x1024.Idx → Elt F .bf16)
    = shapeCast S8x2048x1024 (W2 dat0 m ρ c (Proc.devRef .tc main_v10_2)) shapeCasts_S16384x1024_S8x2048x1024 := by
  dsimp only [V3, W3, hostOps1]; after_results; rfl

/-- Region 1 reads the residual input and the mask as launched: neither stretch writes them and region 0 stages
    neither. -/
theorem V3_main_arg0 (c : Dev nD) : V3 dat0 m ρ c main_arg0 = m ((c : Thread nD τ).loc main_arg0) :=
  (W3_of dat0 m ρ c main_arg0 (by decide)).trans <| (W2_of_ne dat0 m ρ c main_arg0 (by decide)).trans (W1_of m ρ c main_arg0 (by decide))
theorem V3_main_arg1 (c : Dev nD) : V3 dat0 m ρ c main_arg1 = m ((c : Thread nD τ).loc main_arg1) :=
  (W3_of dat0 m ρ c main_arg1 (by decide)).trans <| (W2_of_ne dat0 m ρ c main_arg1 (by decide)).trans (W1_of m ρ c main_arg1 (by decide))

/-! ## The reshapes read at an index (any float instance) -/

theorem V1_main_v0 (c : Dev nD) (r : Fin 16384) (h : Fin 1024) :
    V1 m ρ c main_v0 (ix2 r h) = m ((c : Thread nD τ).loc main_arg0)
      (ix3 (⟨r.val / 2048, by have := r.isLt; omega⟩ : Fin 8) (⟨r.val % 2048, Nat.mod_lt _ (by decide)⟩ : Fin 2048) h) :=
  (congrFun (V1_main_v0_eq m ρ c) (ix2 r h)).trans (cast_rows_apply _ _ r h)

theorem V1_main_v7 (c : Dev nD) (d : Fin 1024) :
    V1 m ρ c main_v7 (ix2 (0 : Fin 1) d) = m ((c : Thread nD τ).loc main_arg3) (ix1 d) :=
  (congrFun (V1_main_v7_eq m ρ c) (ix2 (0 : Fin 1) d)).trans (shapeCast_a_1a_apply _ _ 0 d)
theorem V1_main_v8 (c : Dev nD) (d : Fin 1024) :
    V1 m ρ c main_v8 (ix2 (0 : Fin 1) d) = m ((c : Thread nD τ).loc main_arg5) (ix1 d) :=
  (congrFun (V1_main_v8_eq m ρ c) (ix2 (0 : Fin 1) d)).trans (shapeCast_a_1a_apply _ _ 0 d)
theorem V1_main_v9 (c : Dev nD) (d : Fin 1024) :
    V1 m ρ c main_v9 (ix2 (0 : Fin 1) d) = m ((c : Thread nD τ).loc main_arg7) (ix1 d) :=
  (congrFun (V1_main_v9_eq m ρ c) (ix2 (0 : Fin 1) d)).trans (shapeCast_a_1a_apply _ _ 0 d)

theorem V3_main_v11 (c : Dev nD) (p : Fin 8) (s : Fin 2048) (d : Fin 1024) :
    V3 dat0 m ρ c main_v11 (ix3 p s d) = W2 dat0 m ρ c (Proc.devRef .tc main_v10_0)
      (ix2 (⟨p.val * 2048 + s.val, by have := p.isLt; have := s.isLt; omega⟩ : Fin 16384) d) :=
  (congrFun (V3_main_v11_eq dat0 m ρ c) (ix3 p s d)).trans (cast_batches_apply _ _ p s d)
theorem V3_main_v12 (c : Dev nD) (p : Fin 8) (s : Fin 2048) (d : Fin 1024) :
    V3 dat0 m ρ c main_v12 (ix3 p s d) = W2 dat0 m ρ c (Proc.devRef .tc main_v10_1)
      (ix2 (⟨p.val * 2048 + s.val, by have := p.isLt; have := s.isLt; omega⟩ : Fin 16384) d) :=
  (congrFun (V3_main_v12_eq dat0 m ρ c) (ix3 p s d)).trans (cast_batches_apply _ _ p s d)
theorem V3_main_v13 (c : Dev nD) (p : Fin 8) (s : Fin 2048) (d : Fin 1024) :
    V3 dat0 m ρ c main_v13 (ix3 p s d) = W2 dat0 m ρ c (Proc.devRef .tc main_v10_2)
      (ix2 (⟨p.val * 2048 + s.val, by have := p.isLt; have := s.isLt; omega⟩ : Fin 16384) d) :=
  (congrFun (V3_main_v13_eq dat0 m ρ c) (ix3 p s d)).trans (cast_batches_apply _ _ p s d)

end HostVals

/-! ## The transposed weights read at an index (the ideal instance: the change of format is the identity) -/

section AtIdeal

variable (m : (ℓ : Loc nD τ sig) → Buf (Elt Ideal) ℓ) (ρ : Dev nD → PrngReg)

theorem V1_main_v2 (c : Dev nD) (h d : Fin 1024) :
    V1 m ρ c main_v2 (ix2 h d) = m ((c : Thread nD τ).loc main_arg2) (ix2 d h) :=
  (congrFun (V1_main_v2_eq m ρ c) (ix2 h d)).trans
    ((truncf_apply (ψ := .bf16) (transpose S1024x1024 [1, 0] (m ((c : Thread nD τ).loc main_arg2)) transposes_S1024x1024_S1024x1024_1_0)
        bitsLt_bf16_f32 (ix2 h d)).trans
      (transpose_ix2_apply (m ((c : Thread nD τ).loc main_arg2)) transposes_S1024x1024_S1024x1024_1_0 h d))
theorem V1_main_v4 (c : Dev nD) (h d : Fin 1024) :
    V1 m ρ c main_v4 (ix2 h d) = m ((c : Thread nD τ).loc main_arg4) (ix2 d h) :=
  (congrFun (V1_main_v4_eq m ρ c) (ix2 h d)).trans
    ((truncf_apply (ψ := .bf16) (transpose S1024x1024 [1, 0] (m ((c : Thread nD τ).loc main_arg4)) transposes_S1024x1024_S1024x1024_1_0)
        bitsLt_bf16_f32 (ix2 h d)).trans
      (transpose_ix2_apply (m ((c : Thread nD τ).loc main_arg4)) transposes_S1024x1024_S1024x1024_1_0 h d))
theorem V1_main_v6 (c : Dev nD) (h d : Fin 1024) :
    V1 m ρ c main_v6 (ix2 h d) = m ((c : Thread nD τ).loc main_arg6) (ix2 d h) :=
  (congrFun (V1_main_v6_eq m ρ c) (ix2 h d)).trans
    ((truncf_apply (ψ := .bf16) (transpose S1024x1024 [1, 0] (m ((c : Thread nD τ).loc main_arg6)) transposes_S1024x1024_S1024x1024_1_0)
        bitsLt_bf16_f32 (ix2 h d)).trans
      (transpose_ix2_apply (m ((c : Thread nD τ).loc main_arg6)) transposes_S1024x1024_S1024x1024_1_0 h d))

end AtIdeal

end Cert.KernelIdeal.Hand

end
-- ==== Proof.KI.R0Value.lean ====
/-
  The projection kernel (the first region of the program), its value at the extended reals.

  Each of the region's three output arrays q, k, v ends holding, at row r and column d,
      max (∑ h, x[r, h] · W[h, d] + b[0, d]) 0
  for x the 16384 × 1024 activations, W the matching 1024 × 1024 weight matrix and b its 1 × 1024 bias row, all as the
  region finds them. Three steps: the body's arithmetic read at one entry of a block (a product into a zero
  accumulator is the plain sum over the shared axis; narrowing a format is the identity at the extended reals; the
  bias row is repeated down the rows); what a point writes back is its block of that one whole-array function,
  because the activations' block and the outputs' block at point t are both rows 1024 t … 1024 t + 1023 and the
  weights and biases are read whole; and the sixteen blocks cover the array, row r lying in block r / 1024.
-/
import proofs.«152723_j25331717111812_2_alg».proof.Proof.KI.R0Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The projection's arithmetic at an index -/

/-- The product's left operand index at output index `j`: row `j 0` … -/
theorem mm1024_lhs_0 (j : S1024x1024.Idx) (k : dot_S1024x1024_S1024x1024_S1024x1024_1_0_0_1_n_n.contr.Idx) : (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and the contraction coordinate as column; -/
theorem mm1024_lhs_1 (j : S1024x1024.Idx) (k : dot_S1024x1024_S1024x1024_S1024x1024_1_0_0_1_n_n.contr.Idx) : (dot_S1024x1024_S1024x1024_S1024x1024_1_0_0_1_n_n.lhsIdx j k 1).val = (k ⟨0, by decide⟩).val :=
  dot_S1024x1024_S1024x1024_S1024x1024_1_0_0_1_n_n.lhsIdx_val_of_single rfl j k
/-- the right operand's: the contraction coordinate as row … -/
theorem mm1024_rhs_0 (j : S1024x1024.Idx) (k : dot_S1024x1024_S1024x1024_S1024x1024_1_0_0_1_n_n.contr.Idx) : (dot_S1024x1024_S1024x1024_S1024x1024_1_0_0_1_n_n.rhsIdx j k 0).val = (k ⟨0, by decide⟩).val :=
  dot_S1024x1024_S1024x1024_S1024x1024_1_0_0_1_n_n.rhsIdx_val_of_single rfl j k
/-- … and column `j 1`. -/
theorem mm1024_rhs_1 (j : S1024x1024.Idx) (k : dot_S1024x1024_S1024x1024_S1024x1024_1_0_0_1_n_n.contr.Idx) : (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The contraction of a 1024 × 1024 by 1024 × 1024 product into a zero accumulator, at row `p` and column `q`:
    the sum over the shared axis of row `p` of the left factor against column `q` of the right one. -/
theorem mm1024_apply {φ₁ φ₂ : FTy} (l : FVec Ideal S1024x1024 φ₁) (r : FVec Ideal S1024x1024 φ₂) (p q : Fin 1024) :
    matmul (F := Ideal) dot_S1024x1024_S1024x1024_S1024x1024_1_0_0_1_n_n none l r (constant (F := Ideal) S1024x1024 .f32 0x00000000#32) (ix2 p q)
      = ∑ h : Fin 1024, l (ix2 p h) * r (ix2 h q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact mm1024_lhs_0 _ _
    | ⟨1, _⟩ => exact (mm1024_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (mm1024_rhs_0 _ _).trans hk
    | ⟨1, _⟩ => exact mm1024_rhs_1 _ _)
  rw [el, er]

/-- The query payload at row `p`, column `q`: relu of row `p` of the block against column `q` of the weights, plus
    the bias at `q`. The narrowing of the block to the weights' format is the identity at the extended reals. -/
theorem k0_pay2_apply (x : Vec Ideal S1024x1024 .f32) (w : Vec Ideal S1024x1024 .bf16) (b : Vec Ideal S1x1024 .f32) (p q : Fin 1024) :
    k0_pay2 (F := Ideal) x w b (ix2 p q) = max ((∑ h : Fin 1024, x (ix2 p h) * w (ix2 h q)) + b (ix2 (0 : Fin 1) q)) 0 := by
  unfold k0_pay2 k0_pay1
  dsimp only
  show max (matmul (F := Ideal) dot_S1024x1024_S1024x1024_S1024x1024_1_0_0_1_n_n none
          (truncf .bf16 (shapeCast S1024x1024 x shapeCasts_S1024x1024_S1024x1024) bitsLt_bf16_f32)
          (shapeCast S1024x1024 w shapeCasts_S1024x1024_S1024x1024) (constant (F := Ideal) S1024x1024 .f32 0x00000000#32) (ix2 p q)
        + broadcastTo S1024x1024 (shapeCast S1x1024 b shapeCasts_S1x1024_S1x1024) broadcasts_S1x1024_S1024x1024 (ix2 p q))
      (Ideal.ofBits .f32 0x00000000#32) = _
  rw [mm1024_apply, broadcastTo_1b_ab_apply, Ideal.ofBits_zero_f32, shapeCast_self, shapeCast_self, shapeCast_self]
  rfl

/-- The key payload is the same arithmetic, -/
theorem k0_pay3_eq {F : FTy → Type} [FloatOps F] : k0_pay3 (F := F) = k0_pay2 (F := F) := rfl
/-- and the value payload is it narrowed, which changes nothing at the extended reals. -/
theorem k0_pay4_apply (x : Vec Ideal S1024x1024 .f32) (w : Vec Ideal S1024x1024 .bf16) (b : Vec Ideal S1x1024 .f32) (j : S1024x1024.Idx) :
    k0_pay4 (F := Ideal) x w b j = k0_pay2 (F := Ideal) x w b j := rfl

/-! ## From blocks to arrays -/

theorem hz0 : (![0, 0] : Fin 2 → Nat) = fun _ => 0 := funext fun a => by fin_cases a <;> rfl

/-- The projection of a 16384-row array `X` by a 1024 × 1024 matrix `W` and a bias row `B`, entry by entry:
    relu (X · W + B). -/
def qkvProj (X : S16384x1024.Idx → EReal) (W : S1024x1024.Idx → EReal) (B : S1x1024.Idx → EReal) : S16384x1024.Idx → EReal :=
  fun i => max ((∑ h : Fin 1024, X (ix2 (⟨(i 0).val, idx2_lt0 i⟩ : Fin 16384) h) * W (ix2 h (⟨(i 1).val, idx2_lt1 i⟩ : Fin 1024)))
      + B (ix2 (0 : Fin 1) (⟨(i 1).val, idx2_lt1 i⟩ : Fin 1024))) 0

/-- The projection at row `r`, column `d`. -/
theorem qkvProj_apply (X : S16384x1024.Idx → EReal) (W : S1024x1024.Idx → EReal) (B : S1x1024.Idx → EReal) (r : Fin 16384) (d : Fin 1024) :
    qkvProj X W B (ix2 r d) = max ((∑ h : Fin 1024, X (ix2 r h) * W (ix2 h d)) + B (ix2 (0 : Fin 1) d)) 0 := rfl

/-- One entry of a payload is one entry of the projection, when the block's row `p` is the array's row `i 0`
    and the column is `i 1`. -/
theorem qkv_point_eq (X : S16384x1024.Idx → EReal) (W : S1024x1024.Idx → EReal) (B : S1x1024.Idx → EReal)
    (x : Vec Ideal S1024x1024 .f32) (p q : Fin 1024) (i : S16384x1024.Idx)
    (hx : ∀ h : Fin 1024, x (ix2 p h) = X (ix2 (⟨(i 0).val, idx2_lt0 i⟩ : Fin 16384) h)) (hq : (i 1).val = q.val) :
    k0_pay2 (F := Ideal) x W B (ix2 p q) = qkvProj X W B i := by
  have hq' : (⟨(i 1).val, idx2_lt1 i⟩ : Fin 1024) = q := Fin.ext hq
  rw [k0_pay2_apply]
  unfold qkvProj
  rw [hq']
  refine congrArg (fun s => max (s + B (ix2 (0 : Fin 1) q)) 0) ?_
  exact Finset.sum_congr rfl fun h _ => by rw [hx h]

/-- The printed block index maps over the grid: the activations' and the outputs' blocks move with the point, one
    block of 1024 rows per point; the weights' and biases' never move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- The activations' block at point `t` is rows `1024 t … 1024 t + 1023` of the array. -/
theorem iblk0_0_apply (c : Dev nD) (t : Fin cfg0.N) (y : S1024x1024.Idx) (k : S16384x1024.Idx)
    (hk0 : (k 0).val = t.val * 1024 + (y 0).val) (hk1 : (k 1).val = (y 1).val) :
    (iblk0 V c 0 t : Vec F S1024x1024 .f32) y = (V c main_v0 : S16384x1024.Idx → Elt F .f32) k := by
  have e := idx_facts0 t
  unfold iblk0
  rw [View.read_apply]
  show V c main_v0 _ = V c main_v0 k
  refine congrArg _ (funext fun a => Fin.ext ?_)
  match a with
  | ⟨0, _⟩ => show win0_0.index t (0 : Fin 2) * 1024 + 1 * (y 0).val = (k 0).val; omega
  | ⟨1, _⟩ => show win0_0.index t (1 : Fin 2) * 1024 + 1 * (y 1).val = (k 1).val; omega

/-- A weight's or a bias's block at any point is its whole array. -/
theorem iblk0_1_eq (c : Dev nD) (t : Fin cfg0.N) :
    (iblk0 V c 1 t : Vec F S1024x1024 .bf16) = (V c main_v2 : S1024x1024.Idx → Elt F .bf16) := by
  have e := idx_facts0 t
  funext y
  unfold iblk0
  rw [View.read_apply]
  show V c main_v2 _ = V c main_v2 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega
theorem iblk0_2_eq (c : Dev nD) (t : Fin cfg0.N) :
    (iblk0 V c 2 t : Vec F S1024x1024 .bf16) = (V c main_v4 : S1024x1024.Idx → Elt F .bf16) := by
  have e := idx_facts0 t
  funext y
  unfold iblk0
  rw [View.read_apply]
  show V c main_v4 _ = V c main_v4 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega
theorem iblk0_3_eq (c : Dev nD) (t : Fin cfg0.N) :
    (iblk0 V c 3 t : Vec F S1024x1024 .bf16) = (V c main_v6 : S1024x1024.Idx → Elt F .bf16) := by
  have e := idx_facts0 t
  funext y
  unfold iblk0
  rw [View.read_apply]
  show V c main_v6 _ = V c main_v6 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega
theorem iblk0_4_eq (c : Dev nD) (t : Fin cfg0.N) :
    (iblk0 V c 4 t : Vec F S1x1024 .f32) = (V c main_v7 : S1x1024.Idx → Elt F .f32) := by
  have e := idx_facts0 t
  funext y
  unfold iblk0
  rw [View.read_apply]
  show V c main_v7 _ = V c main_v7 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega
theorem iblk0_5_eq (c : Dev nD) (t : Fin cfg0.N) :
    (iblk0 V c 5 t : Vec F S1x1024 .f32) = (V c main_v8 : S1x1024.Idx → Elt F .f32) := by
  have e := idx_facts0 t
  funext y
  unfold iblk0
  rw [View.read_apply]
  show V c main_v8 _ = V c main_v8 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega
theorem iblk0_6_eq (c : Dev nD) (t : Fin cfg0.N) :
    (iblk0 V c 6 t : Vec F S1x1024 .f32) = (V c main_v9 : S1x1024.Idx → Elt F .f32) := by
  have e := idx_facts0 t
  funext y
  unfold iblk0
  rw [View.read_apply]
  show V c main_v9 _ = V c main_v9 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

end Blocks

variable (V : (c : Dev nD) → (b : Ref sig .tc) → Buf (Elt Ideal) ((c : Thread nD τ).loc b))

/-! ## Output window 7 -/

/-- What point `t` writes back of window 7 is block `t` of the projection of the arrays as the region finds them. -/
theorem flushed0_7_eq (c : Dev nD) (t : Fin cfg0.N) :
    (dat0 (F := Ideal) V c).flushed 7 t = ((cfg0.win 7).blk t).view.read (Elt Ideal) (qkvProj (V c main_v0) (V c main_v2) (V c main_v7)) := by
  show (cfg0.win 7).cut (grid0.coords t) ((dat0 V c).after 7 t) = _
  rw [after0_7]
  unfold out0_7
  rw [View.canon_unit_zero hz0]
  simp only [View.ld_unit_zero (S := S1024x1024) hz0, View.ld_unit_zero (S := S1x1024) hz0]
  rw [iblk0_1_eq, iblk0_4_eq]
  refine funext fun (j : S1024x1024.Idx) => ?_
  obtain ⟨p, q, rfl⟩ : ∃ (p q : Fin 1024), j = ix2 p q := ⟨j 0, j 1, eq_ix2 j⟩
  obtain ⟨e00, e01, -, -, -, -, -, -, -, -, -, -, -, -, e70, e71, e80, e81, e90, e91⟩ := idx_facts0 t
  have hi0 : ((((cfg0.win 7).blk t).view.emb (ix2 p q)) 0).val = win0_7.index t (0 : Fin 2) * 1024 + 1 * p.val := rfl
  have hi1 : ((((cfg0.win 7).blk t).view.emb (ix2 p q)) 1).val = win0_7.index t (1 : Fin 2) * 1024 + 1 * q.val := rfl
  rw [View.read_apply]
  show k0_pay2 (F := Ideal) (iblk0 V c 0 t) _ _ (ix2 p q) = _
  refine qkv_point_eq _ _ _ _ p q _ (fun h => ?_) ?_
  · refine iblk0_0_apply V c t (ix2 p h) _ ?_ rfl
    show _ = t.val * 1024 + p.val
    rw [hi0]; omega
  · rw [hi1]; omega

/-- Every row of the array lies in the block of the point numbered by its quotient by 1024. -/
theorem rows_cover0_7 (i : S16384x1024.Idx) : ∃ t : Fin cfg0.N, (cfg0.win 7).flush t = true ∧ i ∈ ((cfg0.win 7).blk t).view.set := by
  have h0 : (i 0).val < 16384 := idx2_lt0 i
  have h1 : (i 1).val < 1024 := idx2_lt1 i
  have hN : grid0.N = 16 := N_0
  let t : Fin cfg0.N := ⟨(i 0).val / 1024, by show _ < grid0.N; omega⟩
  have ht : t.val = (i 0).val / 1024 := rfl
  obtain ⟨-, -, -, -, -, -, -, -, -, -, -, -, -, -, e70, e71, e80, e81, e90, e91⟩ := idx_facts0 t
  refine ⟨t, flush0_7 t, ?_⟩
  show i ∈ ((View.whole main_v10_0).slice (win0_7.rect t)).set
  rw [View.set_slice_whole, Rect.mem_set_unit]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-- The array window 7 leaves is the projection of the arrays the region found, -/
theorem arr0_7_eq (c : Dev nD) :
    (dat0 (F := Ideal) V c).arrAt 7 cfg0.N = qkvProj (V c main_v0) (V c main_v2) (V c main_v7) :=
  (dat0 (F := Ideal) V c).arrAt_eq_of_cover 7 (qkvProj (V c main_v0) (V c main_v2) (V c main_v7)) (fun t _ => flushed0_7_eq V c t) rows_cover0_7

/-- entry by entry (`qkvProj_apply` spells the entry out). -/
theorem arr0_7 (c : Dev nD) (r : Fin 16384) (d : Fin 1024) :
    (dat0 (F := Ideal) V c).arrAt 7 cfg0.N (ix2 r d) = qkvProj (V c main_v0) (V c main_v2) (V c main_v7) (ix2 r d) :=
  congrFun (arr0_7_eq V c) (ix2 r d)

/-! ## Output window 8 -/

/-- What point `t` writes back of window 8 is block `t` of the projection of the arrays as the region finds them. -/
theorem flushed0_8_eq (c : Dev nD) (t : Fin cfg0.N) :
    (dat0 (F := Ideal) V c).flushed 8 t = ((cfg0.win 8).blk t).view.read (Elt Ideal) (qkvProj (V c main_v0) (V c main_v4) (V c main_v8)) := by
  show (cfg0.win 8).cut (grid0.coords t) ((dat0 V c).after 8 t) = _
  rw [after0_8]
  unfold out0_8
  rw [View.canon_unit_zero hz0]
  simp only [View.ld_unit_zero (S := S1024x1024) hz0, View.ld_unit_zero (S := S1x1024) hz0]
  rw [iblk0_2_eq, iblk0_5_eq]
  refine funext fun (j : S1024x1024.Idx) => ?_
  obtain ⟨p, q, rfl⟩ : ∃ (p q : Fin 1024), j = ix2 p q := ⟨j 0, j 1, eq_ix2 j⟩
  obtain ⟨e00, e01, -, -, -, -, -, -, -, -, -, -, -, -, e70, e71, e80, e81, e90, e91⟩ := idx_facts0 t
  have hi0 : ((((cfg0.win 8).blk t).view.emb (ix2 p q)) 0).val = win0_8.index t (0 : Fin 2) * 1024 + 1 * p.val := rfl
  have hi1 : ((((cfg0.win 8).blk t).view.emb (ix2 p q)) 1).val = win0_8.index t (1 : Fin 2) * 1024 + 1 * q.val := rfl
  rw [View.read_apply]
  show k0_pay3 (F := Ideal) (iblk0 V c 0 t) _ _ (ix2 p q) = _
  rw [k0_pay3_eq]
  refine qkv_point_eq _ _ _ _ p q _ (fun h => ?_) ?_
  · refine iblk0_0_apply V c t (ix2 p h) _ ?_ rfl
    show _ = t.val * 1024 + p.val
    rw [hi0]; omega
  · rw [hi1]; omega

/-- Every row of the array lies in the block of the point numbered by its quotient by 1024. -/
theorem rows_cover0_8 (i : S16384x1024.Idx) : ∃ t : Fin cfg0.N, (cfg0.win 8).flush t = true ∧ i ∈ ((cfg0.win 8).blk t).view.set := by
  have h0 : (i 0).val < 16384 := idx2_lt0 i
  have h1 : (i 1).val < 1024 := idx2_lt1 i
  have hN : grid0.N = 16 := N_0
  let t : Fin cfg0.N := ⟨(i 0).val / 1024, by show _ < grid0.N; omega⟩
  have ht : t.val = (i 0).val / 1024 := rfl
  obtain ⟨-, -, -, -, -, -, -, -, -, -, -, -, -, -, e70, e71, e80, e81, e90, e91⟩ := idx_facts0 t
  refine ⟨t, flush0_8 t, ?_⟩
  show i ∈ ((View.whole main_v10_1).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The array window 8 leaves is the projection of the arrays the region found, -/
theorem arr0_8_eq (c : Dev nD) :
    (dat0 (F := Ideal) V c).arrAt 8 cfg0.N = qkvProj (V c main_v0) (V c main_v4) (V c main_v8) :=
  (dat0 (F := Ideal) V c).arrAt_eq_of_cover 8 (qkvProj (V c main_v0) (V c main_v4) (V c main_v8)) (fun t _ => flushed0_8_eq V c t) rows_cover0_8

/-- entry by entry (`qkvProj_apply` spells the entry out). -/
theorem arr0_8 (c : Dev nD) (r : Fin 16384) (d : Fin 1024) :
    (dat0 (F := Ideal) V c).arrAt 8 cfg0.N (ix2 r d) = qkvProj (V c main_v0) (V c main_v4) (V c main_v8) (ix2 r d) :=
  congrFun (arr0_8_eq V c) (ix2 r d)

/-! ## Output window 9 -/

/-- What point `t` writes back of window 9 is block `t` of the projection of the arrays as the region finds them. -/
theorem flushed0_9_eq (c : Dev nD) (t : Fin cfg0.N) :
    (dat0 (F := Ideal) V c).flushed 9 t = ((cfg0.win 9).blk t).view.read (Elt Ideal) (qkvProj (V c main_v0) (V c main_v6) (V c main_v9)) := by
  show (cfg0.win 9).cut (grid0.coords t) ((dat0 V c).after 9 t) = _
  rw [after0_9]
  unfold out0_9
  rw [View.canon_unit_zero hz0]
  simp only [View.ld_unit_zero (S := S1024x1024) hz0, View.ld_unit_zero (S := S1x1024) hz0]
  rw [iblk0_3_eq, iblk0_6_eq]
  refine funext fun (j : S1024x1024.Idx) => ?_
  obtain ⟨p, q, rfl⟩ : ∃ (p q : Fin 1024), j = ix2 p q := ⟨j 0, j 1, eq_ix2 j⟩
  obtain ⟨e00, e01, -, -, -, -, -, -, -, -, -, -, -, -, e70, e71, e80, e81, e90, e91⟩ := idx_facts0 t
  have hi0 : ((((cfg0.win 9).blk t).view.emb (ix2 p q)) 0).val = win0_9.index t (0 : Fin 2) * 1024 + 1 * p.val := rfl
  have hi1 : ((((cfg0.win 9).blk t).view.emb (ix2 p q)) 1).val = win0_9.index t (1 : Fin 2) * 1024 + 1 * q.val := rfl
  rw [View.read_apply]
  show k0_pay4 (F := Ideal) (iblk0 V c 0 t) _ _ (ix2 p q) = _
  rw [k0_pay4_apply]
  refine qkv_point_eq _ _ _ _ p q _ (fun h => ?_) ?_
  · refine iblk0_0_apply V c t (ix2 p h) _ ?_ rfl
    show _ = t.val * 1024 + p.val
    rw [hi0]; omega
  · rw [hi1]; omega

/-- Every row of the array lies in the block of the point numbered by its quotient by 1024. -/
theorem rows_cover0_9 (i : S16384x1024.Idx) : ∃ t : Fin cfg0.N, (cfg0.win 9).flush t = true ∧ i ∈ ((cfg0.win 9).blk t).view.set := by
  have h0 : (i 0).val < 16384 := idx2_lt0 i
  have h1 : (i 1).val < 1024 := idx2_lt1 i
  have hN : grid0.N = 16 := N_0
  let t : Fin cfg0.N := ⟨(i 0).val / 1024, by show _ < grid0.N; omega⟩
  have ht : t.val = (i 0).val / 1024 := rfl
  obtain ⟨-, -, -, -, -, -, -, -, -, -, -, -, -, -, e70, e71, e80, e81, e90, e91⟩ := idx_facts0 t
  refine ⟨t, flush0_9 t, ?_⟩
  show i ∈ ((View.whole main_v10_2).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 1024 ≤ (i 1).val ∧ (i 1).val < win0_9.index t (1 : Fin 2) * 1024 + 1024; omega

/-- The array window 9 leaves is the projection of the arrays the region found, -/
theorem arr0_9_eq (c : Dev nD) :
    (dat0 (F := Ideal) V c).arrAt 9 cfg0.N = qkvProj (V c main_v0) (V c main_v6) (V c main_v9) :=
  (dat0 (F := Ideal) V c).arrAt_eq_of_cover 9 (qkvProj (V c main_v0) (V c main_v6) (V c main_v9)) (fun t _ => flushed0_9_eq V c t) rows_cover0_9

/-- entry by entry (`qkvProj_apply` spells the entry out). -/
theorem arr0_9 (c : Dev nD) (r : Fin 16384) (d : Fin 1024) :
    (dat0 (F := Ideal) V c).arrAt 9 cfg0.N (ix2 r d) = qkvProj (V c main_v0) (V c main_v6) (V c main_v9) (ix2 r d) :=
  congrFun (arr0_9_eq V c) (ix2 r d)

end Cert.KernelIdeal.Hand

end
-- ==== Proof.KI.R1Blocks.lean ====
/-
  The attention region (the second region of the program): its windows' blocks as entries of their arrays, and the
  output array from its blocks.

  The grid's 64 positions run row-major over (batch, query tile, key tile) = (8, 2, 4). At position t the query,
  residual and output blocks are batch t / 8, rows 1024 (t / 4 % 2) … of their [8, 2048, 1024] arrays; the key and
  value blocks are batch t / 8, rows 512 (t % 4) …; the mask block is batch t / 8, entries 512 (t % 4) … of its
  [8, 1, 2048] array. The output is written back only at the last key tile (t % 4 = 3), and those sixteen blocks
  cover the output array.
-/
import proofs.«152723_j25331717111812_2_alg».proof.Proof.KI.R1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The grid's positions and the windows' block indices -/

/-- The attention region's grid has 64 positions. -/
theorem g1_pos_lt (t : Fin cfg1.N) : t.val < 64 := by
  have h : t.val < grid1.N := t.isLt
  rw [N_1] at h; exact h
/-- A position's batch `t / 8` is one of the 8. -/
theorem g1_batch_lt (t : Fin cfg1.N) : t.val / 8 < 8 := by have := g1_pos_lt t; omega
/-- Row `r` of the query tile `t / 4 % 2` is one of the 2048 rows. -/
theorem g1_qrow_lt (t : Fin cfg1.N) (r : Fin 1024) : (t.val / 4 % 2) * 1024 + r.val < 2048 := by have := r.isLt; omega
/-- Row `j` of the key tile `t % 4` is one of the 2048 rows. -/
theorem g1_krow_lt (t : Fin cfg1.N) (j : Fin 512) : (t.val % 4) * 512 + j.val < 2048 := by have := j.isLt; omega

/-- The printed block index maps over the grid, whose positions run row-major over (batch, query tile, key tile):
    position `t` has batch `t / 8`, query tile `t / 4 % 2`, key tile `t % 4`. Queries, residual and output follow
    (batch, query tile); keys and values (batch, key tile); the mask (batch, –, key tile). -/
theorem idx_facts1 : ∀ t : Fin cfg1.N, win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = 0 ∧ win1_3.index t (2 : Fin 3) = t.val % 4
    ∧ win1_4.index t (0 : Fin 3) = t.val / 8 ∧ win1_4.index t (1 : Fin 3) = t.val / 4 % 2 ∧ win1_4.index t (2 : Fin 3) = 0
    ∧ win1_5.index t (0 : Fin 3) = t.val / 8 ∧ win1_5.index t (1 : Fin 3) = t.val / 4 % 2 ∧ win1_5.index t (2 : Fin 3) = 0 :=
  (by decide +kernel : ∀ t : Fin grid1.N, _)

section Blocks
variable {F : FTy → Type} [FloatOps F]
variable (V : (c : Dev nD) → (b : Ref sig .tc) → Buf (Elt F) ((c : Thread nD τ).loc b))

/-- Window 0's block at position `t`: batch `t / 8`, rows `1024 (t / 4 % 2) …` of the array. -/
theorem iblk1_0_apply (c : Dev nD) (t : Fin cfg1.N) (r e : Fin 1024) :
    (iblk1 V c 0 t : Vec F S1x1024x1024 .f32) (ix3 (0 : Fin 1) r e)
      = (V c main_v11 : S8x2048x1024.Idx → Elt F .f32) (ix3 (⟨t.val / 8, g1_batch_lt t⟩ : Fin 8) (⟨(t.val / 4 % 2) * 1024 + r.val, g1_qrow_lt t r⟩ : Fin 2048) e) := by
  have f := idx_facts1 t
  unfold iblk1
  rw [View.read_apply]
  show V c main_v11 _ = V c main_v11 _
  refine congrArg _ (funext fun a => Fin.ext ?_)
  match a with
  | ⟨0, _⟩ => show win1_0.index t (0 : Fin 3) * 1 + 1 * 0 = t.val / 8; omega
  | ⟨1, _⟩ => show win1_0.index t (1 : Fin 3) * 1024 + 1 * r.val = (t.val / 4 % 2) * 1024 + r.val; omega
  | ⟨2, _⟩ => show win1_0.index t (2 : Fin 3) * 1024 + 1 * e.val = e.val; omega

/-- Window 1's block at position `t`: batch `t / 8`, rows `512 (t % 4) …` of the array. -/
theorem iblk1_1_apply (c : Dev nD) (t : Fin cfg1.N) (j : Fin 512) (e : Fin 1024) :
    (iblk1 V c 1 t : Vec F S1x512x1024 .f32) (ix3 (0 : Fin 1) j e)
      = (V c main_v12 : S8x2048x1024.Idx → Elt F .f32) (ix3 (⟨t.val / 8, g1_batch_lt t⟩ : Fin 8) (⟨(t.val % 4) * 512 + j.val, g1_krow_lt t j⟩ : Fin 2048) e) := by
  have f := idx_facts1 t
  unfold iblk1
  rw [View.read_apply]
  show V c main_v12 _ = V c main_v12 _
  refine congrArg _ (funext fun a => Fin.ext ?_)
  match a with
  | ⟨0, _⟩ => show win1_1.index t (0 : Fin 3) * 1 + 1 * 0 = t.val / 8; omega
  | ⟨1, _⟩ => show win1_1.index t (1 : Fin 3) * 512 + 1 * j.val = (t.val % 4) * 512 + j.val; omega
  | ⟨2, _⟩ => show win1_1.index t (2 : Fin 3) * 1024 + 1 * e.val = e.val; omega

/-- Window 2's block at position `t`: batch `t / 8`, rows `512 (t % 4) …` of the array. -/
theorem iblk1_2_apply (c : Dev nD) (t : Fin cfg1.N) (j : Fin 512) (e : Fin 1024) :
    (iblk1 V c 2 t : Vec F S1x512x1024 .bf16) (ix3 (0 : Fin 1) j e)
      = (V c main_v13 : S8x2048x1024.Idx → Elt F .bf16) (ix3 (⟨t.val / 8, g1_batch_lt t⟩ : Fin 8) (⟨(t.val % 4) * 512 + j.val, g1_krow_lt t j⟩ : Fin 2048) e) := by
  have f := idx_facts1 t
  unfold iblk1
  rw [View.read_apply]
  show V c main_v13 _ = V c main_v13 _
  refine congrArg _ (funext fun a => Fin.ext ?_)
  match a with
  | ⟨0, _⟩ => show win1_2.index t (0 : Fin 3) * 1 + 1 * 0 = t.val / 8; omega
  | ⟨1, _⟩ => show win1_2.index t (1 : Fin 3) * 512 + 1 * j.val = (t.val % 4) * 512 + j.val; omega
  | ⟨2, _⟩ => show win1_2.index t (2 : Fin 3) * 1024 + 1 * e.val = e.val; omega

/-- The mask's block at position `t`: batch `t / 8`, entries `512 (t % 4) …`. -/
theorem iblk1_3_apply (c : Dev nD) (t : Fin cfg1.N) (j : Fin 512) :
    (iblk1 V c 3 t : Vec F S1x1x512 .f32) (ix3 (0 : Fin 1) (0 : Fin 1) j)
      = (V c main_arg1 : S8x1x2048.Idx → Elt F .f32) (ix3 (⟨t.val / 8, g1_batch_lt t⟩ : Fin 8) (0 : Fin 1) (⟨(t.val % 4) * 512 + j.val, g1_krow_lt t j⟩ : Fin 2048)) := by
  have f := idx_facts1 t
  unfold iblk1
  rw [View.read_apply]
  show V c main_arg1 _ = V c main_arg1 _
  refine congrArg _ (funext fun a => Fin.ext ?_)
  match a with
  | ⟨0, _⟩ => show win1_3.index t (0 : Fin 3) * 1 + 1 * 0 = t.val / 8; omega
  | ⟨1, _⟩ => show win1_3.index t (1 : Fin 3) * 1 + 1 * 0 = 0; omega
  | ⟨2, _⟩ => show win1_3.index t (2 : Fin 3) * 512 + 1 * j.val = (t.val % 4) * 512 + j.val; omega

/-- Window 4's block at position `t`: batch `t / 8`, rows `1024 (t / 4 % 2) …` of the array. -/
theorem iblk1_4_apply (c : Dev nD) (t : Fin cfg1.N) (r e : Fin 1024) :
    (iblk1 V c 4 t : Vec F S1x1024x1024 .f32) (ix3 (0 : Fin 1) r e)
      = (V c main_arg0 : S8x2048x1024.Idx → Elt F .f32) (ix3 (⟨t.val / 8, g1_batch_lt t⟩ : Fin 8) (⟨(t.val / 4 % 2) * 1024 + r.val, g1_qrow_lt t r⟩ : Fin 2048) e) := by
  have f := idx_facts1 t
  unfold iblk1
  rw [View.read_apply]
  show V c main_arg0 _ = V c main_arg0 _
  refine congrArg _ (funext fun a => Fin.ext ?_)
  match a with
  | ⟨0, _⟩ => show win1_4.index t (0 : Fin 3) * 1 + 1 * 0 = t.val / 8; omega
  | ⟨1, _⟩ => show win1_4.index t (1 : Fin 3) * 1024 + 1 * r.val = (t.val / 4 % 2) * 1024 + r.val; omega
  | ⟨2, _⟩ => show win1_4.index t (2 : Fin 3) * 1024 + 1 * e.val = e.val; omega

end Blocks

/-! ## The output array after the region -/

variable (V : (c : Dev nD) → (b : Ref sig .tc) → Buf (Elt Ideal) ((c : Thread nD τ).loc b))

/-- The output array after the region is any function `G` that the output block agrees with at every position that
    writes back (the last key tile of each batch and query tile): such a position's block is batch `t / 8`, rows
    `1024 (t / 4 % 2) …`, and these sixteen blocks cover the array, entry (p, s, e) lying in the block of position
    `8 p + 4 (s / 1024) + 3`. -/
theorem final1_5 (c : Dev nD) (G : S8x2048x1024.Idx → EReal)
    (h : ∀ t : Fin cfg1.N, t.val % 4 = 3 → ∀ r e : Fin 1024,
      ((dat1 (F := Ideal) V c).after 5 t : Vec Ideal S1x1024x1024 .f32) (ix3 (0 : Fin 1) r e)
        = G (ix3 (⟨t.val / 8, g1_batch_lt t⟩ : Fin 8) (⟨(t.val / 4 % 2) * 1024 + r.val, g1_qrow_lt t r⟩ : Fin 2048) e)) :
    (dat1 (F := Ideal) V c).arrAt 5 cfg1.N = G := by
  refine (dat1 (F := Ideal) V c).arrAt_eq_of_cover 5 G (fun t hf => ?_) (fun i => ?_)
  · have ht : t.val % 4 = 3 := (flush1_5 t).mp hf
    have f := idx_facts1 t
    show (cfg1.win 5).cut (grid1.coords t) ((dat1 V c).after 5 t) = _
    refine funext fun (j : S1x1024x1024.Idx) => ?_
    obtain ⟨z, r, e, rfl⟩ : ∃ (z : Fin 1) (r e : Fin 1024), j = ix3 z r e := ⟨j 0, j 1, j 2, eq_ix3 j⟩
    obtain rfl : z = 0 := Subsingleton.elim _ _
    rw [View.read_apply]
    refine (h t ht r e).trans (congrArg G (funext fun a => Fin.ext ?_))
    match a with
    | ⟨0, _⟩ => show t.val / 8 = win1_5.index t (0 : Fin 3) * 1 + 1 * 0; omega
    | ⟨1, _⟩ => show (t.val / 4 % 2) * 1024 + r.val = win1_5.index t (1 : Fin 3) * 1024 + 1 * r.val; omega
    | ⟨2, _⟩ => show e.val = win1_5.index t (2 : Fin 3) * 1024 + 1 * e.val; omega
  · have h0 : (i 0).val < 8 := (i 0).isLt
    have h1 : (i 1).val < 2048 := (i 1).isLt
    have h2 : (i 2).val < 1024 := (i 2).isLt
    have hN : grid1.N = 64 := N_1
    let t : Fin cfg1.N := ⟨(i 0).val * 8 + ((i 1).val / 1024) * 4 + 3, by show _ < grid1.N; omega⟩
    have ht : t.val = (i 0).val * 8 + ((i 1).val / 1024) * 4 + 3 := rfl
    have f := idx_facts1 t
    refine ⟨t, (flush1_5 t).mpr (by omega), ?_⟩
    show i ∈ ((View.whole main_v14).slice (win1_5.rect t)).set
    rw [View.set_slice_whole, Rect.mem_set_unit]
    intro a
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 1024 ≤ (i 1).val ∧ (i 1).val < win1_5.index t (1 : Fin 3) * 1024 + 1024; omega
    | ⟨2, _⟩ => show win1_5.index t (2 : Fin 3) * 1024 ≤ (i 2).val ∧ (i 2).val < win1_5.index t (2 : Fin 3) * 1024 + 1024; omega

end Cert.KernelIdeal.Hand

end
-- ==== Proof.LibCoveredLoad.lean ====
/-
  A load through a whole buffer, after several stores each of which overwrote the whole buffer, reads what the LAST of
  those stores wrote, whatever the earlier ones were: a value that is written, read back, updated and written again,
  round after round. General in the shape, the element type and the view.
-/
import Idealize.ShloMosaic.Lib.Pipeline.Value

noncomputable section

namespace Idealize.ShloMosaic.View

variable {Val : EltTy → Type} {S : Shape} {e : EltTy}

/-- The newest whole-buffer store decides what a whole-buffer load reads. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KI.R1Pieces.lean ====
/-
  Region 1: what a grid point's run leaves in the scratch buffers and in the output buffer, as the body's arithmetic
  of the point's input blocks and of the scratch it found. One step of the running maximum, normaliser and
  accumulator; at key tile 0 the step starts from the reset values, at key tile 3 the output block is the accumulator
  divided by the normaliser plus the residual block.
-/
import proofs.«152723_j25331717111812_2_alg».proof.Proof.KI.R1Frame
import Idealize.ShloMosaic.Lib.Pipeline.Value
import proofs.«152723_j25331717111812_2_alg».proof.Proof.LibCoveredLoad

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One step, as functions of the blocks and the scratch found -/

/-- The new running maximum. -/
def newM (q : Vec F S1x1024x1024 .f32) (k : Vec F S1x512x1024 .f32) (msk : Vec F S1x1x512 .f32) (mS : Vec F S1024x1 .f32) : Vec F S1024x1 .f32 :=
  k1_pay3 (k1_pay9 q k msk mS)
/-- The new normaliser. -/
def newL (q : Vec F S1x1024x1024 .f32) (k : Vec F S1x512x1024 .f32) (msk : Vec F S1x1x512 .f32) (mS lS : Vec F S1024x1 .f32) : Vec F S1024x1 .f32 :=
  k1_pay1 (k1_pay12 q k msk mS mS lS)
/-- The new accumulator. -/
def newA (q : Vec F S1x1024x1024 .f32) (k : Vec F S1x512x1024 .f32) (msk : Vec F S1x1x512 .f32) (vv : Vec F S1x512x1024 .bf16) (mS : Vec F S1024x1 .f32) (aS : Vec F S1024x1024 .f32) : Vec F S1024x1024 .f32 :=
  k1_pay2 (k1_pay10 q k msk mS mS) (k1_pay11 q k msk mS) aS vv

theorem hz2 : (![0, 0] : Fin 2 → Nat) = fun _ => 0 := by funext a; fin_cases a <;> rfl
theorem hz3 : (![0, 0, 0] : Fin 3 → Nat) = fun _ => 0 := by funext a; fin_cases a <;> rfl

/-! ## Key tile 0 -/

theorem soutA_0_eq (c : Dev nD) (t : Fin cfg1.N) (h0 : t.val % 4 = 0) (h1 : ¬t.val % 4 = 3) :
    soutA_0 V c t h0 h1 = newM (iblk1 V c 0 t) (iblk1 V c 1 t) (iblk1 V c 3 t) (k1_pay5 (F := F)) := by
  unfold soutA_0
  rw [View.read_writes_eq_canon _ _ _ (scoverA_0 V c t h0 h1)]
  unfold runA kernelRun1_A
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  unfold newM
  rfl
theorem soutA_1_eq (c : Dev nD) (t : Fin cfg1.N) (h0 : t.val % 4 = 0) (h1 : ¬t.val % 4 = 3) :
    soutA_1 V c t h0 h1 = newL (iblk1 V c 0 t) (iblk1 V c 1 t) (iblk1 V c 3 t) (k1_pay5 (F := F)) (k1_pay6 (F := F)) := by
  unfold soutA_1
  rw [View.read_writes_eq_canon _ _ _ (scoverA_1 V c t h0 h1)]
  unfold runA kernelRun1_A
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  unfold newL
  rfl
theorem soutA_2_eq (c : Dev nD) (t : Fin cfg1.N) (h0 : t.val % 4 = 0) (h1 : ¬t.val % 4 = 3) :
    soutA_2 V c t h0 h1 = newA (iblk1 V c 0 t) (iblk1 V c 1 t) (iblk1 V c 3 t) (iblk1 V c 2 t) (k1_pay5 (F := F)) (k1_pay7 (F := F)) := by
  unfold soutA_2
  rw [View.read_writes_eq_canon _ _ _ (scoverA_2 V c t h0 h1)]
  unfold runA kernelRun1_A
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  unfold newA
  rfl

/-! ## Key tiles 1 and 2 -/

theorem soutB_0_eq (c : Dev nD) (t : Fin cfg1.N) (h0 : ¬t.val % 4 = 0) (h1 : ¬t.val % 4 = 3) (xs0 xs1 : Vec F S1024x1 .f32) (xs2 : Vec F S1024x1024 .f32) :
    soutB_0 V c t h0 h1 xs0 xs1 xs2 = newM (iblk1 V c 0 t) (iblk1 V c 1 t) (iblk1 V c 3 t) xs0 := by
  unfold soutB_0
  rw [View.read_writes_eq_canon _ _ _ (scoverB_0 V c t h0 h1 xs0 xs1 xs2)]
  unfold runB kernelRun1_B
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newM
  rfl
theorem soutB_1_eq (c : Dev nD) (t : Fin cfg1.N) (h0 : ¬t.val % 4 = 0) (h1 : ¬t.val % 4 = 3) (xs0 xs1 : Vec F S1024x1 .f32) (xs2 : Vec F S1024x1024 .f32) :
    soutB_1 V c t h0 h1 xs0 xs1 xs2 = newL (iblk1 V c 0 t) (iblk1 V c 1 t) (iblk1 V c 3 t) xs0 xs1 := by
  unfold soutB_1
  rw [View.read_writes_eq_canon _ _ _ (scoverB_1 V c t h0 h1 xs0 xs1 xs2)]
  unfold runB kernelRun1_B
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newL
  rfl
theorem soutB_2_eq (c : Dev nD) (t : Fin cfg1.N) (h0 : ¬t.val % 4 = 0) (h1 : ¬t.val % 4 = 3) (xs0 xs1 : Vec F S1024x1 .f32) (xs2 : Vec F S1024x1024 .f32) :
    soutB_2 V c t h0 h1 xs0 xs1 xs2 = newA (iblk1 V c 0 t) (iblk1 V c 1 t) (iblk1 V c 3 t) (iblk1 V c 2 t) xs0 xs2 := by
  unfold soutB_2
  rw [View.read_writes_eq_canon _ _ _ (scoverB_2 V c t h0 h1 xs0 xs1 xs2)]
  unfold runB kernelRun1_B
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newA
  rfl

/-! ## Key tile 3 -/

theorem soutC_0_eq (c : Dev nD) (t : Fin cfg1.N) (h0 : ¬t.val % 4 = 0) (h1 : t.val % 4 = 3) (xs0 xs1 : Vec F S1024x1 .f32) (xs2 : Vec F S1024x1024 .f32) :
    soutC_0 V c t h0 h1 xs0 xs1 xs2 = newM (iblk1 V c 0 t) (iblk1 V c 1 t) (iblk1 V c 3 t) xs0 := by
  unfold soutC_0
  rw [View.read_writes_eq_canon _ _ _ (scoverC_0 V c t h0 h1 xs0 xs1 xs2)]
  unfold runC kernelRun1_C
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newM
  rfl
theorem soutC_1_eq (c : Dev nD) (t : Fin cfg1.N) (h0 : ¬t.val % 4 = 0) (h1 : t.val % 4 = 3) (xs0 xs1 : Vec F S1024x1 .f32) (xs2 : Vec F S1024x1024 .f32) :
    soutC_1 V c t h0 h1 xs0 xs1 xs2 = newL (iblk1 V c 0 t) (iblk1 V c 1 t) (iblk1 V c 3 t) xs0 xs1 := by
  unfold soutC_1
  rw [View.read_writes_eq_canon _ _ _ (scoverC_1 V c t h0 h1 xs0 xs1 xs2)]
  unfold runC kernelRun1_C
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newL
  rfl
theorem soutC_2_eq (c : Dev nD) (t : Fin cfg1.N) (h0 : ¬t.val % 4 = 0) (h1 : t.val % 4 = 3) (xs0 xs1 : Vec F S1024x1 .f32) (xs2 : Vec F S1024x1024 .f32) :
    soutC_2 V c t h0 h1 xs0 xs1 xs2 = newA (iblk1 V c 0 t) (iblk1 V c 1 t) (iblk1 V c 3 t) (iblk1 V c 2 t) xs0 xs2 := by
  unfold soutC_2
  rw [View.read_writes_eq_canon _ _ _ (scoverC_2 V c t h0 h1 xs0 xs1 xs2)]
  unfold runC kernelRun1_C
  dsimp only
  sl_unfold_words
  rw [View.canon_cons_unit_zero hz2]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newA
  rfl
/-- The output block: the new accumulator over the new normaliser, plus the residual block. -/
theorem outC_5_eq (c : Dev nD) (t : Fin cfg1.N) (h0 : ¬t.val % 4 = 0) (h1 : t.val % 4 = 3) (xs0 xs1 : Vec F S1024x1 .f32) (xs2 : Vec F S1024x1024 .f32) :
    outC_5 V c t h0 h1 xs0 xs1 xs2 = k1_pay4 (newA (iblk1 V c 0 t) (iblk1 V c 1 t) (iblk1 V c 3 t) (iblk1 V c 2 t) xs0 xs2) (newL (iblk1 V c 0 t) (iblk1 V c 1 t) (iblk1 V c 3 t) xs0 xs1) (iblk1 V c 4 t) := by
  unfold outC_5
  rw [View.read_writes_eq_canon _ _ _ (coverC_5 V c t h0 h1 xs0 xs1 xs2)]
  unfold runC kernelRun1_C
  dsimp only
  sl_unfold_words
  rw [View.canon_cons_unit_zero hz3]
  simp only [View.readAt_eq_ld, Memref.IsWhole.read_unread, View.ld_unit_zero (S := S1x1024x1024) hz3, View.ld_unit_zero (S := S1x512x1024) hz3, View.ld_unit_zero (S := S1x1x512) hz3, View.ld_unit_zero (S := S1024x1) hz2, View.ld_unit_zero (S := S1024x1024) hz2, View.readCov_unit_zero (S := S1024x1) _ hz2, View.readCov_unit_zero (S := S1024x1024) _ hz2, View.readCov_cons_unit_zero (S := S1024x1) _ hz2, View.readCov_cons_unit_zero (S := S1024x1024) _ hz2]
  have e0 : ∀ (h : (scM1_0 : Memref sig .tc .vmem S1024x1 .f32).IsWhole), View.read (Elt F) (View.whole cc1_scratch0) (h.unread xs0) = xs0 := fun h => h.read_unread xs0
  have e1 : ∀ (h : (scM1_1 : Memref sig .tc .vmem S1024x1 .f32).IsWhole), View.read (Elt F) (View.whole cc1_scratch1) (h.unread xs1) = xs1 := fun h => h.read_unread xs1
  have e2 : ∀ (h : (scM1_2 : Memref sig .tc .vmem S1024x1024 .f32).IsWhole), View.read (Elt F) (View.whole cc1_scratch2) (h.unread xs2) = xs2 := fun h => h.read_unread xs2
  simp only [e0, e1, e2]
  unfold newA newL
  rfl

end Cert.KernelIdeal.Hand

end
-- ==== Proof.LibOnlineSoftmax.lean ====
/-
  Softmax-weighted sums accumulated tile by tile ("online softmax").

  A row of scores `s t` and values `v t`, `t` ranging over `n` tiles of `K` keys each, is consumed one tile at a
  time, keeping a running maximum `m`, a running normaliser `l` and a running weighted sum `acc`:
    m'   = max m (max over the tile of s)
    l'   = exp (m - m') * l   + sum over the tile of exp (s - m')
    acc' = exp (m - m') * acc + sum over the tile of exp (s - m') * v
  from `m = -inf`, `l = 0`, `acc = 0`. After the last tile `acc / l` is the softmax-weighted sum of the whole row,
  `sum_t (exp (s t - M) / L) * v t` with `M` the row's maximum and `L = sum_u exp (s u - M)`: after `k` tiles
  `l = sum_{t seen} exp (s t - m)` and `acc = sum_{t seen} exp (s t - m) * v t` with `m` the maximum seen, because
  rescaling by `exp (m - m')` turns every `exp (s t - m)` into `exp (s t - m')`; at the first tile `m = -inf`,
  `exp (-inf) = 0` and the products with the zero state vanish. Everything is finite when the scores and values
  are real numbers and a tile is not empty, and the statement is over the extended reals with the exact
  operations of the ideal float instance (`Ideal.exp`, `Ideal.div`).
-/
import Idealize.ShloMosaic.PureOps.Ideal

noncomputable section

namespace Cert.OnlineSoftmax

open Idealize.ShloMosaic

/-- The running state: the maximum seen, the normaliser and the weighted sum, both relative to that maximum. -/
structure St where
  m : EReal
  l : EReal
  acc : EReal

/-- Before the first tile: maximum `-inf`, empty sums. -/
def init : St := ⟨⊥, 0, 0⟩

/-- One tile of `K` keys with scores `s` and values `v`. -/
def step {K : ℕ} (s v : Fin K → EReal) (st : St) : St :=
  ⟨max st.m (Finset.univ.fold max ⊥ s),
   Ideal.exp (st.m - max st.m (Finset.univ.fold max ⊥ s)) * st.l
     + ∑ j, Ideal.exp (s j - max st.m (Finset.univ.fold max ⊥ s)),
   Ideal.exp (st.m - max st.m (Finset.univ.fold max ⊥ s)) * st.acc
     + ∑ j, Ideal.exp (s j - max st.m (Finset.univ.fold max ⊥ s)) * v j⟩

/-- The state after the first `n` tiles. -/
def run {K : ℕ} (s v : ℕ → Fin K → EReal) : ℕ → St
  | 0 => init
  | n + 1 => step (s n) (v n) (run s v n)

/-- The softmax-weighted sum of a whole row, as a plain softmax computes it: subtract the row's maximum, exponentiate,
    divide by the sum, weigh the values. -/
def refRow {N : ℕ} (s v : Fin N → EReal) : EReal :=
  ∑ t, Ideal.div (Ideal.exp (s t - max ⊥ (Finset.univ.fold max ⊥ s)))
        (0 + ∑ u, Ideal.exp (s u - max ⊥ (Finset.univ.fold max ⊥ s))) * v t

/-- Key `j` of tile `b` in a row of `n` tiles of `K` keys. -/
def flat {n K : ℕ} (b : ℕ) (hb : b < n) (j : Fin K) : Fin (n * K) :=
  ⟨b * K + j.val, by
    have : b * K + j.val < (b + 1) * K := by rw [Nat.add_mul, Nat.one_mul]; exact Nat.add_lt_add_left j.isLt _
    exact lt_of_lt_of_le this (Nat.mul_le_mul_right K hb)⟩

/-- The coercion into the extended reals of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of two reals, taken in the extended reals, is the coercion of their real maximum. -/
theorem coe_max (x y : ℝ) : max (x : EReal) (y : EReal) = ((max x y : ℝ) : EReal) :=
  (EReal.coe_strictMono.monotone.map_max).symm

/-- The maximum of finitely many reals, folded in the extended reals from `-inf`, is `-inf` (no term) or a real. -/
theorem fold_max_coe {ι : Type*} (S : Finset ι) (f : ι → ℝ) :
    S.fold max ⊥ (fun i => (f i : EReal)) = ⊥
      ∨ ∃ r : ℝ, S.fold max ⊥ (fun i => (f i : EReal)) = (r : EReal) := by
  classical
  induction S using Finset.induction_on with
  | empty => left; simp
  | insert a S ha ih =>
    right
    rw [Finset.fold_insert ha]
    rcases ih with h | ⟨r, h⟩
    · exact ⟨f a, by rw [h, max_bot_right]⟩
    · exact ⟨max (f a) r, by rw [h, coe_max]⟩

/-- The maximum of a nonempty finite family of reals, folded in the extended reals from `-inf`, is a real. -/
theorem fold_max_coe_of_nonempty {ι : Type*} {S : Finset ι} (hS : S.Nonempty) (f : ι → ℝ) :
    ∃ r : ℝ, S.fold max ⊥ (fun i => (f i : EReal)) = (r : EReal) := by
  rcases fold_max_coe S f with h | h
  · obtain ⟨a, ha⟩ := hS
    have hle : ((f a : ℝ) : EReal) ≤ S.fold max ⊥ (fun i => (f i : EReal)) :=
      (Finset.le_fold_max _).2 (Or.inr ⟨a, ha, le_rfl⟩)
    rw [h] at hle
    exact absurd (le_bot_iff.1 hle) (EReal.coe_ne_bot _)
  · exact h

/-- The first tile: from the empty state, a nonempty tile of real scores `sr` and real values `vr` gives a real
    maximum `m`, the normaliser `sum_j exp (sr j - m)` and the weighted sum `sum_j exp (sr j - m) * vr j`. -/
theorem step_init {K : ℕ} (hK : 0 < K) (sr vr : Fin K → ℝ) (s v : Fin K → EReal)
    (hs : ∀ j, s j = ((sr j : ℝ) : EReal)) (hv : ∀ j, v j = ((vr j : ℝ) : EReal)) :
    ∃ m : ℝ, (step s v init).m = (m : EReal)
      ∧ (step s v init).l = ((∑ j, Real.exp (sr j - m) : ℝ) : EReal)
      ∧ (step s v init).acc = ((∑ j, Real.exp (sr j - m) * vr j : ℝ) : EReal) := by
  obtain rfl : s = fun j => ((sr j : ℝ) : EReal) := funext hs
  obtain rfl : v = fun j => ((vr j : ℝ) : EReal) := funext hv
  haveI : Nonempty (Fin K) := ⟨⟨0, hK⟩⟩
  obtain ⟨m, hm⟩ := fold_max_coe_of_nonempty (Finset.univ_nonempty (α := Fin K)) sr
  have hm' : max (⊥ : EReal) (Finset.univ.fold max ⊥ fun j => ((sr j : ℝ) : EReal)) = (m : EReal) := by
    rw [max_bot_left, hm]
  refine ⟨m, hm', ?_, ?_⟩
  · show Ideal.exp (⊥ - max (⊥ : EReal) _) * (0 : EReal) + ∑ j, Ideal.exp (((sr j : ℝ) : EReal) - max (⊥ : EReal) _) = _
    rw [hm', mul_zero, zero_add, coe_sum]
    exact Finset.sum_congr rfl fun j _ => by rw [← EReal.coe_sub, Ideal.exp_coe]
  · show Ideal.exp (⊥ - max (⊥ : EReal) _) * (0 : EReal)
        + ∑ j, Ideal.exp (((sr j : ℝ) : EReal) - max (⊥ : EReal) _) * ((vr j : ℝ) : EReal) = _
    rw [hm', mul_zero, zero_add, coe_sum]
    exact Finset.sum_congr rfl fun j _ => by rw [← EReal.coe_sub, Ideal.exp_coe, EReal.coe_mul]

/-- A later tile: from a state with real maximum `m`, normaliser `L` and weighted sum `A`, a tile of real scores
    `sr` and real values `vr` gives a real maximum `m'`, the normaliser `exp (m - m') * L + sum_j exp (sr j - m')` and
    the weighted sum `exp (m - m') * A + sum_j exp (sr j - m') * vr j`. -/
theorem step_coe {K : ℕ} (sr vr : Fin K → ℝ) (s v : Fin K → EReal)
    (hs : ∀ j, s j = ((sr j : ℝ) : EReal)) (hv : ∀ j, v j = ((vr j : ℝ) : EReal))
    (st : St) (m L A : ℝ) (hm : st.m = (m : EReal)) (hl : st.l = (L : EReal)) (hacc : st.acc = (A : EReal)) :
    ∃ m' : ℝ, (step s v st).m = (m' : EReal)
      ∧ (step s v st).l = ((Real.exp (m - m') * L + ∑ j, Real.exp (sr j - m') : ℝ) : EReal)
      ∧ (step s v st).acc = ((Real.exp (m - m') * A + ∑ j, Real.exp (sr j - m') * vr j : ℝ) : EReal) := by
  obtain rfl : s = fun j => ((sr j : ℝ) : EReal) := funext hs
  obtain rfl : v = fun j => ((vr j : ℝ) : EReal) := funext hv
  obtain ⟨m', hm'⟩ : ∃ m' : ℝ,
      max st.m (Finset.univ.fold max ⊥ fun j => ((sr j : ℝ) : EReal)) = (m' : EReal) := by
    rw [hm]
    rcases fold_max_coe Finset.univ sr with h | ⟨r, h⟩
    · exact ⟨m, by rw [h, max_bot_right]⟩
    · exact ⟨max m r, by rw [h, coe_max]⟩
  refine ⟨m', hm', ?_, ?_⟩
  · show Ideal.exp (st.m - max st.m _) * st.l + ∑ j, Ideal.exp (((sr j : ℝ) : EReal) - max st.m _) = _
    rw [hm', hm, hl, EReal.coe_add, EReal.coe_mul, coe_sum, ← EReal.coe_sub, Ideal.exp_coe]
    congr 1
  · show Ideal.exp (st.m - max st.m _) * st.acc
        + ∑ j, Ideal.exp (((sr j : ℝ) : EReal) - max st.m _) * ((vr j : ℝ) : EReal) = _
    rw [hm', hm, hacc, EReal.coe_add, EReal.coe_mul, coe_sum, ← EReal.coe_sub, Ideal.exp_coe]
    congr 1

/-- The invariant of the tile-by-tile computation. After `k + 1` nonempty tiles of real scores `sr b j` and real
    values `vr b j` the maximum is a real `m`, the normaliser is `sum_{b <= k} sum_j exp (sr b j - m)` and the weighted
    sum is `sum_{b <= k} sum_j exp (sr b j - m) * vr b j`. -/
theorem run_coe {K : ℕ} (hK : 0 < K) (sr vr : ℕ → Fin K → ℝ) (sb vb : ℕ → Fin K → EReal) (k : ℕ)
    (hs : ∀ b, b < k + 1 → ∀ j, sb b j = ((sr b j : ℝ) : EReal))
    (hv : ∀ b, b < k + 1 → ∀ j, vb b j = ((vr b j : ℝ) : EReal)) :
    ∃ m : ℝ, (run sb vb (k + 1)).m = (m : EReal)
      ∧ (run sb vb (k + 1)).l = ((∑ b ∈ Finset.range (k + 1), ∑ j, Real.exp (sr b j - m) : ℝ) : EReal)
      ∧ (run sb vb (k + 1)).acc
          = ((∑ b ∈ Finset.range (k + 1), ∑ j, Real.exp (sr b j - m) * vr b j : ℝ) : EReal) := by
  induction k with
  | zero =>
    obtain ⟨m, h1, h2, h3⟩ := step_init hK (sr 0) (vr 0) (sb 0) (vb 0) (hs 0 (by omega)) (hv 0 (by omega))
    refine ⟨m, h1, ?_, ?_⟩
    · rw [Finset.sum_range_one]; exact h2
    · rw [Finset.sum_range_one]; exact h3
  | succ k ih =>
    obtain ⟨m, h1, h2, h3⟩ := ih (fun b hb => hs b (by omega)) (fun b hb => hv b (by omega))
    obtain ⟨m', g1, g2, g3⟩ := step_coe (sr (k + 1)) (vr (k + 1)) (sb (k + 1)) (vb (k + 1))
      (hs (k + 1) (by omega)) (hv (k + 1) (by omega)) (run sb vb (k + 1)) m _ _ h1 h2 h3
    have hexp : ∀ x : ℝ, Real.exp (m - m') * Real.exp (x - m) = Real.exp (x - m') := by
      intro x; rw [← Real.exp_add]; congr 1; ring
    refine ⟨m', g1, ?_, ?_⟩
    · refine g2.trans ?_
      congr 1
      rw [Finset.sum_range_succ _ (k + 1), Finset.mul_sum]
      congr 1
      refine Finset.sum_congr rfl fun b _ => ?_
      rw [Finset.mul_sum]
      exact Finset.sum_congr rfl fun j _ => hexp _
    · refine g3.trans ?_
      congr 1
      rw [Finset.sum_range_succ _ (k + 1), Finset.mul_sum]
      congr 1
      refine Finset.sum_congr rfl fun b _ => ?_
      rw [Finset.mul_sum]
      exact Finset.sum_congr rfl fun j _ => by rw [← mul_assoc, hexp]

/-- A sum over a row of `n` tiles of `K` keys is the sum over the tiles of the sums over each tile's keys. -/
theorem sum_flat {n K : ℕ} (g : Fin (n * K) → ℝ) (G : ℕ → Fin K → ℝ)
    (hG : ∀ (b : ℕ) (hb : b < n) (j : Fin K), G b j = g (flat b hb j)) :
    ∑ b ∈ Finset.range n, ∑ j, G b j = ∑ t, g t := by
  rw [Finset.sum_range, ← (finProdFinEquiv (m := n) (n := K)).sum_comp g, Fintype.sum_prod_type]
  refine Finset.sum_congr rfl fun b _ => Finset.sum_congr rfl fun j _ => ?_
  rw [hG b b.isLt j]
  congr 1
  apply Fin.ext
  rw [finProdFinEquiv_apply_val]
  show b.val * K + j.val = j.val + K * b.val
  rw [Nat.mul_comm, Nat.add_comm]

/-- The softmax-weighted sum does not depend on the reference point subtracted inside the exponentials: with any
    `m` in place of the maximum `M`, `(sum_t exp (s t - m) * v t) / sum_t exp (s t - m)` is
    `sum_t (exp (s t - M) / sum_u exp (s u - M)) * v t`. -/
theorem weighted_sum_shift {ι : Type*} [Fintype ι] [Nonempty ι] (s v : ι → ℝ) (m M : ℝ) :
    (∑ t, Real.exp (s t - m) * v t) * (1 / ∑ t, Real.exp (s t - m))
      = ∑ t, Real.exp (s t - M) * (1 / ∑ u, Real.exp (s u - M)) * v t := by
  have h : ∀ t, Real.exp (s t - m) = Real.exp (M - m) * Real.exp (s t - M) := by
    intro t; rw [← Real.exp_add]; congr 1; ring
  have hc : Real.exp (M - m) ≠ 0 := (Real.exp_pos _).ne'
  have hL : (∑ u, Real.exp (s u - M)) ≠ 0 :=
    (Finset.sum_pos (fun u _ => Real.exp_pos (s u - M)) Finset.univ_nonempty).ne'
  have h1 : ∑ t, Real.exp (s t - m) = Real.exp (M - m) * ∑ u, Real.exp (s u - M) := by
    rw [Finset.mul_sum]; exact Finset.sum_congr rfl fun t _ => h t
  have h2 : ∑ t, Real.exp (s t - m) * v t = Real.exp (M - m) * ∑ t, Real.exp (s t - M) * v t := by
    rw [Finset.mul_sum]; exact Finset.sum_congr rfl fun t _ => by rw [h t, mul_assoc]
  have h3 : ∑ t, Real.exp (s t - M) * (1 / ∑ u, Real.exp (s u - M)) * v t
      = (1 / ∑ u, Real.exp (s u - M)) * ∑ t, Real.exp (s t - M) * v t := by
    rw [Finset.mul_sum]; exact Finset.sum_congr rfl fun t _ => by ring
  rw [h1, h2, h3]
  field_simp

/-- The plain softmax-weighted sum of a nonempty row of real scores and values is the real number
    `sum_t exp (s t - M) * (1 / sum_u exp (s u - M)) * v t`, for a real `M` (the row's maximum). -/
theorem refRow_coe {N : ℕ} (hN : 0 < N) (s v : Fin N → ℝ) :
    ∃ M : ℝ, refRow (fun t => ((s t : ℝ) : EReal)) (fun t => ((v t : ℝ) : EReal))
      = ((∑ t, Real.exp (s t - M) * (1 / ∑ u, Real.exp (s u - M)) * v t : ℝ) : EReal) := by
  haveI : Nonempty (Fin N) := ⟨⟨0, hN⟩⟩
  obtain ⟨M, hM⟩ := fold_max_coe_of_nonempty (Finset.univ_nonempty (α := Fin N)) s
  have hM' : max (⊥ : EReal) (Finset.univ.fold max ⊥ fun t => ((s t : ℝ) : EReal)) = (M : EReal) := by
    rw [max_bot_left, hM]
  have hL : (∑ u, Real.exp (s u - M)) ≠ 0 :=
    (Finset.sum_pos (fun u _ => Real.exp_pos (s u - M)) Finset.univ_nonempty).ne'
  have hexp : ∀ t, Ideal.exp (((s t : ℝ) : EReal) - (M : EReal)) = ((Real.exp (s t - M) : ℝ) : EReal) := by
    intro t; rw [← EReal.coe_sub, Ideal.exp_coe]
  refine ⟨M, ?_⟩
  unfold refRow
  rw [hM', coe_sum]
  refine Finset.sum_congr rfl fun t _ => ?_
  rw [zero_add, hexp t, Finset.sum_congr rfl (fun u _ => hexp u), ← coe_sum, Ideal.div_coe hL,
    ← EReal.coe_mul, ← EReal.coe_mul]

/-- After all `n` tiles of a row of real scores and values, `acc / l` is the row's softmax-weighted sum. -/
theorem run_div_eq_refRow {n K : ℕ} (hn : 0 < n) (hK : 0 < K) (s v : Fin (n * K) → ℝ)
    (sb vb : ℕ → Fin K → EReal)
    (hs : ∀ (b : ℕ) (hb : b < n) (j : Fin K), sb b j = ((s (flat b hb j) : ℝ) : EReal))
    (hv : ∀ (b : ℕ) (hb : b < n) (j : Fin K), vb b j = ((v (flat b hb j) : ℝ) : EReal)) :
    Ideal.div (run sb vb n).acc (run sb vb n).l
      = refRow (fun t => ((s t : ℝ) : EReal)) (fun t => ((v t : ℝ) : EReal)) := by
  obtain ⟨k, rfl⟩ : ∃ k, n = k + 1 := ⟨n - 1, by omega⟩
  have hN : 0 < (k + 1) * K := Nat.mul_pos (Nat.succ_pos k) hK
  haveI : Nonempty (Fin ((k + 1) * K)) := ⟨⟨0, hN⟩⟩
  let sr : ℕ → Fin K → ℝ := fun b j => if hb : b < k + 1 then s (flat b hb j) else 0
  let vr : ℕ → Fin K → ℝ := fun b j => if hb : b < k + 1 then v (flat b hb j) else 0
  have hsr : ∀ (b : ℕ) (hb : b < k + 1) (j : Fin K), sr b j = s (flat b hb j) := fun b hb j => dif_pos hb
  have hvr : ∀ (b : ℕ) (hb : b < k + 1) (j : Fin K), vr b j = v (flat b hb j) := fun b hb j => dif_pos hb
  obtain ⟨m, -, hl, hacc⟩ := run_coe hK sr vr sb vb k
    (fun b hb j => by rw [hs b hb j, hsr b hb j]) (fun b hb j => by rw [hv b hb j, hvr b hb j])
  obtain ⟨M, hM⟩ := refRow_coe hN s v
  rw [hM, hl, hacc,
    sum_flat (fun t => Real.exp (s t - m)) (fun b j => Real.exp (sr b j - m)) (fun b hb j => by rw [hsr b hb j]),
    sum_flat (fun t => Real.exp (s t - m) * v t) (fun b j => Real.exp (sr b j - m) * vr b j)
      (fun b hb j => by rw [hsr b hb j, hvr b hb j])]
  have hL : (∑ t, Real.exp (s t - m)) ≠ 0 :=
    (Finset.sum_pos (fun u _ => Real.exp_pos (s u - m)) Finset.univ_nonempty).ne'
  rw [Ideal.div_coe hL, ← EReal.coe_mul, weighted_sum_shift s v m M]

end Cert.OnlineSoftmax

end
-- ==== Proof.Spec.lean ====
/-
  What the attention block computes, index by index, on the extended reals.

  The three projections are q, k, v = relu (x · Wᵀ + b) over the hidden axis; a score is the inner product of a
  query row and a key row less the additive mask term EPS · (1 − mask); a query row's output is the
  softmax-weighted sum of the value rows over all keys (the row maximum subtracted inside the exponentials, the
  exponentials divided by their sum) plus the residual x. Arrays enter as functions of their coordinates.
-/
import Idealize.ShloMosaic.PureOps.Ideal
import Idealize.ShloMosaic.Lib.ValueIdx
import proofs.«152723_j25331717111812_2_alg».proof.Proof.LibOnlineSoftmax

noncomputable section

namespace Cert.Attn

open Idealize.ShloMosaic Idealize.ShloMosaic.ValueIdx

/-- A projection: relu (∑ₕ x[p,s,h] · W[d,h] + b[d]). -/
def proj (x : Fin 8 → Fin 2048 → Fin 1024 → EReal) (W : Fin 1024 → Fin 1024 → EReal) (b : Fin 1024 → EReal)
    (p : Fin 8) (s : Fin 2048) (d : Fin 1024) : EReal :=
  max ((∑ h : Fin 1024, x p s h * W d h) + b d) 0

/-- The additive mask term of key j: EPS · (1 − mask[p,j]), EPS the float 1e10. -/
def pen (mask : Fin 8 → Fin 2048 → EReal) (p : Fin 8) (j : Fin 2048) : EReal :=
  Ideal.ofBits .f32 0x501502F9#32 * (Ideal.ofBits .f32 0x3F800000#32 - mask p j)

/-- The score of query row i against key row j: ∑_d q[p,i,d] · k[p,j,d] − pen[p,j]. -/
def score (q k : Fin 8 → Fin 2048 → Fin 1024 → EReal) (mask : Fin 8 → Fin 2048 → EReal)
    (p : Fin 8) (i j : Fin 2048) : EReal :=
  (∑ d : Fin 1024, q p i d * k p j d) - pen mask p j

/-- Attention over given q, k, v with the residual r: the softmax-weighted sum of the value rows, plus r. -/
def attn (q k v : Fin 8 → Fin 2048 → Fin 1024 → EReal) (mask : Fin 8 → Fin 2048 → EReal)
    (r : Fin 8 → Fin 2048 → Fin 1024 → EReal) (p : Fin 8) (i : Fin 2048) (d : Fin 1024) : EReal :=
  OnlineSoftmax.refRow (N := 2048) (fun j => score q k mask p i j) (fun j => v p j d) + r p i d

/-- The whole block from the inputs. -/
def out (x : Fin 8 → Fin 2048 → Fin 1024 → EReal) (mask : Fin 8 → Fin 2048 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) : Fin 8 → Fin 2048 → Fin 1024 → EReal :=
  attn (proj x Wq bq) (proj x Wk bk) (proj x Wv bv) mask x

/-! Arrays as functions of their coordinates. -/

abbrev A3 := (⟨3, ![8, 2048, 1024]⟩ : Shape).Idx → EReal
abbrev AM := (⟨3, ![8, 1, 2048]⟩ : Shape).Idx → EReal
abbrev A2 := (⟨2, ![1024, 1024]⟩ : Shape).Idx → EReal
abbrev A1 := (⟨1, ![1024]⟩ : Shape).Idx → EReal

def c3 (a : A3) : Fin 8 → Fin 2048 → Fin 1024 → EReal := fun p s d => a (ix3 p s d)
def cm (a : AM) : Fin 8 → Fin 2048 → EReal := fun p j => a (ix3 p 0 j)
def c2 (a : A2) : Fin 1024 → Fin 1024 → EReal := fun d h => a (ix2 d h)
def c1 (a : A1) : Fin 1024 → EReal := fun d => a (ix1 d)

/-- The block's result as an array [8, 2048, 1024] of the eight argument arrays. -/
def outArr (x : A3) (mask : AM) (Wq : A2) (bq : A1) (Wk : A2) (bk : A1) (Wv : A2) (bv : A1) : A3 :=
  fun i => out (c3 x) (cm mask) (c2 Wq) (c1 bq) (c2 Wk) (c1 bk) (c2 Wv) (c1 bv) (i 0) (i 1) (i 2)

theorem outArr_apply (x : A3) (mask : AM) (Wq : A2) (bq : A1) (Wk : A2) (bk : A1) (Wv : A2) (bv : A1)
    (p : Fin 8) (s : Fin 2048) (d : Fin 1024) :
    outArr x mask Wq bq Wk bk Wv bv (ix3 p s d)
      = out (c3 x) (cm mask) (c2 Wq) (c1 bq) (c2 Wk) (c1 bk) (c2 Wv) (c1 bv) p s d := rfl

end Cert.Attn

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibRowReduce.lean ====
/-
  A reduction along the rows of a matrix, read at a row: over axis 1 of an [a, b] array, the sum and the maximum at
  row r run over the b entries (r, k) of that row. General in the extents and the float format; these specialise the
  library's one-axis readings, which name the entries through the reduced index with the coordinate put back.
-/
import Idealize.ShloMosaic.PureOps.Ideal.Laws
import Idealize.ShloMosaic.PureOps.Reduce
import Idealize.ShloMosaic.Lib.ValueIdx

namespace Idealize.ShloMosaic.ValueIdx

/-- Row r with column k put back is the entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum over the columns, at row r, is the sum of that row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = _
  exact Finset.sum_congr rfl fun k _ => congrArg src (lift_row h r k)

/-- A lane maximum over the columns, at row r, is the fold of max over that row's entries from the accumulator's value. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = Finset.fold max (Ideal.ofBits φ acc) (fun k : Fin b => src (ix2 r k)) Finset.univ := by
  refine (Ideal.multiReduction_maximumf_single src acc h hφ hacc (ix1 r)).trans ?_
  show Finset.fold max (Ideal.ofBits φ acc) (src ∘ h.lift (ix1 r)) (Finset.univ : Finset (Fin b)) = _
  exact congrArg (fun f => Finset.fold max (Ideal.ofBits φ acc) f (Finset.univ : Finset (Fin b)))
    (funext fun k => congrArg src (lift_row h r k))

end Idealize.ShloMosaic.ValueIdx
-- ==== Proof.KI.R1Pay.lean ====
/-
  One key tile of the attention kernel, read entry by entry on the extended reals.

  For a query row r, a key j of the tile and a feature d, the tile's arithmetic is the online-softmax step: the
  masked score s j = (sum over e of q[r,e] * k[j,e]) - EPS * (1 - mask[j]); the new running maximum
  m' = max m (max over the tile of s); the new normaliser l' = exp (m - m') * l + sum over j of exp (s j - m'); the
  new weighted sum acc' = exp (m - m') * acc + sum over j of exp (s j - m') * v[j,d]; and, after the last tile, the
  output acc / l + residual. The three running quantities start at -inf, 0 and 0. Each array operation of the tile is
  read at one index: the elementwise ones by definition, a matrix product into a zero accumulator as the sum over its
  one contracted axis, a reduction along a row as the sum or the maximum over that row, a cast that keeps the
  row-major position as the same entry, a broadcast along a unit axis as the entry at coordinate 0 of that axis.
-/
import proofs.«152723_j25331717111812_2_alg».proof.Proof.Gen.KernelIdeal.Skeleton
import proofs.«152723_j25331717111812_2_alg».proof.Proof.Spec
import proofs.«152723_j25331717111812_2_alg».proof.Proof.LibColumns
import proofs.«152723_j25331717111812_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

/-- The contraction of a query row with a key row: both operands contract their axis 1. -/
abbrev Dqk := dot_S1024x1024_S512x1024_S1024x512_1_1_0_0_n_n
/-- The contraction of a row of weights with a column of values: axis 1 against axis 0. -/
abbrev Dpv := dot_S1024x512_S512x1024_S1024x1024_1_0_0_1_n_n

/-- The masked score of query row r against key j of the tile. -/
def sT (q : Vec Ideal S1x1024x1024 .f32) (k : Vec Ideal S1x512x1024 .f32) (msk : Vec Ideal S1x1x512 .f32)
    (r : Fin 1024) (j : Fin 512) : EReal :=
  (∑ e : Fin 1024, q (ix3 0 r e) * k (ix3 0 j e))
    - Ideal.ofBits .f32 0x501502F9#32 * (Ideal.ofBits .f32 0x3F800000#32 - msk (ix3 0 0 j))

/-- The running state of query row r and feature d, read from the three running arrays. -/
def stOf (mS lS : Vec Ideal S1024x1 .f32) (aS : Vec Ideal S1024x1024 .f32) (r d : Fin 1024) : Cert.OnlineSoftmax.St :=
  ⟨mS (ix2 r 0), lS (ix2 r 0), aS (ix2 r d)⟩

/-! ## The two matrix products -/

/-- In the product of a query tile with the transposed key tile, the left operand's row is the output's row, -/
theorem qk_lhs0 (i : S1024x512.Idx) (c : Dqk.contr.Idx) : (Dqk.lhsIdx i c 0).val = (i 0).val := by
  unfold DotDims.lhsIdx
  rw [dif_neg (show ¬(0 : Fin S1024x1024.rank) ∈ Dqk.lhsBatch by decide),
    dif_pos (show (0 : Fin S1024x1024.rank) ∈ Dqk.lhsNonContracting by decide)]
  rfl
/-- its column the contracted coordinate; -/
theorem qk_lhs1 (i : S1024x512.Idx) (c : Dqk.contr.Idx) : (Dqk.lhsIdx i c 1).val = (c ⟨0, by decide⟩).val :=
  Dqk.lhsIdx_val_of_single rfl i c
/-- the right operand's row is the output's column, -/
theorem qk_rhs0 (i : S1024x512.Idx) (c : Dqk.contr.Idx) : (Dqk.rhsIdx i c 0).val = (i 1).val := by
  unfold DotDims.rhsIdx
  rw [dif_neg (show ¬(0 : Fin S512x1024.rank) ∈ Dqk.rhsBatch by decide),
    dif_pos (show (0 : Fin S512x1024.rank) ∈ Dqk.rhsNonContracting by decide)]
  rfl
/-- its column the contracted coordinate. -/
theorem qk_rhs1 (i : S1024x512.Idx) (c : Dqk.contr.Idx) : (Dqk.rhsIdx i c 1).val = (c ⟨0, by decide⟩).val :=
  Dqk.rhsIdx_val_of_single rfl i c

/-- A product of [1024, 1024] by the transpose of [512, 1024] into a zero accumulator, at (r, j): the sum over the
    shared axis of a[r, e] * b[j, e]. -/
theorem matmul_qk_apply (a : FVec Ideal S1024x1024 .f32) (b : FVec Ideal S512x1024 .f32) (r : Fin 1024) (j : Fin 512) :
    matmul Dqk none a b (constant (F := Ideal) S1024x512 .f32 0x00000000#32) (ix2 r j)
      = ∑ e : Fin 1024, a (ix2 r e) * b (ix2 j e) := by
  simp only [matmul]
  rw [Ideal.matmul_constant_zero_apply, ← Equiv.sum_comp (contrEquiv1 Dqk 1024 rfl rfl).symm]
  refine Finset.sum_congr rfl fun e _ => ?_
  have hk := contrEquiv1_symm_val Dqk 1024 rfl rfl e
  have el : Dqk.lhsIdx (ix2 r j) ((contrEquiv1 Dqk 1024 rfl rfl).symm e) = ix2 r e := funext fun c => Fin.ext (by
    match c with
    | ⟨0, _⟩ => exact qk_lhs0 _ _
    | ⟨1, _⟩ => exact (qk_lhs1 _ _).trans hk)
  have er : Dqk.rhsIdx (ix2 r j) ((contrEquiv1 Dqk 1024 rfl rfl).symm e) = ix2 j e := funext fun c => Fin.ext (by
    match c with
    | ⟨0, _⟩ => exact qk_rhs0 _ _
    | ⟨1, _⟩ => exact (qk_rhs1 _ _).trans hk)
  rw [el, er]

/-- In the product of the weights with the value tile, the left operand's row is the output's row, -/
theorem pv_lhs0 (i : S1024x1024.Idx) (c : Dpv.contr.Idx) : (Dpv.lhsIdx i c 0).val = (i 0).val := by
  unfold DotDims.lhsIdx
  rw [dif_neg (show ¬(0 : Fin S1024x512.rank) ∈ Dpv.lhsBatch by decide),
    dif_pos (show (0 : Fin S1024x512.rank) ∈ Dpv.lhsNonContracting by decide)]
  rfl
/-- its column the contracted coordinate; -/
theorem pv_lhs1 (i : S1024x1024.Idx) (c : Dpv.contr.Idx) : (Dpv.lhsIdx i c 1).val = (c ⟨0, by decide⟩).val :=
  Dpv.lhsIdx_val_of_single rfl i c
/-- the right operand's row is the contracted coordinate, -/
theorem pv_rhs0 (i : S1024x1024.Idx) (c : Dpv.contr.Idx) : (Dpv.rhsIdx i c 0).val = (c ⟨0, by decide⟩).val :=
  Dpv.rhsIdx_val_of_single rfl i c
/-- its column the output's column. -/
theorem pv_rhs1 (i : S1024x1024.Idx) (c : Dpv.contr.Idx) : (Dpv.rhsIdx i c 1).val = (i 1).val := by
  unfold DotDims.rhsIdx
  rw [dif_neg (show ¬(1 : Fin S512x1024.rank) ∈ Dpv.rhsBatch by decide),
    dif_pos (show (1 : Fin S512x1024.rank) ∈ Dpv.rhsNonContracting by decide)]
  rfl

/-- A product of [1024, 512] by [512, 1024] into a zero accumulator, at (r, d): the sum over the shared axis of
    a[r, j] * b[j, d]. -/
theorem matmul_pv_apply (a : FVec Ideal S1024x512 .bf16) (b : FVec Ideal S512x1024 .bf16) (r d : Fin 1024) :
    matmul Dpv none a b (constant (F := Ideal) S1024x1024 .f32 0x00000000#32) (ix2 r d)
      = ∑ j : Fin 512, a (ix2 r j) * b (ix2 j d) := by
  simp only [matmul]
  rw [Ideal.matmul_constant_zero_apply, ← Equiv.sum_comp (contrEquiv1 Dpv 512 rfl rfl).symm]
  refine Finset.sum_congr rfl fun j _ => ?_
  have hk := contrEquiv1_symm_val Dpv 512 rfl rfl j
  have el : Dpv.lhsIdx (ix2 r d) ((contrEquiv1 Dpv 512 rfl rfl).symm j) = ix2 r j := funext fun c => Fin.ext (by
    match c with
    | ⟨0, _⟩ => exact pv_lhs0 _ _
    | ⟨1, _⟩ => exact (pv_lhs1 _ _).trans hk)
  have er : Dpv.rhsIdx (ix2 r d) ((contrEquiv1 Dpv 512 rfl rfl).symm j) = ix2 j d := funext fun c => Fin.ext (by
    match c with
    | ⟨0, _⟩ => exact (pv_rhs0 _ _).trans hk
    | ⟨1, _⟩ => exact pv_rhs1 _ _)
  rw [el, er]

/-! ## Two small readings -/

/-- A [1, 1, a] array cast to [a] reads, at i, the operand at (0, 0, i): both sit at row-major position i. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- The word of minus infinity is the bottom of the extended reals. -/
theorem ofBits_negInf : Ideal.ofBits .f32 0xFF800000#32 = ⊥ := by simp [Ideal.ofBits, Ideal.ieee]

/-! ## The tile's arithmetic -/

section
variable (q resid : Vec Ideal S1x1024x1024 .f32) (k : Vec Ideal S1x512x1024 .f32) (vv : Vec Ideal S1x512x1024 .bf16)
  (msk : Vec Ideal S1x1x512 .f32) (mS lS : Vec Ideal S1024x1 .f32) (aS : Vec Ideal S1024x1024 .f32)
  (r d : Fin 1024) (j : Fin 512)

/-- The masked score tile at (r, j). -/
theorem pay8_apply : Gen.k1_pay8 q k msk (ix2 r j) = sT q k msk r j := by
  unfold Gen.k1_pay8 sT
  refine (subf_apply _ _ _).trans ?_
  refine congrArg₂ (· - ·) ?_ ?_
  · refine (matmul_qk_apply _ _ r j).trans ?_
    refine Finset.sum_congr rfl fun e _ => ?_
    exact congrArg₂ (· * ·) (shapeCast_1ab_ab_apply q _ r e) (shapeCast_1ab_ab_apply k _ j e)
  · refine (broadcastTo_1b_ab_apply _ _ r j).trans ?_
    refine (shapeCast_a_1a_apply _ _ 0 j).trans ?_
    refine (mulf_apply _ _ _).trans ?_
    refine congrArg (Ideal.ofBits .f32 0x501502F9#32 * ·) ?_
    refine (subf_apply _ _ _).trans ?_
    exact congrArg (Ideal.ofBits .f32 0x3F800000#32 - ·) (shapeCast_11a_a_apply msk _ j)

/-- The new running maximum of row r. -/
theorem pay9_apply : Gen.k1_pay9 q k msk mS (ix2 r 0)
    = max (mS (ix2 r 0)) (Finset.univ.fold max ⊥ (sT q k msk r)) := by
  unfold Gen.k1_pay9
  refine (maximumf_apply _ _ _).trans ?_
  refine congrArg (max (mS (ix2 r 0))) ?_
  refine (shapeCast_a_a1_apply _ _ r 0).trans ?_
  refine (multiReduction_maximumf_row _ _ _ _ _ r).trans ?_
  rw [ofBits_negInf]
  exact congrArg (fun f => Finset.fold max ⊥ f Finset.univ) (funext fun j => pay8_apply q k msk r j)

/-- The rescaling factor of row r: exp (m - m'), for any array m2 holding the old maximum. -/
theorem pay10_apply (m2 : Vec Ideal S1024x1 .f32) : Gen.k1_pay10 q k msk mS m2 (ix2 r 0)
    = Ideal.exp (m2 (ix2 r 0) - max (mS (ix2 r 0)) (Finset.univ.fold max ⊥ (sT q k msk r))) := by
  unfold Gen.k1_pay10
  refine congrArg Ideal.exp ?_
  refine (subf_apply _ _ _).trans ?_
  exact congrArg (m2 (ix2 r 0) - ·) (pay9_apply q k msk mS r)

/-- The tile's weights at (r, j): exp (s j - m'). -/
theorem pay11_apply : Gen.k1_pay11 q k msk mS (ix2 r j)
    = Ideal.exp (sT q k msk r j - max (mS (ix2 r 0)) (Finset.univ.fold max ⊥ (sT q k msk r))) := by
  unfold Gen.k1_pay11
  refine congrArg Ideal.exp ?_
  refine (subf_apply _ _ _).trans ?_
  exact congrArg₂ (· - ·) (pay8_apply q k msk r j)
    ((broadcastTo_a1_ab_apply _ _ r j).trans (pay9_apply q k msk mS r))

/-- The new normaliser of row r, for any arrays m2, l2 holding the old maximum and the old normaliser. -/
theorem pay12_apply (m2 l2 : Vec Ideal S1024x1 .f32) : Gen.k1_pay12 q k msk mS m2 l2 (ix2 r 0)
    = Ideal.exp (m2 (ix2 r 0) - max (mS (ix2 r 0)) (Finset.univ.fold max ⊥ (sT q k msk r))) * l2 (ix2 r 0)
      + ∑ j : Fin 512, Ideal.exp (sT q k msk r j - max (mS (ix2 r 0)) (Finset.univ.fold max ⊥ (sT q k msk r))) := by
  unfold Gen.k1_pay12
  refine (addf_apply _ _ _).trans ?_
  refine congrArg₂ (· + ·) ?_ ?_
  · refine (mulf_apply _ _ _).trans ?_
    exact congrArg (· * l2 (ix2 r 0)) (pay10_apply q k msk mS r m2)
  · refine (shapeCast_a_a1_apply _ _ r 0).trans ?_
    refine (multiReduction_add_row _ _ _ _ _ r).trans ?_
    exact Finset.sum_congr rfl fun j _ => pay11_apply q k msk mS r j

/-! ## What the tile stores -/

/-- The stored running maximum is the step's. -/
theorem newM_apply : Gen.k1_pay3 (Gen.k1_pay9 q k msk mS) (ix2 r 0)
    = (Cert.OnlineSoftmax.step (sT q k msk r) (fun j => vv (ix3 0 j d)) (stOf mS lS aS r d)).m := by
  unfold Gen.k1_pay3
  refine (congrFun (shapeCast_self _ _) _).trans ?_
  exact pay9_apply q k msk mS r

/-- The stored normaliser is the step's. -/
theorem newL_apply : Gen.k1_pay1 (Gen.k1_pay12 q k msk mS mS lS) (ix2 r 0)
    = (Cert.OnlineSoftmax.step (sT q k msk r) (fun j => vv (ix3 0 j d)) (stOf mS lS aS r d)).l := by
  unfold Gen.k1_pay1
  refine (congrFun (shapeCast_self _ _) _).trans ?_
  exact pay12_apply q k msk mS r mS lS

/-- The stored weighted sum is the step's. -/
theorem newA_apply : Gen.k1_pay2 (Gen.k1_pay10 q k msk mS mS) (Gen.k1_pay11 q k msk mS) aS vv (ix2 r d)
    = (Cert.OnlineSoftmax.step (sT q k msk r) (fun j => vv (ix3 0 j d)) (stOf mS lS aS r d)).acc := by
  unfold Gen.k1_pay2
  refine (congrFun (shapeCast_self _ _) _).trans ?_
  refine (addf_apply _ _ _).trans ?_
  show _ = Ideal.exp (mS (ix2 r 0) - max (mS (ix2 r 0)) (Finset.univ.fold max ⊥ (sT q k msk r))) * aS (ix2 r d)
      + ∑ j : Fin 512, Ideal.exp (sT q k msk r j - max (mS (ix2 r 0)) (Finset.univ.fold max ⊥ (sT q k msk r)))
          * vv (ix3 0 j d)
  refine congrArg₂ (· + ·) ?_ ?_
  · refine (mulf_apply _ _ _).trans ?_
    refine congrArg (· * aS (ix2 r d)) ?_
    exact (broadcastTo_a1_ab_apply _ _ r d).trans (pay10_apply q k msk mS r mS)
  · refine (matmul_pv_apply _ _ r d).trans ?_
    refine Finset.sum_congr rfl fun j _ => ?_
    refine congrArg₂ (· * ·) ?_ (shapeCast_1ab_ab_apply vv _ j d)
    exact pay11_apply q k msk mS r j

/-- The output entry: the weighted sum over the normaliser, plus the residual. -/
theorem outv_apply : Gen.k1_pay4 aS lS resid (ix3 0 r d)
    = Ideal.div (aS (ix2 r d)) (lS (ix2 r 0)) + resid (ix3 0 r d) := by
  unfold Gen.k1_pay4
  refine (shapeCast_ab_1ab_apply _ _ 0 r d).trans ?_
  refine (addf_apply _ _ _).trans ?_
  refine congrArg₂ (· + ·) ?_ (shapeCast_1ab_ab_apply resid _ r d)
  refine (divf_apply _ _ _).trans ?_
  exact congrArg (Ideal.div (aS (ix2 r d))) (broadcastTo_a1_ab_apply lS _ r d)

/-- The running maximum starts at minus infinity, -/
theorem init_m : Gen.k1_pay5 (F := Ideal) (ix2 r 0) = ⊥ := by
  unfold Gen.k1_pay5
  exact (congrFun (shapeCast_self _ _) _).trans ofBits_negInf

/-- the normaliser at zero, -/
theorem init_l : Gen.k1_pay6 (F := Ideal) (ix2 r 0) = 0 := by
  unfold Gen.k1_pay6
  exact (congrFun (shapeCast_self _ _) _).trans Ideal.ofBits_zero_f32

/-- the weighted sum at zero. -/
theorem init_a : Gen.k1_pay7 (F := Ideal) (ix2 r d) = 0 := by
  unfold Gen.k1_pay7
  exact (congrFun (shapeCast_self _ _) _).trans Ideal.ofBits_zero_f32

end

end Cert.KernelIdeal.Pay

end
-- ==== Proof.KI.R1Row.lean ====
/-
  Region 1, one query tile. The four key tiles of a query tile are four consecutive grid positions, the last of them
  the position t with t mod 4 = 3. After each of them the running maximum, normaliser and weighted sum of a query row
  r and a feature d are the online-softmax recurrence over the tiles' masked scores and values, started from the empty
  state; the block stored at the last of them is the weighted sum over the normaliser, plus the residual block.
-/
import proofs.«152723_j25331717111812_2_alg».proof.Proof.KI.R1Pieces
import proofs.«152723_j25331717111812_2_alg».proof.Proof.KI.R1Pay

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay
open Cert.OnlineSoftmax (St init step run)

/-! ## One step on the running state -/

/-- Two running states with the same three components are the same. -/
theorem st_ext (a b : St) (hm : a.m = b.m) (hl : a.l = b.l) (hacc : a.acc = b.acc) : a = b := by
  cases a; cases b; cases hm; cases hl; cases hacc; rfl

/-- The state read from the arrays a tile leaves is one step from the state read from the arrays it found. -/
theorem stOf_new (q : Vec Ideal S1x1024x1024 .f32) (k : Vec Ideal S1x512x1024 .f32) (vv : Vec Ideal S1x512x1024 .bf16)
    (msk : Vec Ideal S1x1x512 .f32) (mS lS : Vec Ideal S1024x1 .f32) (aS : Vec Ideal S1024x1024 .f32) (r d : Fin 1024) :
    stOf (newM q k msk mS) (newL q k msk mS lS) (newA q k msk vv mS aS) r d
      = step (sT q k msk r) (fun j => vv (ix3 0 j d)) (stOf mS lS aS r d) :=
  st_ext _ _ (newM_apply q k vv msk mS lS aS r d) (newL_apply q k vv msk mS lS aS r d)
    (newA_apply q k vv msk mS lS aS r d)

/-- The reset arrays read as the empty state. -/
theorem stOf_reset (r d : Fin 1024) :
    stOf (k1_pay5 (F := Ideal)) (k1_pay6 (F := Ideal)) (k1_pay7 (F := Ideal)) r d = init :=
  st_ext _ _ (init_m r) (init_l r) (init_a r d)

variable (V : (c : Dev nD) → (b : Ref sig .tc) → Buf (Elt Ideal) ((c : Thread nD τ).loc b))

/-! ## The state after a grid position -/

/-- The running state of row r and feature d after the point at position p. -/
def stAt (c : Dev nD) (p : Fin cfg1.N) (r d : Fin 1024) : St :=
  stOf (outsAt1 V c p.val p.isLt).2.1 (outsAt1 V c p.val p.isLt).2.2.1 (outsAt1 V c p.val p.isLt).2.2.2 r d

/-- The contents after a position do not depend on how the position is written. -/
theorem outsAt1_congr (c : Dev nD) (a b : ℕ) (h : a = b) (ha : a < cfg1.N) (hb : b < cfg1.N) :
    outsAt1 V c a ha = outsAt1 V c b hb := by
  subst h; rfl

/-- At key tile 0 the state is one step from the empty state. -/
theorem stAt_first (c : Dev nD) (p : Fin cfg1.N) (h0 : p.val % 4 = 0) (r d : Fin 1024) :
    stAt V c p r d = step (sT (iblk1 V c 0 p) (iblk1 V c 1 p) (iblk1 V c 3 p) r)
      (fun j => iblk1 V c 2 p (ix3 0 j d)) init := by
  have h1 : ¬p.val % 4 = 3 := by omega
  unfold stAt
  rw [outsAt1_A V c p h0 h1]
  dsimp only
  rw [soutA_0_eq, soutA_1_eq, soutA_2_eq]
  refine (stOf_new _ _ _ _ _ _ _ r d).trans ?_
  rw [stOf_reset]

/-- At key tiles 1 and 2 the state is one step from the state after the position before. -/
theorem stAt_next (c : Dev nD) (p p' : Fin cfg1.N) (h0 : ¬p.val % 4 = 0) (h1 : ¬p.val % 4 = 3)
    (hp : p.val - 1 = p'.val) (r d : Fin 1024) :
    stAt V c p r d = step (sT (iblk1 V c 0 p) (iblk1 V c 1 p) (iblk1 V c 3 p) r)
      (fun j => iblk1 V c 2 p (ix3 0 j d)) (stAt V c p' r d) := by
  unfold stAt
  rw [outsAt1_B V c p h0 h1, outsAt1_congr V c (p.val - 1) p'.val hp (prevLt p) p'.isLt]
  dsimp only
  rw [soutB_0_eq, soutB_1_eq, soutB_2_eq]
  exact stOf_new _ _ _ _ _ _ _ r d

/-! ## The four key tiles of a query tile -/

/-- The position of key tile n mod 4 in the query tile whose last position is t. -/
def pt (t : Fin cfg1.N) (n : ℕ) : Fin cfg1.N :=
  ⟨t.val - 3 + n % 4, by
    have h := t.isLt
    have hN : cfg1.N = 64 := N_1
    have hn := Nat.mod_lt n (show 0 < 4 by decide)
    omega⟩

/-- The masked scores of row r against the keys of tile n. -/
def sbAt (c : Dev nD) (t : Fin cfg1.N) (r : Fin 1024) : ℕ → Fin 512 → EReal :=
  fun n j => sT (iblk1 V c 0 (pt t n)) (iblk1 V c 1 (pt t n)) (iblk1 V c 3 (pt t n)) r j

/-- Feature d of the values of tile n. -/
def vbAt (c : Dev nD) (t : Fin cfg1.N) (d : Fin 1024) : ℕ → Fin 512 → EReal :=
  fun n j => iblk1 V c 2 (pt t n) (ix3 0 j d)

/-- After key tile n the state is the recurrence run over the tiles 0 … n. -/
theorem stAt_pt (c : Dev nD) (t : Fin cfg1.N) (h3 : t.val % 4 = 3) (r d : Fin 1024) :
    ∀ n, n < 3 → stAt V c (pt t n) r d = run (sbAt V c t r) (vbAt V c t d) (n + 1)
  | 0, _ => by
    refine (stAt_first V c (pt t 0) (by show (t.val - 3 + 0 % 4) % 4 = 0; omega) r d).trans ?_
    rfl
  | n + 1, hn => by
    refine (stAt_next V c (pt t (n + 1)) (pt t n) (by show ¬(t.val - 3 + (n + 1) % 4) % 4 = 0; omega)
      (by show ¬(t.val - 3 + (n + 1) % 4) % 4 = 3; omega)
      (by show t.val - 3 + (n + 1) % 4 - 1 = t.val - 3 + n % 4; omega) r d).trans ?_
    rw [stAt_pt c t h3 r d n (by omega)]
    rfl

/-- The block stored at the last key tile: the recurrence's weighted sum over its normaliser, plus the residual. -/
theorem after5_row (c : Dev nD) (t : Fin cfg1.N) (h3 : t.val % 4 = 3) (r d : Fin 1024) :
    (dat1 (F := Ideal) V c).after 5 t (ix3 0 r d)
      = Ideal.div (run (sbAt V c t r) (vbAt V c t d) 4).acc (run (sbAt V c t r) (vbAt V c t d) 4).l
        + iblk1 V c 4 t (ix3 0 r d) := by
  have h0 : ¬t.val % 4 = 0 := by omega
  have hpt : pt t 3 = t := Fin.ext (by show t.val - 3 + 3 % 4 = t.val; omega)
  have hprev : t.val - 1 = (pt t 2).val := by show t.val - 1 = t.val - 3 + 2 % 4; omega
  have hs3 : sbAt V c t r 3 = sT (iblk1 V c 0 t) (iblk1 V c 1 t) (iblk1 V c 3 t) r :=
    congrArg (fun p : Fin cfg1.N => sT (iblk1 V c 0 p) (iblk1 V c 1 p) (iblk1 V c 3 p) r) hpt
  have hv3 : vbAt V c t d 3 = fun j => iblk1 V c 2 t (ix3 0 j d) :=
    congrArg (fun p : Fin cfg1.N => fun j : Fin 512 => iblk1 V c 2 p (ix3 0 j d)) hpt
  have hst : stOf
      (newM (iblk1 V c 0 t) (iblk1 V c 1 t) (iblk1 V c 3 t) (outsAt1 V c (pt t 2).val (pt t 2).isLt).2.1)
      (newL (iblk1 V c 0 t) (iblk1 V c 1 t) (iblk1 V c 3 t) (outsAt1 V c (pt t 2).val (pt t 2).isLt).2.1
        (outsAt1 V c (pt t 2).val (pt t 2).isLt).2.2.1)
      (newA (iblk1 V c 0 t) (iblk1 V c 1 t) (iblk1 V c 3 t) (iblk1 V c 2 t)
        (outsAt1 V c (pt t 2).val (pt t 2).isLt).2.1 (outsAt1 V c (pt t 2).val (pt t 2).isLt).2.2.2) r d
      = run (sbAt V c t r) (vbAt V c t d) 4 := by
    refine (stOf_new _ _ _ _ _ _ _ r d).trans ?_
    show step _ _ (stAt V c (pt t 2) r d) = _
    rw [stAt_pt V c t h3 r d 2 (by decide), ← hs3, ← hv3]
    rfl
  refine (congrFun (after1_5 V c t) _).trans ?_
  rw [outsAt1_C V c t h0 h3, outsAt1_congr V c (t.val - 1) (pt t 2).val hprev (prevLt t) (pt t 2).isLt]
  dsimp only
  rw [outC_5_eq]
  refine (outv_apply _ _ _ r d).trans ?_
  exact congrArg (· + iblk1 V c 4 t (ix3 0 r d))
    (congrArg₂ Ideal.div (congrArg St.acc hst) (congrArg St.l hst))

end Cert.KernelIdeal.Hand

end
-- ==== Proof.LibRealArrays.lean ====
/-
  Arrays of extended reals whose entries are all real numbers.

  On the extended reals the distributive law and the exchange of a product with a sum fail at the
  infinities, so a law that needs them is applied only to arrays known to hold real numbers. This
  file says which array operations keep that property: an operation that re-lays entries
  (transpose, slice, broadcast, concatenate, gather) returns entries of its operands; a pointwise
  sum, difference, product, negation, maximum, exponential or hyperbolic tangent of real numbers is
  a real number; a quotient by a POSITIVE real and the reciprocal square root of a POSITIVE real are
  real numbers; a finite sum of real numbers is a real number, hence so is every entry of a matrix
  product and of an accumulating scatter of real arrays.
-/
import Idealize.ShloMosaic.PureOps.Ideal
import Idealize.ShloMosaic.PureOps.Ideal.Laws

noncomputable section

namespace RealArrays

open Idealize.ShloMosaic

/-! ## Real and positive extended reals -/

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsPos.isReal {x : EReal} (h : IsPos x) : IsReal x := let ⟨r, _, e⟩ := h; ⟨r, e⟩

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- The maximum of a real number and a positive real number is a positive real number. -/
theorem IsPos.max_right {x y : EReal} (hx : IsReal x) (hy : IsPos y) : IsPos (max x y) := by
  rcases le_total x y with h | h
  · rw [max_eq_right h]; exact hy
  · rw [max_eq_left h]
    obtain ⟨a, rfl⟩ := hx; obtain ⟨b, hb, rfl⟩ := hy
    exact ⟨a, lt_of_lt_of_le hb (by exact_mod_cast h), rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

theorem IsPos.exp {x : EReal} (hx : IsReal x) : IsPos (Ideal.exp x) := by
  obtain ⟨a, rfl⟩ := hx; exact ⟨Real.exp a, Real.exp_pos a, Ideal.exp_coe a⟩

theorem IsReal.tanh {x : EReal} (hx : IsReal x) : IsReal (Ideal.tanh x) := by
  obtain ⟨a, rfl⟩ := hx; exact ⟨Real.tanh a, Ideal.tanh_coe a⟩

/-- A real number over a positive real number is a real number. -/
theorem IsReal.div_pos {x y : EReal} (hx : IsReal x) (hy : IsPos y) : IsReal (Ideal.div x y) := by
  obtain ⟨b, hb, rfl⟩ := hy
  rw [Ideal.div_coe (ne_of_gt hb)]
  exact hx.mul (isReal_coe _)

/-- The reciprocal square root of a positive real number is a real number. -/
theorem IsReal.rsqrt_pos {x : EReal} (hx : IsPos x) : IsReal (Ideal.rsqrt x) := by
  obtain ⟨a, ha, rfl⟩ := hx
  rw [Ideal.rsqrt_coe, if_neg (not_lt.2 ha.le), if_neg (ne_of_gt ha)]
  exact isReal_coe _

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s (fun _ => ?_) (fun a s ha ih h => ?_)
  · rw [Finset.sum_empty]; exact isReal_zero
  · rw [Finset.sum_insert ha]
    exact (h a (Finset.mem_insert_self a s)).add (ih fun i hi => h i (Finset.mem_insert_of_mem hi))

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty]; exact EReal.coe_zero
  · rw [Finset.sum_insert ha, Finset.sum_insert ha, EReal.coe_add, ih]

/-! ## Arrays -/

variable {s t : Shape} {φ ψ : FTy}

/-- Every entry of the array is a real number. -/
def AllReal (v : s.Idx → EReal) : Prop := ∀ i, IsReal (v i)

/-- Every entry of the array is a positive real number. -/
def AllPos (v : s.Idx → EReal) : Prop := ∀ i, IsPos (v i)

theorem AllPos.allReal {v : s.Idx → EReal} (h : AllPos v) : AllReal v := fun i => (h i).isReal

/-! ### Pointwise operations at the ideal instance -/

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.mulf {a b : FVec Ideal s φ} (ha : AllReal a) (hb : AllReal b) : AllReal (mulf a b) :=
  fun i => (ha i).mul (hb i)

theorem AllReal.maximumf {a b : FVec Ideal s φ} (ha : AllReal a) (hb : AllReal b) : AllReal (maximumf a b) :=
  fun i => (ha i).max (hb i)

theorem AllPos.maximumf_right {a b : FVec Ideal s φ} (ha : AllReal a) (hb : AllPos b) : AllPos (maximumf a b) :=
  fun i => IsPos.max_right (ha i) (hb i)

theorem AllPos.addf {a b : FVec Ideal s φ} (ha : AllPos a) (hb : AllPos b) : AllPos (addf a b) :=
  fun i => (ha i).add (hb i)

theorem AllReal.hostNegf {a : FVec Ideal s φ} (ha : AllReal a) : AllReal (Host.negf a) :=
  fun i => (ha i).neg

theorem AllPos.hostExp {a : FVec Ideal s φ} (ha : AllReal a) : AllPos (Host.exp a) :=
  fun i => IsPos.exp (ha i)

theorem AllReal.hostTanh {a : FVec Ideal s φ} (ha : AllReal a) : AllReal (Host.tanh a) :=
  fun i => (ha i).tanh

theorem AllReal.hostDivf {a b : FVec Ideal s φ} (ha : AllReal a) (hb : AllPos b) : AllReal (Host.divf a b) :=
  fun i => (ha i).div_pos (hb i)

theorem AllReal.hostRsqrt {a : FVec Ideal s φ} (ha : AllPos a) : AllReal (Host.rsqrt a) :=
  fun i => IsReal.rsqrt_pos (ha i)

/-- A selection between two real arrays is a real array, whatever the mask. -/
theorem AllReal.select {c : IVec s 1} {a b : s.Idx → EReal} (ha : AllReal a) (hb : AllReal b) :
    AllReal (select c a b) := fun i => by
  show IsReal (Scalar.select (c i) (a i) (b i))
  unfold Scalar.select
  split
  · exact ha i
  · exact hb i

/-! ### Operations that re-lay entries -/

theorem AllReal.transpose {x : s.Idx → EReal} (hx : AllReal x) (perm : List (Fin s.rank)) (h : s.Transposes perm t) :
    AllReal (transpose t perm x h) := fun _ => hx _

theorem AllReal.broadcastInDim {x : s.Idx → EReal} (hx : AllReal x) (dims : Fin s.rank → Fin t.rank)
    (h : s.BroadcastsInDim t dims) : AllReal (broadcastInDim t dims h x) := fun _ => hx _

theorem AllPos.broadcastInDim {x : s.Idx → EReal} (hx : AllPos x) (dims : Fin s.rank → Fin t.rank)
    (h : s.BroadcastsInDim t dims) : AllPos (broadcastInDim t dims h x) := fun _ => hx _

theorem AllReal.extractStridedSlice {x : s.Idx → EReal} (hx : AllReal x) (off : Fin s.rank → Nat) (h : s.Slices off t) :
    AllReal (extractStridedSlice t off x h) := fun _ => hx _

theorem AllReal.shapeCast {x : s.Idx → EReal} (hx : AllReal x) (h : s.ShapeCasts t) :
    AllReal (shapeCast t x h) := fun _ => hx _

/-- A gather reads entries of its operand, whatever the indices. -/
theorem AllReal.hostGather {si : Shape} {w : Nat} {x : s.Idx → EReal} (hx : AllReal x) (d : GatherDims s si t)
    (idx : IVec si w) : AllReal (Host.gather d x idx) := fun _ => hx _

/-- A concatenation of real arrays is a real array. -/
theorem AllReal.concatenate (a : Fin t.rank) (xs : List ((s : Shape) × (s.Idx → EReal)))
    (h : Shape.Concatenates (xs.map (·.1)) t a) (hx : ∀ p ∈ xs, AllReal p.2) : AllReal (concatenate t a xs h) := by
  intro j
  unfold Idealize.ShloMosaic.concatenate
  exact hx _ (List.getElem_mem _) _

/-! ### Sums: the host's matrix product and its accumulating scatter -/

/-- Every entry of the host's product of two real arrays is a finite sum of products of real numbers. -/
theorem AllReal.hostDotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := by
  intro j
  show IsReal (FloatOps.dotGeneral d prec .single l r j)
  rw [Ideal.dotGeneral_apply]
  exact IsReal.sum _ _ fun k _ => (hl _).mul (hr _)

/-- Every entry of an accumulating scatter of real updates onto a real array is that array's entry plus a
    finite sum of updates. -/
theorem AllReal.hostScatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (IsReal.sum _ _ fun j _ => hu j)

end RealArrays

end
-- ==== Proof.RowOnline.lean ====
/-
  One query row of the attention block, consumed four tiles of 512 keys at a time, and the real numbers it is made of.

  A row of 2048 real scores and 2048 real values, cut into four consecutive tiles of 512 keys, is taken through the
  tile-by-tile softmax recurrence; the final weighted sum over the final normaliser is the plain softmax-weighted
  sum of the whole row. That recurrence uses distributivity, so it is stated for real entries; the second half of the
  file says the entries it is applied to are real: a projection relu (∑ x · W + b), the additive mask term
  EPS · (1 − mask) (EPS the float 10^10, 1 the float one) and a score ∑ q · k − EPS · (1 − mask) of real arrays are
  real numbers.
-/
import Idealize.ShloMosaic.Lib.IdealHost
import proofs.«152723_j25331717111812_2_alg».proof.Proof.Spec
import proofs.«152723_j25331717111812_2_alg».proof.Proof.LibRealArrays

noncomputable section

namespace Cert.Attn

open Idealize.ShloMosaic Idealize.ShloMosaic.ValueIdx RealArrays

/-! ## A row in four tiles -/

/-- After the four tiles of a row of real scores and real values, the weighted sum over the normaliser is the row's
    softmax-weighted sum: tile n holds keys n · 512 … n · 512 + 511. -/
theorem row_online (sc vv : Fin 2048 → EReal) (hs : ∀ j, RealArrays.IsReal (sc j)) (hv : ∀ j, RealArrays.IsReal (vv j))
    (sb vb : ℕ → Fin 512 → EReal)
    (hsb : ∀ (n : ℕ) (hn : n < 4) (j : Fin 512), sb n j = sc ⟨n * 512 + j.val, by omega⟩)
    (hvb : ∀ (n : ℕ) (hn : n < 4) (j : Fin 512), vb n j = vv ⟨n * 512 + j.val, by omega⟩) :
    Ideal.div (Cert.OnlineSoftmax.run sb vb 4).acc (Cert.OnlineSoftmax.run sb vb 4).l
      = Cert.OnlineSoftmax.refRow (N := 2048) sc vv := by
  choose sr hsr using hs
  choose vr hvr using hv
  obtain rfl : sc = fun j => ((sr j : ℝ) : EReal) := funext hsr
  obtain rfl : vv = fun j => ((vr j : ℝ) : EReal) := funext hvr
  exact Cert.OnlineSoftmax.run_div_eq_refRow (n := 4) (K := 512) (by norm_num) (by norm_num) sr vr sb vb
    (fun b hb j => hsb b hb j) (fun b hb j => hvb b hb j)

/-! ## The entries are real numbers -/

/-- The float 10^10 (the additive mask's scale) is the real number 10^10. -/
theorem ofBits_eps : Ideal.ofBits .f32 0x501502F9#32 = ((10000000000 : ℝ) : EReal) := by
  simp [Ideal.ofBits, Ideal.ieee, -EReal.coe_mul]; norm_num

theorem isReal_eps : IsReal (Ideal.ofBits .f32 0x501502F9#32) := ⟨_, ofBits_eps⟩

theorem isReal_one : IsReal (Ideal.ofBits .f32 0x3F800000#32) := ⟨1, by rw [Ideal.ofBits_one_f32]; norm_cast⟩

/-- A projection of real arrays is real: a finite sum of products of reals plus a real, and its maximum with zero. -/
theorem proj_real (x : Fin 8 → Fin 2048 → Fin 1024 → EReal) (W : Fin 1024 → Fin 1024 → EReal) (b : Fin 1024 → EReal)
    (hx : ∀ p s h, IsReal (x p s h)) (hW : ∀ d h, IsReal (W d h)) (hb : ∀ d, IsReal (b d))
    (p : Fin 8) (s : Fin 2048) (d : Fin 1024) : IsReal (proj x W b p s d) := by
  unfold proj
  exact ((IsReal.sum _ _ fun h _ => (hx p s h).mul (hW d h)).add (hb d)).max isReal_zero

/-- The additive mask term of a real mask is real. -/
theorem pen_real (mask : Fin 8 → Fin 2048 → EReal) (hm : ∀ p j, IsReal (mask p j)) (p : Fin 8) (j : Fin 2048) :
    IsReal (pen mask p j) := by
  unfold pen
  exact isReal_eps.mul (isReal_one.sub (hm p j))

/-- A score of real queries and keys under a real mask is real. -/
theorem score_real (q k : Fin 8 → Fin 2048 → Fin 1024 → EReal) (mask : Fin 8 → Fin 2048 → EReal)
    (hq : ∀ p i d, IsReal (q p i d)) (hk : ∀ p j d, IsReal (k p j d)) (hm : ∀ p j, IsReal (mask p j))
    (p : Fin 8) (i j : Fin 2048) : IsReal (score q k mask p i j) := by
  unfold score
  exact (IsReal.sum _ _ fun d _ => (hq p i d).mul (hk p j d)).sub (pen_real mask hm p j)

/-- The coordinate views of arrays of reals are real. -/
theorem c3_real (a : A3) (h : AllReal a) (p : Fin 8) (s : Fin 2048) (d : Fin 1024) : IsReal (c3 a p s d) := h _
theorem cm_real (a : AM) (h : AllReal a) (p : Fin 8) (j : Fin 2048) : IsReal (cm a p j) := h _
theorem c2_real (a : A2) (h : AllReal a) (d h' : Fin 1024) : IsReal (c2 a d h') := h _
theorem c1_real (a : A1) (h : AllReal a) (d : Fin 1024) : IsReal (c1 a d) := h _

end Cert.Attn

end
-- ==== Proof.KI.R1Value.lean ====
/-
  The attention region's output array is the attention of the specification.

  The region's output block at a position that writes back (the last key tile of a batch and a query tile) is, row
  by row, the tile-by-tile softmax recurrence over the four key tiles of that batch, divided out, plus the residual
  block. The four tiles visited are the positions t − 3 … t, which share t's batch and query tile and have key tiles
  0 … 3, so their key, value and mask blocks are the consecutive 512-row pieces of the batch's 2048 keys. With real
  queries, keys, values and mask the recurrence is the plain softmax-weighted sum of the row, and the sixteen
  written blocks cover the array.
-/
import proofs.«152723_j25331717111812_2_alg».proof.Proof.KI.R1Blocks
import proofs.«152723_j25331717111812_2_alg».proof.Proof.KI.R1Row
import proofs.«152723_j25331717111812_2_alg».proof.Proof.KI.R1Pay
import proofs.«152723_j25331717111812_2_alg».proof.Proof.RowOnline
import proofs.«152723_j25331717111812_2_alg».proof.Proof.Spec
import proofs.«152723_j25331717111812_2_alg».proof.Proof.LibRealArrays

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn RealArrays

/-- Indices with equal coordinates are equal. -/
theorem ix3_congr {n0 n1 n2 : ℕ} {a a' : Fin n0} {b b' : Fin n1} {e e' : Fin n2}
    (h0 : a.val = a'.val) (h1 : b.val = b'.val) (h2 : e.val = e'.val) : ix3 a b e = ix3 a' b' e' := by
  obtain rfl := Fin.ext h0; obtain rfl := Fin.ext h1; obtain rfl := Fin.ext h2; rfl

variable (V : (c : Dev nD) → (b : Ref sig .tc) → Buf (Elt Ideal) ((c : Thread nD τ).loc b))

/-- Tile n of the recurrence at a writing position t holds the scores of the query row against keys
    512 n … 512 n + 511 of t's batch. -/
theorem sbAt_eq (c : Dev nD) (t : Fin cfg1.N) (h3 : t.val % 4 = 3) (r : Fin 1024) (n : ℕ) (hn : n < 4) (j : Fin 512)
    (hJ : n * 512 + j.val < 2048) :
    sbAt V c t r n j
      = score (c3 (V c main_v11 : A3)) (c3 (V c main_v12 : A3)) (cm (V c main_arg1 : AM))
          (⟨t.val / 8, g1_batch_lt t⟩ : Fin 8) (⟨(t.val / 4 % 2) * 1024 + r.val, g1_qrow_lt t r⟩ : Fin 2048)
          (⟨n * 512 + j.val, hJ⟩ : Fin 2048) := by
  have ht := g1_pos_lt t
  have hp : (pt t n).val = t.val - 3 + n % 4 := rfl
  unfold sbAt Pay.sT score pen
  refine congrArg₂ (· - ·) (Finset.sum_congr rfl fun e _ => congrArg₂ (· * ·) ?_ ?_)
    (congrArg (fun z => Ideal.ofBits .f32 0x501502F9#32 * (Ideal.ofBits .f32 0x3F800000#32 - z)) ?_)
  · exact (iblk1_0_apply V c (pt t n) r e).trans (congrArg (V c main_v11 : A3)
      (ix3_congr (by show (pt t n).val / 8 = t.val / 8; omega)
        (by show ((pt t n).val / 4 % 2) * 1024 + r.val = (t.val / 4 % 2) * 1024 + r.val; omega) rfl))
  · exact (iblk1_1_apply V c (pt t n) j e).trans (congrArg (V c main_v12 : A3)
      (ix3_congr (by show (pt t n).val / 8 = t.val / 8; omega)
        (by show ((pt t n).val % 4) * 512 + j.val = n * 512 + j.val; omega) rfl))
  · exact (iblk1_3_apply V c (pt t n) j).trans (congrArg (V c main_arg1 : AM)
      (ix3_congr (by show (pt t n).val / 8 = t.val / 8; omega) rfl
        (by show ((pt t n).val % 4) * 512 + j.val = n * 512 + j.val; omega)))

/-- Tile n's values: feature d of value rows 512 n … 512 n + 511 of t's batch. -/
theorem vbAt_eq (c : Dev nD) (t : Fin cfg1.N) (h3 : t.val % 4 = 3) (d : Fin 1024) (n : ℕ) (hn : n < 4) (j : Fin 512)
    (hJ : n * 512 + j.val < 2048) :
    vbAt V c t d n j = c3 (V c main_v13 : A3) (⟨t.val / 8, g1_batch_lt t⟩ : Fin 8) (⟨n * 512 + j.val, hJ⟩ : Fin 2048) d := by
  have ht := g1_pos_lt t
  have hp : (pt t n).val = t.val - 3 + n % 4 := rfl
  unfold vbAt c3
  exact (iblk1_2_apply V c (pt t n) j d).trans (congrArg (V c main_v13 : A3)
    (ix3_congr (by show (pt t n).val / 8 = t.val / 8; omega)
      (by show ((pt t n).val % 4) * 512 + j.val = n * 512 + j.val; omega) rfl))

/-- The region's output array, when its queries, keys, values and mask are arrays of reals: the attention of the
    specification over them, with the residual array. -/
theorem arr1_5 (c : Dev nD) (hq : AllReal (V c main_v11 : A3)) (hk : AllReal (V c main_v12 : A3))
    (hv : AllReal (V c main_v13 : A3)) (hm : AllReal (V c main_arg1 : AM)) :
    (dat1 (F := Ideal) V c).arrAt 5 cfg1.N
      = fun i => attn (c3 (V c main_v11 : A3)) (c3 (V c main_v12 : A3)) (c3 (V c main_v13 : A3)) (cm (V c main_arg1 : AM))
          (c3 (V c main_arg0 : A3)) (i 0) (i 1) (i 2) := by
  refine final1_5 V c _ fun t h3 r e => ?_
  refine (after5_row V c t h3 r e).trans ?_
  show _ + _ = attn (c3 (V c main_v11 : A3)) (c3 (V c main_v12 : A3)) (c3 (V c main_v13 : A3)) (cm (V c main_arg1 : AM))
    (c3 (V c main_arg0 : A3)) (⟨t.val / 8, g1_batch_lt t⟩ : Fin 8) (⟨(t.val / 4 % 2) * 1024 + r.val, g1_qrow_lt t r⟩ : Fin 2048) e
  unfold attn
  refine congrArg₂ (· + ·) ?_ (iblk1_4_apply V c t r e)
  exact row_online _ _
    (fun j => score_real _ _ _ (c3_real _ hq) (c3_real _ hk) (cm_real _ hm) _ _ j)
    (fun j => c3_real _ hv _ j e) _ _
    (fun n hn j => sbAt_eq V c t h3 r n hn j _) (fun n hn j => vbAt_eq V c t h3 e n hn j _)

end Cert.KernelIdeal.Hand

end
-- ==== Proof.Finite.lean ====
/-
  From the precondition to real entries.

  The precondition says of each of the eight argument arrays that every entry x has |x| < +∞: the conjunction over all
  entries of an array, and then over the eight arrays, is the word 1. On the extended reals |x| = max x (−x), and
  max x (−x) < ⊤ excludes both infinities, so every entry of every argument is a real number.
-/
import proofs.«152723_j25331717111812_2_alg».proof.Defs
import proofs.«152723_j25331717111812_2_alg».proof.Proof.Gen.Pre_finite_inputs
import proofs.«152723_j25331717111812_2_alg».proof.Proof.LibRealArrays
import Idealize.ShloMosaic.Lib.ReduceAll
import Idealize.ShloMosaic.Lib.ValueIdx

noncomputable section

namespace Cert.RefSide

open Idealize.ShloMosaic Idealize.ShloMosaic.ValueIdx Idealize.ShloMosaic.TcCoe Idealize.SL.Sem RealArrays

/-- An extended real whose absolute value is below +∞ is a real number. -/
theorem isReal_of_abs_lt_inf (x : Ideal .f32)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    unfold Ideal.cmp at h
    by_contra hn
    simp [hn] at h
  rw [max_lt_iff] at hlt
  induction x using EReal.rec with
  | bot => simp at hlt
  | coe r => exact ⟨r, rfl⟩
  | top => simp at hlt

/-- The scalar shape has one index. -/
instance subsingleton_scalar_idx : Subsingleton (⟨0, ![]⟩ : Shape).Idx := ⟨fun _ _ => funext fun d => d.elim0⟩

/-- If the conjunction over all entries of "|a i| < bound i" is 1 and the bound is +∞ everywhere, every entry of a is real. -/
theorem allReal_of_all {s : Shape} {axes : List (Fin s.rank)} (a bound : FVec Ideal s .f32)
    (hb : ∀ i, bound i = FloatOps.ofBits (F := Ideal) .f32 0x7F800000#32)
    (init : IVec (⟨0, ![]⟩ : Shape) 1) (h : s.ReducesTo axes (⟨0, ![]⟩ : Shape)) (hu : 0 < (⟨0, ![]⟩ : Shape).numel)
    (e : Host.reduce IntOp.andi (cmpf .olt (Host.absf a) bound) init h hu ix0 = 1#1) : AllReal a := fun i => by
  have hi : cmpf .olt (Host.absf a) bound i = 1#1 := Host.reduce_andi_all _ init h hu ix0 e i
  refine isReal_of_abs_lt_inf (a i) ?_
  rw [← hb i]
  exact hi

open Cert.Pre_finite_inputs in
/-- The precondition's function being all ones makes every entry of its eight arguments real. -/
theorem real_of_fn (a0 : FVec Ideal S8x2048x1024 .f32) (a1 : FVec Ideal S8x1x2048 .f32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32)
    (h : Cert.Pre_finite_inputs.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  dsimp only [Cert.Pre_finite_inputs.fn, Cert.Pre_finite_inputs.fn_part1, Cert.Pre_finite_inputs.fn_part2] at h0
  obtain ⟨h6, e7⟩ := IntOp.andi_eq_one.1 h0
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨allReal_of_all a0 _ (fun _ => rfl) _ _ _ e0, allReal_of_all a1 _ (fun _ => rfl) _ _ _ e1,
    allReal_of_all a2 _ (fun _ => rfl) _ _ _ e2, allReal_of_all a3 _ (fun _ => rfl) _ _ _ e3,
    allReal_of_all a4 _ (fun _ => rfl) _ _ _ e4, allReal_of_all a5 _ (fun _ => rfl) _ _ _ e5,
    allReal_of_all a6 _ (fun _ => rfl) _ _ _ e6, allReal_of_all a7 _ (fun _ => rfl) _ _ _ e7⟩

/-- Under the precondition every entry of every argument array of the kernel is a real number, on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := ⟨3, ![8, 2048, 1024]⟩) (m ((c.tc : Thread Cert.KernelIdeal.nD Cert.KernelIdeal.τ).loc Cert.KernelIdeal.main_arg0))
    ∧ AllReal (s := ⟨3, ![8, 1, 2048]⟩) (m ((c.tc : Thread Cert.KernelIdeal.nD Cert.KernelIdeal.τ).loc Cert.KernelIdeal.main_arg1))
    ∧ AllReal (s := ⟨2, ![1024, 1024]⟩) (m ((c.tc : Thread Cert.KernelIdeal.nD Cert.KernelIdeal.τ).loc Cert.KernelIdeal.main_arg2))
    ∧ AllReal (s := ⟨1, ![1024]⟩) (m ((c.tc : Thread Cert.KernelIdeal.nD Cert.KernelIdeal.τ).loc Cert.KernelIdeal.main_arg3))
    ∧ AllReal (s := ⟨2, ![1024, 1024]⟩) (m ((c.tc : Thread Cert.KernelIdeal.nD Cert.KernelIdeal.τ).loc Cert.KernelIdeal.main_arg4))
    ∧ AllReal (s := ⟨1, ![1024]⟩) (m ((c.tc : Thread Cert.KernelIdeal.nD Cert.KernelIdeal.τ).loc Cert.KernelIdeal.main_arg5))
    ∧ AllReal (s := ⟨2, ![1024, 1024]⟩) (m ((c.tc : Thread Cert.KernelIdeal.nD Cert.KernelIdeal.τ).loc Cert.KernelIdeal.main_arg6))
    ∧ AllReal (s := ⟨1, ![1024]⟩) (m ((c.tc : Thread Cert.KernelIdeal.nD Cert.KernelIdeal.τ).loc Cert.KernelIdeal.main_arg7)) :=
  real_of_fn _ _ _ _ _ _ _ _ (h c)

end Cert.RefSide

end
-- ==== Proof.KI.Value.lean ====
/-
  The kernel's result is the attention block of the specification, over its own argument arrays.

  The first region leaves q, k, v = relu (x · W + b) over the flattened [16384, 1024] activations, the host having
  transposed the weights and laid the biases as rows; row p · 2048 + s of the flattened arrays is row s of batch p, so
  read back as [8, 2048, 1024] arrays these are the specification's projections of the arguments. The arguments are
  arrays of reals under the precondition, hence so are the projections, and the attention region's output array is
  then the specification's attention over them with the residual x: the block of the specification.
-/
import proofs.«152723_j25331717111812_2_alg».proof.Proof.KI.Run
import proofs.«152723_j25331717111812_2_alg».proof.Proof.KI.HostVals
import proofs.«152723_j25331717111812_2_alg».proof.Proof.KI.R0Value
import proofs.«152723_j25331717111812_2_alg».proof.Proof.KI.R1Value
import proofs.«152723_j25331717111812_2_alg».proof.Proof.RowOnline
import proofs.«152723_j25331717111812_2_alg».proof.Proof.Finite
import proofs.«152723_j25331717111812_2_alg».proof.Proof.Spec
import proofs.«152723_j25331717111812_2_alg».proof.Proof.LibRealArrays

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn RealArrays

/-! ## The flattened rows and the projections -/

/-- Row r of the flattened [16384, 1024] activations is row r % 2048 of batch r / 2048. -/
theorem flat_batch_lt (r : Fin 16384) : r.val / 2048 < 8 := by have := r.isLt; omega
theorem flat_row_lt (r : Fin 16384) : r.val % 2048 < 2048 := Nat.mod_lt _ (by decide)
/-- Row s of batch p is row p · 2048 + s of the flattened array. -/
theorem flat_lt (p : Fin 8) (s : Fin 2048) : p.val * 2048 + s.val < 16384 := by
  have := p.isLt; have := s.isLt; omega

/-- The first region's projection at flattened row p · 2048 + s is the specification's projection at (p, s): the
    flattened activations are the activations row by row, the weight matrix is the transposed weight, the bias row
    is the bias. -/
theorem proj_of_flat (X : S16384x1024.Idx → EReal) (W : S1024x1024.Idx → EReal) (B : S1x1024.Idx → EReal)
    (x : A3) (w : A2) (b : A1)
    (hX : ∀ (r : Fin 16384) (h : Fin 1024),
      X (ix2 r h) = x (ix3 (⟨r.val / 2048, flat_batch_lt r⟩ : Fin 8) (⟨r.val % 2048, flat_row_lt r⟩ : Fin 2048) h))
    (hW : ∀ h d : Fin 1024, W (ix2 h d) = w (ix2 d h)) (hB : ∀ d : Fin 1024, B (ix2 (0 : Fin 1) d) = b (ix1 d))
    (p : Fin 8) (s : Fin 2048) (d : Fin 1024) :
    qkvProj X W B (ix2 (⟨p.val * 2048 + s.val, flat_lt p s⟩ : Fin 16384) d) = proj (c3 x) (c2 w) (c1 b) p s d := by
  have hp := p.isLt
  have hs := s.isLt
  rw [qkvProj_apply]
  unfold proj c3 c2 c1
  refine congrArg (fun z => max z 0)
    (congrArg₂ (· + ·) (Finset.sum_congr rfl fun h _ => congrArg₂ (· * ·) ?_ (hW h d)) (hB d))
  exact (hX _ h).trans (congrArg x (ix3_congr (by show (p.val * 2048 + s.val) / 2048 = p.val; omega)
    (by show (p.val * 2048 + s.val) % 2048 = s.val; omega) rfl))

/-- An [8, 2048, 1024] array that holds the first region's projection row by row is the specification's projection. -/
theorem c3_eq_proj (Q : A3) (X : S16384x1024.Idx → EReal) (W : S1024x1024.Idx → EReal) (B : S1x1024.Idx → EReal)
    (x : A3) (w : A2) (b : A1)
    (hX : ∀ (r : Fin 16384) (h : Fin 1024),
      X (ix2 r h) = x (ix3 (⟨r.val / 2048, flat_batch_lt r⟩ : Fin 8) (⟨r.val % 2048, flat_row_lt r⟩ : Fin 2048) h))
    (hW : ∀ h d : Fin 1024, W (ix2 h d) = w (ix2 d h)) (hB : ∀ d : Fin 1024, B (ix2 (0 : Fin 1) d) = b (ix1 d))
    (hQ : ∀ (p : Fin 8) (s : Fin 2048) (d : Fin 1024),
      Q (ix3 p s d) = qkvProj X W B (ix2 (⟨p.val * 2048 + s.val, flat_lt p s⟩ : Fin 16384) d)) :
    c3 Q = proj (c3 x) (c2 w) (c1 b) :=
  funext fun p => funext fun s => funext fun d => (hQ p s d).trans (proj_of_flat X W B x w b hX hW hB p s d)

/-- An array whose coordinate view is real everywhere is an array of reals. -/
theorem allReal_of_c3 (Q : A3) (h : ∀ p s d, IsReal (c3 Q p s d)) : AllReal Q := fun i => by
  obtain ⟨p, s, d, rfl⟩ : ∃ (p : Fin 8) (s : Fin 2048) (d : Fin 1024), i = ix3 p s d := ⟨i 0, i 1, i 2, eq_ix3 i⟩
  exact h p s d

/-- The attention over the specification's projections of the arguments is the specification's block. -/
theorem attn_eq_outArr (Q K U : A3) (mask : AM) (x : A3) (wq : A2) (bq : A1) (wk : A2) (bk : A1) (wv : A2) (bv : A1)
    (hQ : c3 Q = proj (c3 x) (c2 wq) (c1 bq)) (hK : c3 K = proj (c3 x) (c2 wk) (c1 bk))
    (hU : c3 U = proj (c3 x) (c2 wv) (c1 bv)) :
    (fun i : (⟨3, ![8, 2048, 1024]⟩ : Shape).Idx => attn (c3 Q) (c3 K) (c3 U) (cm mask) (c3 x) (i 0) (i 1) (i 2))
      = outArr x mask wq bq wk bk wv bv := by
  rw [hQ, hK, hU]; rfl

/-! ## The boundaries of the run, at the extended reals -/

section Assembly

variable (m : (ℓ : Loc nD τ sig) → Buf (Elt Ideal) ℓ) (ρ : Dev nD → PrngReg)

/-- The buffer contents the projection region is entered from. -/
abbrev V1I : Vt Ideal := V1 (F := Ideal) m ρ
/-- The buffer contents the projection region leaves. -/
abbrev W2I (c : Dev nD) : Valuation τ sig (Elt Ideal) := W2 (F := Ideal) (dat0 (F := Ideal)) m ρ c
/-- The buffer contents the attention region is entered from. -/
abbrev V3I : Vt Ideal := V3 (F := Ideal) (dat0 (F := Ideal)) m ρ
/-- The buffer contents at the return. -/
abbrev W4I (c : Dev nD) : Valuation τ sig (Elt Ideal) := W4 (F := Ideal) (dat0 (F := Ideal)) (dat1 (F := Ideal)) m ρ c

/-- The attention region's q, k, v arrays are the specification's projections of the arguments. -/
theorem q_eq (c : Dev nD) :
    c3 (V3 (F := Ideal) (dat0 (F := Ideal)) m ρ c main_v11 : A3)
      = proj (c3 (m ((c.tc : Thread nD τ).loc main_arg0) : A3)) (c2 (m ((c.tc : Thread nD τ).loc main_arg2) : A2)) (c1 (m ((c.tc : Thread nD τ).loc main_arg3) : A1)) :=
  c3_eq_proj _ (V1 (F := Ideal) m ρ c main_v0) (V1 (F := Ideal) m ρ c main_v2) (V1 (F := Ideal) m ρ c main_v7) _ _ _
    (fun r h => V1_main_v0 m ρ c r h) (fun h d => V1_main_v2 m ρ c h d) (fun d => V1_main_v7 m ρ c d)
    (fun p s d => (V3_main_v11 (dat0 (F := Ideal)) m ρ c p s d).trans
      (congrFun ((W2_arr (dat0 (F := Ideal)) m ρ c 7).trans (arr0_7_eq (V1 (F := Ideal) m ρ) c)) _))
theorem k_eq (c : Dev nD) :
    c3 (V3 (F := Ideal) (dat0 (F := Ideal)) m ρ c main_v12 : A3)
      = proj (c3 (m ((c.tc : Thread nD τ).loc main_arg0) : A3)) (c2 (m ((c.tc : Thread nD τ).loc main_arg4) : A2)) (c1 (m ((c.tc : Thread nD τ).loc main_arg5) : A1)) :=
  c3_eq_proj _ (V1 (F := Ideal) m ρ c main_v0) (V1 (F := Ideal) m ρ c main_v4) (V1 (F := Ideal) m ρ c main_v8) _ _ _
    (fun r h => V1_main_v0 m ρ c r h) (fun h d => V1_main_v4 m ρ c h d) (fun d => V1_main_v8 m ρ c d)
    (fun p s d => (V3_main_v12 (dat0 (F := Ideal)) m ρ c p s d).trans
      (congrFun ((W2_arr (dat0 (F := Ideal)) m ρ c 8).trans (arr0_8_eq (V1 (F := Ideal) m ρ) c)) _))
theorem v_eq (c : Dev nD) :
    c3 (V3 (F := Ideal) (dat0 (F := Ideal)) m ρ c main_v13 : A3)
      = proj (c3 (m ((c.tc : Thread nD τ).loc main_arg0) : A3)) (c2 (m ((c.tc : Thread nD τ).loc main_arg6) : A2)) (c1 (m ((c.tc : Thread nD τ).loc main_arg7) : A1)) :=
  c3_eq_proj _ (V1 (F := Ideal) m ρ c main_v0) (V1 (F := Ideal) m ρ c main_v6) (V1 (F := Ideal) m ρ c main_v9) _ _ _
    (fun r h => V1_main_v0 m ρ c r h) (fun h d => V1_main_v6 m ρ c h d) (fun d => V1_main_v9 m ρ c d)
    (fun p s d => (V3_main_v13 (dat0 (F := Ideal)) m ρ c p s d).trans
      (congrFun ((W2_arr (dat0 (F := Ideal)) m ρ c 9).trans (arr0_9_eq (V1 (F := Ideal) m ρ) c)) _))

/-- The attention output's buffer at the return, under the precondition: the specification's block of the arguments. -/
theorem out_eq (hpre : Cert.Pre_KernelIdeal m) (c : Dev nD) :
    W4 (F := Ideal) (dat0 (F := Ideal)) (dat1 (F := Ideal)) m ρ c (Proc.devRef .tc main_v14)
      = outArr (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  obtain ⟨r0, r1, r2, r3, r4, r5, r6, r7⟩ := Cert.RefSide.real_of_pre m hpre c
  have hx := c3_real _ r0
  have hq : AllReal (V3 (F := Ideal) (dat0 (F := Ideal)) m ρ c main_v11 : A3) := allReal_of_c3 _ fun p s d => by
    rw [q_eq m ρ c]; exact proj_real _ _ _ hx (c2_real _ r2) (c1_real _ r3) p s d
  have hk : AllReal (V3 (F := Ideal) (dat0 (F := Ideal)) m ρ c main_v12 : A3) := allReal_of_c3 _ fun p s d => by
    rw [k_eq m ρ c]; exact proj_real _ _ _ hx (c2_real _ r4) (c1_real _ r5) p s d
  have hv : AllReal (V3 (F := Ideal) (dat0 (F := Ideal)) m ρ c main_v13 : A3) := allReal_of_c3 _ fun p s d => by
    rw [v_eq m ρ c]; exact proj_real _ _ _ hx (c2_real _ r6) (c1_real _ r7) p s d
  have hm : AllReal (V3 (F := Ideal) (dat0 (F := Ideal)) m ρ c main_arg1 : AM) := by rw [V3_main_arg1 (dat0 (F := Ideal)) m ρ c]; exact r1
  refine (W4_main_v14 (dat0 (F := Ideal)) (dat1 (F := Ideal)) m ρ c).trans ?_
  refine (arr1_5 (V3 (F := Ideal) (dat0 (F := Ideal)) m ρ) c hq hk hv hm).trans ?_
  rw [V3_main_arg1 (dat0 (F := Ideal)) m ρ c, V3_main_arg0 (dat0 (F := Ideal)) m ρ c]
  exact attn_eq_outArr _ _ _ _ _ _ _ _ _ _ _ (q_eq m ρ c) (k_eq m ρ c) (v_eq m ρ c)

/-- Under the precondition every execution of the kernel ends with the specification's block of its own argument
    arrays in the result buffer, and the arguments as they were. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v14)
          = outArr (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (Cert.KernelIdeal.defs (F := Ideal)) _ _).mono
    (fun r h c =>
      ⟨(h c _ (mem_uc main_v14 (by decide))).trans (out_eq m ρ hpre c),
       (h c _ (mem_uc main_arg0 (by decide))).trans (W4_main_arg0 (dat0 (F := Ideal)) (dat1 (F := Ideal)) (fun V c w => A_eq1 V c w) m ρ c),
       (h c _ (mem_uc main_arg1 (by decide))).trans (W4_main_arg1 (dat0 (F := Ideal)) (dat1 (F := Ideal)) (fun V c w => A_eq1 V c w) m ρ c),
       (h c _ (mem_uc main_arg2 (by decide))).trans (W4_main_arg2 (dat0 (F := Ideal)) (dat1 (F := Ideal)) m ρ c),
       (h c _ (mem_uc main_arg3 (by decide))).trans (W4_main_arg3 (dat0 (F := Ideal)) (dat1 (F := Ideal)) m ρ c),
       (h c _ (mem_uc main_arg4 (by decide))).trans (W4_main_arg4 (dat0 (F := Ideal)) (dat1 (F := Ideal)) m ρ c),
       (h c _ (mem_uc main_arg5 (by decide))).trans (W4_main_arg5 (dat0 (F := Ideal)) (dat1 (F := Ideal)) m ρ c),
       (h c _ (mem_uc main_arg6 (by decide))).trans (W4_main_arg6 (dat0 (F := Ideal)) (dat1 (F := Ideal)) m ρ c),
       (h c _ (mem_uc main_arg7 (by decide))).trans (W4_main_arg7 (dat0 (F := Ideal)) (dat1 (F := Ideal)) m ρ c)⟩)
    (run_all (dat0 (F := Ideal)) (fun V c w => A_eq0 V c w) (fun _ _ _ => rfl) (fun _ _ _ => rfl) (fun _ _ _ => rfl)
      (fun _ _ _ => rfl) (fun V c => body_obligation0 V c) (dat1 (F := Ideal)) (fun V c w => A_eq1 V c w)
      (fun V c w => q_eq1 V c w) (fun V c t => owed_eq1 V c t) (fun _ _ _ => rfl) (fun V c => body_obligation1 V c)
      (fun V c => hin1 V c) (fun V c => hout1 V c) m ρ)

end Assembly

end Cert.KernelIdeal.Hand

end
-- ==== Proof.Ref.lean ====
/-
  The reference program computes the attention block of the specification.

  Read one entry at a time, the reference's result at (p, s, d) is the softmax-weighted sum over the keys j of the
  value rows v[p, j, d], the weights being exp (score[p, s, j] − M) / (0 + ∑ᵤ exp (score[p, s, u] − M)) with M the
  row's maximum max (−∞) (fold max (−∞) score[p, s, ·]), plus the residual x[p, s, d]; q, k, v are
  relu (x · Wᵀ + b) and score[p, s, j] = ∑_d q[p, s, d] · k[p, j, d] − EPS · (1 − mask[p, 0, j]). That is the
  specification's `outArr` spelt operation by operation, so no algebraic law is used: each stage is read at an index.
-/
import proofs.«152723_j25331717111812_2_alg».proof.Defs
import proofs.«152723_j25331717111812_2_alg».proof.Proof.Gen.Pre_finite_inputs
import proofs.«152723_j25331717111812_2_alg».proof.Proof.Gen.ReferenceIdeal.Run
import proofs.«152723_j25331717111812_2_alg».proof.Proof.Gen.ReferenceIdeal.Read
import proofs.«152723_j25331717111812_2_alg».proof.Proof.Spec

noncomputable section

namespace Cert.RefSide

open Idealize.ShloMosaic Idealize.ShloMosaic.ValueIdx Idealize.ShloMosaic.TcCoe Idealize.SL.Sem
open Cert.ReferenceIdeal Cert.ReferenceIdeal.Gen Cert.ReferenceIdeal.Read Cert.Attn

/-! ## Where each stage reads its operands, in coordinates -/

theorem lidx_v0 (p : Fin 8) (s : Fin 2048) (d k : Fin 1024) : lidx_main_v0 (ix3 p s d) k = ix3 p s k :=
  funext fun a => Fin.ext (by match a with | ⟨0, _⟩ => rfl | ⟨1, _⟩ => rfl | ⟨2, _⟩ => rfl)
theorem ridx_v0 (p : Fin 8) (s : Fin 2048) (d k : Fin 1024) : ridx_main_v0 (ix3 p s d) k = ix2 d k :=
  funext fun a => Fin.ext (by match a with | ⟨0, _⟩ => rfl | ⟨1, _⟩ => rfl)
theorem idx_v2 (p : Fin 8) (s : Fin 2048) (d : Fin 1024) : idx_main_v1 (idx_main_v2 (ix3 p s d)) = ix1 d :=
  funext fun a => Fin.ext (by match a with | ⟨0, _⟩ => rfl)

/-- The first projection at (p, s, d): relu of the row of x against row d of the weight, plus the bias. -/
theorem proj_v4 (x0 : A3) (x2 : A2) (x3 : A1) (p : Fin 8) (s : Fin 2048) (d : Fin 1024) :
    val_main_v4 (F := Ideal) x0 x2 x3 (ix3 p s d) = proj (c3 x0) (c2 x2) (c1 x3) p s d := by
  rw [val_main_v4_apply, val_main_v3_apply, val_main_v0_apply, val_main_v2_apply, val_main_v1_apply,
    val_main_call0_v0_apply, val_main_call0_cst_apply]
  simp only [lidx_v0, ridx_v0, idx_v2, Ideal.maximumf_def, Ideal.addf_def, Ideal.ofBits_def, Ideal.ofBits_zero_f32]
  rfl

/-- The second and third projections are the same operations applied to the other weights and biases. -/
theorem proj_v9 (x0 : A3) (x4 : A2) (x5 : A1) (p : Fin 8) (s : Fin 2048) (d : Fin 1024) :
    val_main_v9 (F := Ideal) x0 x4 x5 (ix3 p s d) = proj (c3 x0) (c2 x4) (c1 x5) p s d :=
  proj_v4 x0 x4 x5 p s d
theorem proj_v14 (x0 : A3) (x6 : A2) (x7 : A1) (p : Fin 8) (s : Fin 2048) (d : Fin 1024) :
    val_main_v14 (F := Ideal) x0 x6 x7 (ix3 p s d) = proj (c3 x0) (c2 x6) (c1 x7) p s d :=
  proj_v4 x0 x6 x7 p s d

theorem lidx_v15 (p : Fin 8) (s k : Fin 2048) (h : Fin 1024) : lidx_main_v15 (ix3 p s k) h = ix3 p s h :=
  funext fun a => Fin.ext (by match a with | ⟨0, _⟩ => rfl | ⟨1, _⟩ => rfl | ⟨2, _⟩ => rfl)
theorem ridx_v15 (p : Fin 8) (s k : Fin 2048) (h : Fin 1024) : ridx_main_v15 (ix3 p s k) h = ix3 p k h :=
  funext fun a => Fin.ext (by match a with | ⟨0, _⟩ => rfl | ⟨1, _⟩ => rfl | ⟨2, _⟩ => rfl)
theorem idx_v20 (p : Fin 8) (s k : Fin 2048) : idx_main_v20 (ix3 p s k) = ix3 p (0 : Fin 1) k :=
  funext fun a => Fin.ext (by match a with | ⟨0, _⟩ => rfl | ⟨1, _⟩ => rfl | ⟨2, _⟩ => rfl)

/-- The masked score of query row s against key row k. -/
theorem score_v21 (x0 : A3) (x1 : AM) (x2 : A2) (x3 : A1) (x4 : A2) (x5 : A1) (p : Fin 8) (s k : Fin 2048) :
    val_main_v21 (F := Ideal) x0 x1 x2 x3 x4 x5 (ix3 p s k)
      = score (proj (c3 x0) (c2 x2) (c1 x3)) (proj (c3 x0) (c2 x4) (c1 x5)) (cm x1) p s k := by
  rw [val_main_v21_apply, val_main_v15_apply, val_main_v20_apply, val_main_v19_apply, val_main_v18_apply,
    val_main_v17_apply, val_main_v16_apply, val_main_cst_0_apply, val_main_cst_apply]
  simp only [lidx_v15, ridx_v15, idx_v20, proj_v4, proj_v9, Ideal.subf_def, Ideal.mulf_def, Ideal.ofBits_def]
  rfl

/-! ## The softmax over the keys -/

/-- The float word of −∞ is the bottom of the extended reals. -/
theorem ofBits_neg_inf : Ideal.ofBits .f32 0xFF800000#32 = ⊥ := by simp [Ideal.ofBits, Ideal.ieee]

/-- A key index put back into the reduced index (p, s) is the entry (p, s, k). -/
theorem lift_keys (h : S8x2048x2048.Reduces [2] S8x2048) (p : Fin 8) (s : Fin 2048) (k : Fin (S8x2048x2048.size 2)) :
    h.lift (ix2 p s) k = ix3 p s (⟨k.val, k.isLt⟩ : Fin 2048) := by
  funext c; apply Fin.ext
  fin_cases c <;> rfl

/-- The maximum over the keys, at query row (p, s): the fold of max over that row's entries from the initial value. -/
theorem reduce_max_keys (x : S8x2048x2048.Idx → EReal) (init : S_.Idx → EReal) (h' : S8x2048x2048.ReducesTo [2] S8x2048)
    (hu : 0 < S_.numel) (p : Fin 8) (s : Fin 2048) :
    Host.reduce (FloatOps.maximumf (F := Ideal) (φ := .f32)) x init h' hu (ix2 p s)
      = Finset.univ.fold max (init (Shape.Idx.first hu)) (fun k : Fin 2048 => x (ix3 p s k)) := by
  have h : S8x2048x2048.Reduces [2] S8x2048 := by decide
  rw [Host.reduce_eq_fold_single (FloatOps.maximumf (F := Ideal) (φ := .f32)) x init h' h hu (ix2 p s)]
  exact congrArg (fun f => Finset.fold max (init (Shape.Idx.first hu)) f (Finset.univ : Finset (Fin 2048)))
    (funext fun k => congrArg x (lift_keys h p s k))

/-- The scores of query row (p, s) against every key, from the arguments. -/
def sc (x0 : A3) (x1 : AM) (x2 : A2) (x3 : A1) (x4 : A2) (x5 : A1) (p : Fin 8) (s k : Fin 2048) : EReal :=
  score (proj (c3 x0) (c2 x2) (c1 x3)) (proj (c3 x0) (c2 x4) (c1 x5)) (cm x1) p s k

/-- The row maximum as the reference takes it: max of −∞ and the fold from −∞. -/
def rowMax (x0 : A3) (x1 : AM) (x2 : A2) (x3 : A1) (x4 : A2) (x5 : A1) (p : Fin 8) (s : Fin 2048) : EReal :=
  max ⊥ (Finset.univ.fold max ⊥ fun k : Fin 2048 => sc x0 x1 x2 x3 x4 x5 p s k)

theorem rowMax_v24 (x0 : A3) (x1 : AM) (x2 : A2) (x3 : A1) (x4 : A2) (x5 : A1) (p : Fin 8) (s : Fin 2048) :
    val_main_v24 (F := Ideal) x0 x1 x2 x3 x4 x5 (ix2 p s) = rowMax x0 x1 x2 x3 x4 x5 p s := by
  rw [val_main_v24_apply, val_main_v23_apply, val_main_cst_2_apply]
  unfold val_main_v22
  rw [reduce_max_keys, val_main_cst_1_apply]
  simp only [score_v21, Ideal.maximumf_def, Ideal.ofBits_def, ofBits_neg_inf]
  rfl

theorem idx_v26 (p : Fin 8) (s k : Fin 2048) : idx_main_v25 (idx_main_v26 (ix3 p s k)) = ix2 p s :=
  funext fun a => Fin.ext (by match a with | ⟨0, _⟩ => rfl | ⟨1, _⟩ => rfl)

/-- The exponential of a score less its row's maximum. -/
theorem exp_v28 (x0 : A3) (x1 : AM) (x2 : A2) (x3 : A1) (x4 : A2) (x5 : A1) (p : Fin 8) (s k : Fin 2048) :
    val_main_v28 (F := Ideal) x0 x1 x2 x3 x4 x5 (ix3 p s k)
      = Ideal.exp (sc x0 x1 x2 x3 x4 x5 p s k - rowMax x0 x1 x2 x3 x4 x5 p s) := by
  rw [val_main_v28_apply, val_main_v27_apply, val_main_v26_apply, val_main_v25_apply, idx_v26, rowMax_v24, score_v21]
  simp only [Ideal.hostUnary_exp_def, Ideal.subf_def]
  rfl

theorem idx_v29 (p : Fin 8) (s u : Fin 2048) : idx_main_v29 (ix2 p s) u = ix3 p s u :=
  funext fun a => Fin.ext (by match a with | ⟨0, _⟩ => rfl | ⟨1, _⟩ => rfl | ⟨2, _⟩ => rfl)

/-- The normaliser of query row (p, s): zero plus the sum of the row's exponentials. -/
theorem norm_v29 (x0 : A3) (x1 : AM) (x2 : A2) (x3 : A1) (x4 : A2) (x5 : A1) (p : Fin 8) (s : Fin 2048) :
    val_main_v29 (F := Ideal) x0 x1 x2 x3 x4 x5 (ix2 p s)
      = 0 + ∑ u : Fin 2048, Ideal.exp (sc x0 x1 x2 x3 x4 x5 p s u - rowMax x0 x1 x2 x3 x4 x5 p s) := by
  rw [val_main_v29_apply, val_main_cst_3_apply]
  simp only [idx_v29, exp_v28, Ideal.ofBits_def, Ideal.ofBits_zero_f32]

theorem idx_v31 (p : Fin 8) (s k : Fin 2048) : idx_main_v30 (idx_main_v31 (ix3 p s k)) = ix2 p s :=
  funext fun a => Fin.ext (by match a with | ⟨0, _⟩ => rfl | ⟨1, _⟩ => rfl)

/-- The softmax weight of key k for query row (p, s). -/
theorem weight_v32 (x0 : A3) (x1 : AM) (x2 : A2) (x3 : A1) (x4 : A2) (x5 : A1) (p : Fin 8) (s k : Fin 2048) :
    val_main_v32 (F := Ideal) x0 x1 x2 x3 x4 x5 (ix3 p s k)
      = Ideal.div (Ideal.exp (sc x0 x1 x2 x3 x4 x5 p s k - rowMax x0 x1 x2 x3 x4 x5 p s))
          (0 + ∑ u : Fin 2048, Ideal.exp (sc x0 x1 x2 x3 x4 x5 p s u - rowMax x0 x1 x2 x3 x4 x5 p s)) := by
  rw [val_main_v32_apply, val_main_v31_apply, val_main_v30_apply, idx_v31, norm_v29, exp_v28]
  rfl

/-! ## The weighted sum of the value rows, and the residual -/

theorem lidx_v33 (p : Fin 8) (s : Fin 2048) (d : Fin 1024) (k : Fin 2048) : lidx_main_v33 (ix3 p s d) k = ix3 p s k :=
  funext fun a => Fin.ext (by match a with | ⟨0, _⟩ => rfl | ⟨1, _⟩ => rfl | ⟨2, _⟩ => rfl)
theorem ridx_v33 (p : Fin 8) (s : Fin 2048) (d : Fin 1024) (k : Fin 2048) : ridx_main_v33 (ix3 p s d) k = ix3 p k d :=
  funext fun a => Fin.ext (by match a with | ⟨0, _⟩ => rfl | ⟨1, _⟩ => rfl | ⟨2, _⟩ => rfl)

/-- The reference's result, as a function of its eight argument arrays, is the specification's block. -/
theorem ref_eq (x0 : A3) (x1 : AM) (x2 : A2) (x3 : A1) (x4 : A2) (x5 : A1) (x6 : A2) (x7 : A1) :
    val_main_v34 (F := Ideal) x0 x1 x2 x3 x4 x5 x6 x7 = outArr x0 x1 x2 x3 x4 x5 x6 x7 := by
  funext i
  obtain ⟨p, s, d, rfl⟩ : ∃ (p : Fin 8) (s : Fin 2048) (d : Fin 1024), i = ix3 p s d := ⟨i 0, i 1, i 2, eq_ix3 i⟩
  rw [val_main_v34_apply, val_main_v33_apply, outArr_apply]
  simp only [lidx_v33, ridx_v33, weight_v32, proj_v14, Ideal.addf_def]
  rfl

/-! ## The reference's run -/

/-- Every execution of the reference ends with the specification's block of its own argument arrays in the result
    buffer, and the arguments as they were. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v34)
          = Cert.Attn.outArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v34_eq m' c).trans (ref_eq _ _ _ _ _ _ _ _)), (h c).2⟩)
    (Cert.ReferenceIdeal.Value.run (F := Ideal) m' g')

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.lean ====
/-
  The certificate of the attention block: three frames, the (empty) idealization ledger, and the equality at the
  ideal instance of the tiled kernel's result with the plain-softmax reference's.

  The kernel runs two regions. The first computes q, k, v = relu (x · Wᵀ + b) block of rows by block of rows. The
  second walks the key tiles of each query tile keeping a running maximum m, a normaliser l and an accumulator acc,
  each rescaled by exp (m − m') when the maximum moves, from −∞, 0, 0; after the last key tile it stores acc / l plus
  the residual. Over the extended reals, for real inputs, acc / l is the softmax-weighted sum of the value rows that
  the reference computes with the row maximum subtracted once (the rescalings telescope); the projections agree term
  by term. Both sides are shown equal to one specification of the eight argument arrays.
-/
import proofs.«152723_j25331717111812_2_alg».proof.Defs
import proofs.«152723_j25331717111812_2_alg».proof.Proof.Gen.Kernel
import proofs.«152723_j25331717111812_2_alg».proof.Proof.Gen.KernelIdeal
import proofs.«152723_j25331717111812_2_alg».proof.Proof.Gen.ReferenceIdeal
import proofs.«152723_j25331717111812_2_alg».proof.Proof.Gen.ReferenceIdeal.Run
import proofs.«152723_j25331717111812_2_alg».proof.Proof.Gen.ReferenceIdeal.Read
import proofs.«152723_j25331717111812_2_alg».proof.Proof.Gen.Pre_finite_inputs
import proofs.«152723_j25331717111812_2_alg».proof.Proof.K.Frame
import proofs.«152723_j25331717111812_2_alg».proof.Proof.KI.Frame
import proofs.«152723_j25331717111812_2_alg».proof.Proof.KI.Value
import proofs.«152723_j25331717111812_2_alg».proof.Proof.Ref

noncomputable section

namespace Cert.Proof

open Idealize.ShloMosaic Idealize.ShloMosaic.TcCoe Idealize.SL.Sem

/-- From memories agreeing on the arguments both programs end at the specification of those arguments. -/
theorem algebraic : Cert.algebraic_KernelIdeal_ReferenceIdeal := by
  intro m ρ m' ρ' hpre hagree
  refine ⟨fun c => Cert.Attn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Hand.kernel_run m ρ hpre, ?_⟩
  refine (θ_run Cert.ReferenceIdeal.defs _ _).mono (fun r h c => ⟨(h c).1.trans ?_, (h c).2⟩) (Cert.RefSide.ref_run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  Cert.Kernel.Hand.frame_K, Cert.KernelIdeal.Hand.frame_KI, Cert.RefSide.frame_ri, trivial, algebraic⟩

end Cert.Proof

end
